-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x1024 : Shape := ⟨2, ![1024, 1024]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x16x64 : Shape := ⟨3, ![512, 16, 64]⟩
abbrev S16x512x64 : Shape := ⟨3, ![16, 512, 64]⟩
abbrev S32x2048x64 : Shape := ⟨3, ![32, 2048, 64]⟩
abbrev S1x512x64 : Shape := ⟨3, ![1, 512, 64]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S2x2048x16x64 : Shape := ⟨4, ![2, 2048, 16, 64]⟩
abbrev S4096x1024 : Shape := ⟨2, ![4096, 1024]⟩

abbrev nBuf : Space → Nat
  | .hbm => 17
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x16x2048x64, .bf16⟩
  | .hbm, ⟨6, _⟩ => ⟨S2x16x2048x64, .bf16⟩
  | .hbm, ⟨7, _⟩ => ⟨S2x16x2048x64, .bf16⟩
  | .hbm, ⟨8, _⟩ => ⟨S32x2048x64, .bf16⟩
  | .hbm, ⟨9, _⟩ => ⟨S32x2048x64, .bf16⟩
  | .hbm, ⟨10, _⟩ => ⟨S32x2048x64, .bf16⟩
  | .hbm, ⟨11, _⟩ => ⟨S32x2048x64, .bf16⟩
  | .hbm, ⟨12, _⟩ => ⟨S2x16x2048x64, .bf16⟩
  | .hbm, ⟨13, _⟩ => ⟨S2x2048x16x64, .bf16⟩
  | .hbm, ⟨14, _⟩ => ⟨S4096x1024, .bf16⟩
  | .hbm, ⟨15, _⟩ => ⟨S4096x1024, .f32⟩
  | .hbm, ⟨16, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x16x512x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x512x64, .bf16⟩
  | .local _ .vmem, ⟨18, _⟩ => ⟨S1x512x64, .bf16⟩
  | .local _ .vmem, ⟨19, _⟩ => ⟨S512x1, .f32⟩
  | .local _ .vmem, ⟨20, _⟩ => ⟨S512x1, .f32⟩
  | .local _ .vmem, ⟨21, _⟩ => ⟨S512x64, .f32⟩
  | .local _ .vmem, ⟨22, _⟩ => ⟨S512x1024, .bf16⟩
  | .local _ .vmem, ⟨23, _⟩ => ⟨S512x1024, .bf16⟩
  | .local _ .vmem, ⟨24, _⟩ => ⟨S1024x1024, .f32⟩
  | .local _ .vmem, ⟨25, _⟩ => ⟨S512x1024, .f32⟩
  | .local _ .vmem, ⟨26, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![32, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  shapeCasts_S2x16x2048x64_S32x2048x64 : S2x16x2048x64.ShapeCasts S32x2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S2x16x2048x64.size a
  hwx0_4 : ∀ i : grid0.Coords, EltTy.bits .bf16 = 32 ∨ (Rect.block (s := S2x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S2x16x2048x64.size a
  hwx0_5 : ∀ i : grid0.Coords, EltTy.bits .bf16 = 32 ∨ (Rect.block (s := S2x16x2048x64) S1x16x512x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x512x64.size a ≤ S2x16x2048x64.size a
  hwx0_6 : ∀ i : grid0.Coords, EltTy.bits .bf16 = 32 ∨ (Rect.block (s := S2x16x2048x64) S1x16x512x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S32x2048x64.size a
  hwx1_1 : ∀ i : grid1.Coords, EltTy.bits .bf16 = 32 ∨ (Rect.block (s := S32x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S32x2048x64.size a
  hwx1_2 : ∀ i : grid1.Coords, EltTy.bits .bf16 = 32 ∨ (Rect.block (s := S32x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x16x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x16x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v7) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x2048x1024, .f32⟩
  | .hbm, ⟨6, _⟩ => ⟨S2x2048x16x64, .f32⟩
  | .hbm, ⟨7, _⟩ => ⟨S2x16x2048x64, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .i1⟩
  | .hbm, ⟨22, _⟩ => ⟨S2048x2048, .i1⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .i1⟩
  | .hbm, ⟨30, _⟩ => ⟨S2048x2048, .i1⟩
  | .hbm, ⟨31, _⟩ => ⟨S2048x2048, .i1⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S2x16x2048x2048, .i1⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S_, .f32⟩
  | .hbm, ⟨41, _⟩ => ⟨S2x16x2048, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x2048, .f32⟩
  | .hbm, ⟨47, _⟩ => ⟨S_, .f32⟩
  | .hbm, ⟨48, _⟩ => ⟨S2x16x2048, .f32⟩
  | .hbm, ⟨49, _⟩ => ⟨S2x16x2048x1, .f32⟩
  | .hbm, ⟨50, _⟩ => ⟨S2x16x2048x2048, .f32⟩
  | .hbm, ⟨51, _⟩ => ⟨S2x16x2048x2048, .f32⟩
  | .hbm, ⟨52, _⟩ => ⟨S2x16x2048x64, .f32⟩
  | .hbm, ⟨53, _⟩ => ⟨S2x2048x16x64, .f32⟩
  | .hbm, ⟨54, _⟩ => ⟨S2x2048x1024, .f32⟩
  | .hbm, ⟨55, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.Region0.lean ====
import proofs.«133407_j369367188058_2_alg».proof.Proof.Gen.Kernel.Launch
import proofs.«133407_j369367188058_2_alg».proof.Proof.Gen.Kernel.Skeleton
import proofs.«133407_j369367188058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the query, key and value projections, three matrix products of one activation block): what one run of the body does to the staging buffers

Everything is stated at a parameter `V`, the contents of the core's buffers at the moment the region starts.
For a grid point `t`: the block of each window cut from `V` (`iblk0`); the contents of each output buffer once
the body has run, as a function of the input blocks (`out0_W`); the record of proof data built from the two
(`dat0`); the fact that an input buffer holds its block whether or not the pipeline copied it in at `t`; the
body's weakest-precondition statement on arbitrary whole buffers; and from these the obligation the pipeline rule
asks of the body at every point (`body_obligation0`). -/

-- deciding membership in a rectangle with extents in the hundreds recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, and the body's whole-block accesses -/

/-- The block of window `w` at grid point `t`: the window's view at `t` read off its array's contents in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- All of the 1×512×1024 activation buffer. -/
abbrev rAct0 : Rect S1x512x1024 := Rect.unit (s := S1x512x1024) ![0, 0, 0] S1x512x1024.size inb_S1x512x1024_S1x512x1024_0_0_0
/-- All of a 1024×1024 weight buffer. -/
abbrev rWt0 : Rect S1024x1024 := Rect.unit (s := S1024x1024) ![0, 0] S1024x1024.size inb_S1024x1024_S1024x1024_0_0
/-- All of a 1×16×512×64 per-head output buffer. -/
abbrev rHead0 : Rect S1x16x512x64 := Rect.unit (s := S1x16x512x64) ![0, 0, 0, 0] S1x16x512x64.size inb_S1x16x512x64_S1x16x512x64_0_0_0_0

/-! ## The output buffers after the body

Each of the three output buffers is stored once, over the whole buffer: the activation block times one weight,
split into heads. The three differ only in the weight and the payload. -/

/-- The query window's buffer after the body, from the activation block and the first weight. -/
def out0_4 (x0 : Vec F S1x512x1024 .f32) (x1 : Vec F S1024x1024 .f32) : Vec F S1x16x512x64 .bf16 :=
  View.canon [⟨rHead0, k0_pay2 (View.ld x0 rAct0) (View.ld x1 rWt0)⟩]
/-- The key window's, from the activation block and the second weight. -/
def out0_5 (x0 : Vec F S1x512x1024 .f32) (x2 : Vec F S1024x1024 .f32) : Vec F S1x16x512x64 .bf16 :=
  View.canon [⟨rHead0, k0_pay3 (View.ld x0 rAct0) (View.ld x2 rWt0)⟩]
/-- The value window's, from the activation block and the third weight. -/
def out0_6 (x0 : Vec F S1x512x1024 .f32) (x3 : Vec F S1024x1024 .f32) : Vec F S1x16x512x64 .bf16 :=
  View.canon [⟨rHead0, k0_pay4 (View.ld x0 rAct0) (View.ld x3 rWt0)⟩]

/-- A single piece over the whole-buffer rectangle reaches every index of a per-head buffer. -/
theorem head0_reaches (p : Vec F S1x16x512x64 .bf16) (y : S1x16x512x64.Idx) :
    ∃ pc ∈ ([⟨rHead0, p⟩] : List (View.Piece (Elt F) S1x16x512x64 .bf16)), y ∈ pc.1.set :=
  View.cover_of_tiled [⟨rHead0, p⟩] S1x16x512x64.size (by rfl) y

/-! ## The proof data -/

/-- Pipeline 0's proof data on core `c`. Arrays: as `V` has them. After the body at `t`: each of the four input
    buffers still holds its block; the three output buffers hold `out0_4`, `out0_5`, `out0_6` of the activation
    block and the matching weight. The invariant only carries the other scoped buffers and the generator register
    along; the core owes nothing; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-! ## An input buffer holds its block at every point

Where the pipeline copies the block in, the buffer holds it by the copy. Where it does not, the block index is the
one of the point before, the body there left the buffer as it was (`after` is the block), and the window is neither
clipped nor ever idle: so the buffer still holds this point's block. The activation block is copied in at every
point; each weight is copied in at the first point only and read at all eight. -/

theorem holds0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) keep t d]
  unfold Dat.fetched Dat.blockOf iblk0; rw [A_eq0]; try rfl

theorem holds0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) keep t d]
  unfold Dat.fetched Dat.blockOf iblk0; rw [A_eq0]; try rfl

theorem holds0_2 (c : Dev nD) (t : Fin cfg0.N) (d) : (dat0 V c).before 2 t d = iblk0 V c 2 t := by
  have keep : ∀ s, (cfg0.win 2).cut (cfg0.grid.coords s) ((dat0 V c).after 2 s) = (dat0 V c).blockOf 2 s := fun s => by
    rw [after0_2]; unfold Dat.blockOf iblk0; rw [A_eq0]; try rfl
  rw [(dat0 V c).before_in_eq_fetched 2 rfl (fun _ => rfl) (fun _ _ _ => rfl) keep t d]
  unfold Dat.fetched Dat.blockOf iblk0; rw [A_eq0]; try rfl

theorem holds0_3 (c : Dev nD) (t : Fin cfg0.N) (d) : (dat0 V c).before 3 t d = iblk0 V c 3 t := by
  have keep : ∀ s, (cfg0.win 3).cut (cfg0.grid.coords s) ((dat0 V c).after 3 s) = (dat0 V c).blockOf 3 s := fun s => by
    rw [after0_3]; unfold Dat.blockOf iblk0; rw [A_eq0]; try rfl
  rw [(dat0 V c).before_in_eq_fetched 3 rfl (fun _ => rfl) (fun _ _ _ => rfl) keep t d]
  unfold Dat.fetched Dat.blockOf iblk0; rw [A_eq0]; try rfl

/-! ## The body on arbitrary whole buffers -/

set_option maxHeartbeats 2000000 in
/-- Given the four input buffers whole at known contents and the three output buffers whole at any contents, the
    body reaches any continuation that accepts the inputs unchanged and the outputs at `out0_4`, `out0_5`, `out0_6`
    of them. The body reads the four inputs; then for each output in turn it reads the buffer once without using
    the value and stores the payload over the whole buffer. A buffer written everywhere by one piece reads back as
    that piece. -/
theorem kernel0_runs (c : Dev nD) (E : Set ℕ) (i : grid0.Coords)
    (a0 : Memref sig .tc .vmem S1x512x1024 .f32) (h0 : a0.IsWhole)
    (a1 : Memref sig .tc .vmem S1024x1024 .f32) (h1 : a1.IsWhole) (a2 : Memref sig .tc .vmem S1024x1024 .f32) (h2 : a2.IsWhole)
    (a3 : Memref sig .tc .vmem S1024x1024 .f32) (h3 : a3.IsWhole)
    (a4 : Memref sig .tc .vmem S1x16x512x64 .bf16) (h4 : a4.IsWhole) (a5 : Memref sig .tc .vmem S1x16x512x64 .bf16) (h5 : a5.IsWhole)
    (a6 : Memref sig .tc .vmem S1x16x512x64 .bf16) (h6 : a6.IsWhole)
    (x0 : Vec F S1x512x1024 .f32) (x1 x2 x3 : Vec F S1024x1024 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3
        ∗ (∃ d, owns (c : Thread nD τ) a4 fullShare d) ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3
            ∗ owns (c : Thread nD τ) a4 fullShare (out0_4 x0 x1) ∗ owns (c : Thread nD τ) a5 fullShare (out0_5 x0 x2)
            ∗ owns (c : Thread nD τ) a6 fullShare (out0_6 x0 x3)) -∗ K ⟨⟩))
      ⊢ wp frame (wpE (defs₀ (F := F)) Variants.none c none) E (cc0__qkv_proj_kernel i a0 h0 a1 h1 a2 h2 a3 h3 a4 h4 a5 h5 a6 h6) K := by
  rw [cc0__qkv_proj_kernel_eq_skeleton]; unfold cc0__qkv_proj_kernel_skel owns
  iintro ⟨⟨%b0, %e0, P0⟩, ⟨%b1, %e1, P1⟩, ⟨%b2, %e2, P2⟩, ⟨%b3, %e3, P3⟩, ⟨%y4, %b4, -, P4⟩, ⟨%y5, %b5, -, P5⟩, ⟨%y6, %b6, -, P6⟩, Kont⟩
  subst e0 e1 e2 e3
  sl_exec
  sl_step
  iapply Kont
  isplitl [P0]
  · iexists b0; isplitr
    · ipureintro; rfl
    · iexact P0
  isplitl [P1]
  · iexists b1; isplitr
    · ipureintro; rfl
    · iexact P1
  isplitl [P2]
  · iexists b2; isplitr
    · ipureintro; rfl
    · iexact P2
  isplitl [P3]
  · iexists b3; isplitr
    · ipureintro; rfl
    · iexact P3
  -- an output buffer's final contents are fixed by its points-to fact, so that conjunct goes first
  isplitl [P4]
  · iexists _; isplitr; rotate_left
    · iexact P4
    · ipureintro; exact View.read_writes_eq_canon _ _ _ (head0_reaches _)
  isplitl [P5]
  · iexists _; isplitr; rotate_left
    · iexact P5
    · ipureintro; exact View.read_writes_eq_canon _ _ _ (head0_reaches _)
  iexists _; isplitr; rotate_left
  · iexact P6
  · ipureintro; exact View.read_writes_eq_canon _ _ _ (head0_reaches _)

/-! ## The obligation at a grid point -/

/-- The body as the pipeline calls it at `t`, from the invariant, what the core owes and the seven current staging
    buffers as the pipeline hands them over, to the same with each buffer at the proof data's `after`. The input
    buffers hold their blocks (`holds0_W`), so `kernel0_runs` applies at the blocks; the invariant and the debt do
    not depend on the point and are passed along. -/
theorem body0_runs (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d)))
      ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t)
          ∗ owns (c : Thread nD τ) (st0_5 t) fullShare ((dat0 V c).after 5 t)
          ∗ owns (c : Thread nD τ) (st0_6 t) fullShare ((dat0 V c).after 6 t))) := by
  have hΦ : (dat0 V c).Φ t.succ = (dat0 V c).Φ t.castSucc := rfl
  have ho : (dat0 V c).owesAt () t.succ = (dat0 V c).owesAt () t.castSucc := rfl
  simp only [holds0_0, holds0_1, holds0_2, holds0_3]
  rw [hΦ, ho, after0_0, after0_1, after0_2, after0_3, after0_4, after0_5, after0_6]
  unfold bodyAt0
  iintro ⟨Inv, Debt, ⟨%d0, B0⟩, ⟨%d1, B1⟩, ⟨%d2, B2⟩, ⟨%d3, B3⟩, ⟨%d4, B4⟩, ⟨%d5, B5⟩, ⟨%d6, B6⟩⟩
  iapply (kernel0_runs c Set.univ _ _ _ _ _ _ _ _ _ _ _ _ _ _ _ (iblk0 V c 0 t) (iblk0 V c 1 t) (iblk0 V c 2 t) (iblk0 V c 3 t) _)
  isplitl [B0]; · iexact B0
  isplitl [B1]; · iexact B1
  isplitl [B2]; · iexact B2
  isplitl [B3]; · iexact B3
  isplitl [B4]; · iexists _; iexact B4
  isplitl [B5]; · iexists _; iexact B5
  isplitl [B6]; · iexists _; iexact B6
  iintro ⟨B0, B1, B2, B3, B4, B5, B6⟩
  isplitl [Inv]; · iexact Inv
  isplitl [Debt]; · iexact Debt
  isplitl [B0]; · iexact B0
  isplitl [B1]; · iexact B1
  isplitl [B2]; · iexact B2
  isplitl [B3]; · iexact B3
  isplitl [B4]; · iexact B4
  isplitl [B5]; · iexact B5
  iexact B6

/-- The pipeline rule's obligation on the body, at every point: its conjunction over the windows written out is
    `body0_runs`. -/
theorem body_obligation0 (c : Dev nD) : BodyObligation (dat0 (F := F) V c) (defs₀ (F := F)) Variants.none () Set.univ := fun t => by
  rw [bigSep_W0, bigSep_W0]
  exact body0_runs V c t

end Cert.Kernel.Hand

end
-- ==== Proof.K.Scratch.lean ====
/-
  The flash-attention kernel keeps three buffers between grid points: the running row maximum (512 x 1), the running
  row denominator (512 x 1) and the running numerator (512 x 64). This module states, over the body's named
  payloads, what one grid point does to that triple — reset at the first key block, one step of the blockwise
  softmax recursion when the key block is not beyond the query block, nothing otherwise — and what the finalize
  branch writes out of it (numerator over denominator).
-/
import proofs.«133407_j369367188058_2_alg».proof.Proof.Gen.Kernel.Skeleton

noncomputable section

namespace Cert.Kernel.Hand

open Idealize.ShloMosaic Idealize.SL.Sem Cert.Kernel Cert.Kernel.Gen

variable {F : FTy → Type} [FloatOps F]

/-- Running maximum, running denominator, running numerator. -/
abbrev St (F : FTy → Type) [FloatOps F] : Type :=
  Vec F S512x1 .f32 × Vec F S512x1 .f32 × Vec F S512x64 .f32

/-- The triple the first key block starts from: maximum -inf, denominator 0, numerator 0. -/
def stInit : St F := (k1_pay1 (F := F), k1_pay2 (F := F), k1_pay3 (F := F))

/-- One step of the recursion on the key block `k`, value block `v`, query block `q`: new maximum, rescaled
    denominator plus the block's row sums, rescaled numerator plus the block's weighted values. -/
def stUpd (a1 a2 : BitVec 32) (q k v : Vec F S1x512x64 .bf16) (s : St F) : St F :=
  (k1_pay5 (k1_pay9 a1 a2 q k s.1),
   k1_pay12 a1 a2 q k s.1 s.2.1,
   k1_pay4 (k1_pay7 v) (k1_pay10 a1 a2 q k s.1) (k1_pay11 a1 a2 q k s.1) s.2.2)

/-- What grid point `i` = (batch-head, query block, key block) does to the triple. -/
def stepS (i : grid1.Coords) (q k v : Vec F S1x512x64 .bf16) (s : St F) : St F :=
  let s1 : St F := if (i 2).val = 0 then stInit else s
  if (i 2).val ≤ (i 1).val then
    stUpd (BitVec.ofNat 32 (i 1).val) (BitVec.ofNat 32 (i 2).val) q k v s1
  else s1

/-- At the first key block the incoming triple is not read. -/
theorem stepS_first (i : grid1.Coords) (q k v : Vec F S1x512x64 .bf16) (s s' : St F) (h : (i 2).val = 0) :
    stepS i q k v s = stepS i q k v s' := by
  unfold stepS; simp only [h, if_true]

/-- What the finalize branch stores into the output block: numerator over denominator. -/
def outS (s : St F) : Vec F S1x512x64 .bf16 := k1_pay6 s.2.2 s.2.1

end Cert.Kernel.Hand

end
-- ==== Proof.K.Region1Body.lean ====
/-
  The flash-attention body at one grid point, run on whole staging and scratch buffers.
  Three guarded blocks follow one another: a reset of the running triple (first key block), one step of the
  blockwise softmax recursion (key block not beyond the query block), and the final quotient written to the
  output block (last key block). Which blocks run depends only on the grid point; the five combinations the grid
  meets are run separately below, each with the buffers' final contents stated over the body's named payloads.
-/
import proofs.«133407_j369367188058_2_alg».proof.Proof.Gen.Kernel.Launch
import proofs.«133407_j369367188058_2_alg».proof.Proof.Gen.Kernel.Skeleton
import proofs.«133407_j369367188058_2_alg».proof.Proof.Gen.Kernel.Points
import proofs.«133407_j369367188058_2_alg».proof.Proof.K.Scratch
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset block runs: the key block is the first. -/
abbrev cnd1 (i : grid1.Coords) : Prop := (Scalar.cmpi .ne (Scalar.extui (Scalar.cmpi .eq (BitVec.ofNat 32 (i 2).val) 0#32)) 0#32) = 1#1
/-- The recursion step runs: the key block is not beyond the query block. -/
abbrev cnd2 (i : grid1.Coords) : Prop := (Scalar.cmpi .ne (Scalar.extui (Scalar.cmpi .sle (BitVec.ofNat 32 (i 2).val) (BitVec.ofNat 32 (i 1).val))) 0#32) = 1#1
/-- The final quotient is written: the key block is the last. -/
abbrev cnd3 (i : grid1.Coords) : Prop := k1_cond3 i = 1#1

/-! ## Loads and stores through a buffer's whole rectangle -/

theorem zeros2 : (![0, 0] : Fin 2 → ℕ) = fun _ => 0 := by funext a; fin_cases a <;> rfl
theorem zeros3 : (![0, 0, 0] : Fin 3 → ℕ) = fun _ => 0 := by funext a; fin_cases a <;> rfl

section Whole
variable {Val : EltTy → Type} [∀ e, Nonempty (Val e)] {sg : RefSig} {κ : Kind} {sp : Space} {S : Shape} {e : EltTy}

/-- What a buffer reads after a list of stores whose LAST one (the head) fills it: that store's value. -/
theorem read_after_fill (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

/-- A whole load after such stores reads that value too. -/
theorem load_after_fill (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h inb]

/-- A whole load of a buffer nothing stored into reads its contents. -/
theorem load_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]
end Whole

/-- Close a "contents after the run = stated contents" goal: unfold the run's names, read whole loads and stores. -/
macro "fin1" : tactic => `(tactic| first
  | rfl
  | (sl_unfold_words
     simp only [stUpd, stInit, outS,
       read_after_fill (S := S512x1) _ _ zeros2, read_after_fill (S := S512x64) _ _ zeros2, read_after_fill (S := S1x512x64) _ _ zeros3,
       load_after_fill (S := S512x1) _ zeros2, load_after_fill (S := S512x64) _ zeros2, load_after_fill (S := S1x512x64) _ zeros3,
       load_whole (S := S512x1) _ _ zeros2, load_whole (S := S512x64) _ _ zeros2, load_whole (S := S1x512x64) _ _ zeros3]))

/-! ## First key block: reset, then one step from the reset triple; the output block untouched -/

set_option maxHeartbeats 4000000 in
theorem runA (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cnd1 i) (hc2 : cnd2 i) (hc3 : ¬cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (d3)
            ∗ owns (c : Thread nD τ) arg7 fullShare ((stUpd (BitVec.ofNat 32 (i 1).val) (BitVec.ofNat 32 (i 2).val) x0 x1 x2 stInit).1) ∗ owns (c : Thread nD τ) arg8 fullShare ((stUpd (BitVec.ofNat 32 (i 1).val) (BitVec.ofNat 32 (i 2).val) x0 x1 x2 stInit).2.1) ∗ owns (c : Thread nD τ) arg9 fullShare ((stUpd (BitVec.ofNat 32 (i 1).val) (BitVec.ofNat 32 (i 2).val) x0 x1 x2 stInit).2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

/-! ## A middle key block at or below the diagonal: one step; the output block untouched -/

set_option maxHeartbeats 4000000 in
theorem runB (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cnd1 i) (hc2 : cnd2 i) (hc3 : ¬cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (d3)
            ∗ owns (c : Thread nD τ) arg7 fullShare ((stUpd (BitVec.ofNat 32 (i 1).val) (BitVec.ofNat 32 (i 2).val) x0 x1 x2 s).1) ∗ owns (c : Thread nD τ) arg8 fullShare ((stUpd (BitVec.ofNat 32 (i 1).val) (BitVec.ofNat 32 (i 2).val) x0 x1 x2 s).2.1) ∗ owns (c : Thread nD τ) arg9 fullShare ((stUpd (BitVec.ofNat 32 (i 1).val) (BitVec.ofNat 32 (i 2).val) x0 x1 x2 s).2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

/-! ## A middle key block beyond the diagonal: nothing happens -/

set_option maxHeartbeats 4000000 in
theorem runC (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cnd1 i) (hc2 : ¬cnd2 i) (hc3 : ¬cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (d3)
            ∗ owns (c : Thread nD τ) arg7 fullShare (s.1) ∗ owns (c : Thread nD τ) arg8 fullShare (s.2.1) ∗ owns (c : Thread nD τ) arg9 fullShare (s.2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

/-! ## The last key block on the diagonal: one step, then the quotient goes out -/

set_option maxHeartbeats 4000000 in
theorem runD (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cnd1 i) (hc2 : cnd2 i) (hc3 : cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (outS (stUpd (BitVec.ofNat 32 (i 1).val) (BitVec.ofNat 32 (i 2).val) x0 x1 x2 s))
            ∗ owns (c : Thread nD τ) arg7 fullShare ((stUpd (BitVec.ofNat 32 (i 1).val) (BitVec.ofNat 32 (i 2).val) x0 x1 x2 s).1) ∗ owns (c : Thread nD τ) arg8 fullShare ((stUpd (BitVec.ofNat 32 (i 1).val) (BitVec.ofNat 32 (i 2).val) x0 x1 x2 s).2.1) ∗ owns (c : Thread nD τ) arg9 fullShare ((stUpd (BitVec.ofNat 32 (i 1).val) (BitVec.ofNat 32 (i 2).val) x0 x1 x2 s).2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

/-! ## The last key block beyond the diagonal: only the quotient goes out -/

set_option maxHeartbeats 4000000 in
theorem runE (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cnd1 i) (hc2 : ¬cnd2 i) (hc3 : cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (outS s)
            ∗ owns (c : Thread nD τ) arg7 fullShare (s.1) ∗ owns (c : Thread nD τ) arg8 fullShare (s.2.1) ∗ owns (c : Thread nD τ) arg9 fullShare (s.2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

end Cert.Kernel.Hand

end
-- ==== Proof.K.Region1.lean ====
/-
  The flash-attention region, point by point. The grid is (batch-head, query block, key block), the key block
  innermost. The three scratch buffers carry the running triple (maximum, denominator, numerator) from one point
  to the next; `scrAt` says what they hold after each point, by recursion on the point. The query, key and value
  windows hold their blocks at every point (a key/value block beyond the diagonal is the diagonal's, fetched or
  not); the output window is written, and written back, only at the last key block of each query block.
-/
import proofs.«133407_j369367188058_2_alg».proof.Proof.Gen.Kernel.Launch
import proofs.«133407_j369367188058_2_alg».proof.Proof.Gen.Kernel.Skeleton
import proofs.«133407_j369367188058_2_alg».proof.Proof.Gen.Kernel.Points
import proofs.«133407_j369367188058_2_alg».proof.Proof.K.Scratch
import Idealize.ShloMosaic.Lib.Pipeline.Value
import proofs.«133407_j369367188058_2_alg».proof.Proof.K.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three conditions, as arithmetic on the point's coordinates -/

theorem cnd1_iff (i : grid1.Coords) : cnd1 i ↔ (i 2).val = 0 := by
  have h : ∀ a : Fin 4, ((Scalar.cmpi .ne (Scalar.extui (Scalar.cmpi .eq (BitVec.ofNat 32 a.val) 0#32)) 0#32) = 1#1) ↔ a.val = 0 := by
    decide +kernel
  exact h (i 2)

theorem cnd2_iff (i : grid1.Coords) : cnd2 i ↔ (i 2).val ≤ (i 1).val := by
  have h : ∀ a b : Fin 4, ((Scalar.cmpi .ne (Scalar.extui (Scalar.cmpi .sle (BitVec.ofNat 32 a.val) (BitVec.ofNat 32 b.val))) 0#32) = 1#1) ↔ a.val ≤ b.val := by
    decide +kernel
  exact h (i 2) (i 1)

theorem cnd3_iff (i : grid1.Coords) : cnd3 i ↔ (i 2).val = 3 := by
  have h : ∀ a : Fin 4, ((Scalar.cmpi .ne (Scalar.extui (Scalar.cmpi .eq (BitVec.ofNat 32 a.val) 3#32)) 0#32) = 1#1) ↔ a.val = 3 := by
    decide +kernel
  exact h (i 2)

/-- The grid's first point is a first key block. -/
theorem first_point_resets : ∀ t : Fin cfg1.N, t.val = 0 → cnd1 (grid1.coords t) :=
  (by decide +kernel : ∀ t : Fin grid1.N, t.val = 0 → cnd1 (grid1.coords t))

/-- The last key block of a query block is every fourth point, from the third. -/
theorem cnd3_points : ∀ t : Fin cfg1.N, cnd3 (grid1.coords t) ↔ t.val % 4 = 3 :=
  (by decide +kernel : ∀ t : Fin grid1.N, cnd3 (grid1.coords t) ↔ t.val % 4 = 3)

/-! ## What `stepS` is in each case -/

theorem stepS_reset (i : grid1.Coords) (q k v : Vec F S1x512x64 .bf16) (s : St F) (h1 : (i 2).val = 0) (h2 : (i 2).val ≤ (i 1).val) :
    stepS i q k v s = stUpd (BitVec.ofNat 32 (i 1).val) (BitVec.ofNat 32 (i 2).val) q k v stInit := by
  unfold stepS; simp only [h1, if_true, Nat.zero_le]

theorem stepS_upd (i : grid1.Coords) (q k v : Vec F S1x512x64 .bf16) (s : St F) (h1 : (i 2).val ≠ 0) (h2 : (i 2).val ≤ (i 1).val) :
    stepS i q k v s = stUpd (BitVec.ofNat 32 (i 1).val) (BitVec.ofNat 32 (i 2).val) q k v s := by
  unfold stepS; simp only [h1, if_false, h2, if_true]

theorem stepS_skip (i : grid1.Coords) (q k v : Vec F S1x512x64 .bf16) (s : St F) (h1 : (i 2).val ≠ 0) (h2 : ¬(i 2).val ≤ (i 1).val) :
    stepS i q k v s = s := by
  unfold stepS; simp only [h1, if_false, h2]

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point, fetched there or not. -/
theorem holds1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the key window's: beyond the diagonal the block index stays at the diagonal's. -/
theorem holds1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- And the value window's. -/
theorem holds1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The running triple after each point -/

/-- What the three scratch buffers hold after the body at point `n`: the point's step on what the point before left
    (at the grid's first point the incoming triple is not read). -/
def scrAt (c : Dev nD) : (n : ℕ) → n < cfg1.N → St F
  | 0, h => stepS (grid1.coords ⟨0, h⟩) (iblk1 V c 0 ⟨0, h⟩) (iblk1 V c 1 ⟨0, h⟩) (iblk1 V c 2 ⟨0, h⟩) stInit
  | n + 1, h => stepS (grid1.coords ⟨n + 1, h⟩) (iblk1 V c 0 ⟨n + 1, h⟩) (iblk1 V c 1 ⟨n + 1, h⟩) (iblk1 V c 2 ⟨n + 1, h⟩)
      (scrAt c n (Nat.lt_of_succ_lt h))

theorem scrAt_first (c : Dev nD) (t : Fin cfg1.N) (ht : t.val = 0) (s : St F) :
    scrAt V c t.val t.isLt = stepS (grid1.coords t) (iblk1 V c 0 t) (iblk1 V c 1 t) (iblk1 V c 2 t) s := by
  obtain ⟨n, hn⟩ := t
  cases n with
  | zero => exact stepS_first _ _ _ _ _ _ ((cnd1_iff _).mp (first_point_resets ⟨0, hn⟩ rfl))
  | succ n => exact absurd ht (Nat.succ_ne_zero n)

theorem scrAt_next (c : Dev nD) (t : Fin cfg1.N) (ht : t.val ≠ 0) :
    scrAt V c t.val t.isLt = stepS (grid1.coords t) (iblk1 V c 0 t) (iblk1 V c 1 t) (iblk1 V c 2 t)
      (scrAt V c (t.val - 1) (Nat.lt_of_le_of_lt (Nat.sub_le _ _) t.isLt)) := by
  obtain ⟨n, hn⟩ := t
  cases n with
  | zero => exact absurd rfl ht
  | succ n => rfl

/-! ## The scratch buffers and the invariant -/

abbrev scM0 : Memref sig .tc .vmem S512x1 .f32 := Memref.whole cc1_scratch0
abbrev scM1 : Memref sig .tc .vmem S512x1 .f32 := Memref.whole cc1_scratch1
abbrev scM2 : Memref sig .tc .vmem S512x64 .f32 := Memref.whole cc1_scratch2
/-- The region's own scratch among the core's scoped buffers. -/
abbrev scrL : List (Ref sig .tc) := [cc1_scratch0, cc1_scratch1, cc1_scratch2]

/-- What rides beside the scratch: every other scoped buffer that is no staging buffer of this region, and the
    generator register. -/
abbrev besides (c : Dev nD) : sProp 𝕄 :=
  iprop(Pipeline.scopedRestBut (Ix := Unit) (Name := ℕ) (U := UR sig nD τ) (Lvl := ℕ) (Val := Elt F) spec1 c scrL ∗ (∃ r, prngReg c r))

/-- The class invariant with the scratch buffers split out, each at some contents. -/
theorem PhiA1_eq (c : Dev nD) :
    (Pipeline.ΦA spec1 c : sProp 𝕄)
      = iprop((((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UR sig nD τ) (Lvl := ℕ) (Val := Elt F) spec1 c scrL) ∗ (∃ r, prngReg c r)) := by
  unfold Pipeline.ΦA
  rw [Pipeline.scopedRest_split_of_list spec1 c scrL (by decide) (by decide)]
  simp only [scM0, scM1, scM2, owns_whole]
  rfl

/-- The region's invariant before position `n`: before the first point the class's; afterwards the scratch at what the
    point before left, the rest riding along. -/
def PhiS (c : Dev nD) : (n : ℕ) → n ≤ cfg1.N → sProp 𝕄
  | 0, _ => Pipeline.ΦA spec1 c
  | n + 1, hn => iprop(owns (c : Thread nD τ) scM0 fullShare (scrAt V c n hn).1 ∗ owns (c : Thread nD τ) scM1 fullShare (scrAt V c n hn).2.1
      ∗ owns (c : Thread nD τ) scM2 fullShare (scrAt V c n hn).2.2 ∗ besides c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM0 fullShare (scrAt V c n hn).1 ∗ owns (c : Thread nD τ) scM1 fullShare (scrAt V c n hn).2.1
      ∗ owns (c : Thread nD τ) scM2 fullShare (scrAt V c n hn).2.2 ∗ besides c) := rfl

theorem PhiS_pos (c : Dev nD) (n : ℕ) (h : n ≤ cfg1.N) (hz : n ≠ 0) :
    PhiS V c n h = iprop(owns (c : Thread nD τ) scM0 fullShare (scrAt V c (n - 1) (by omega)).1 ∗ owns (c : Thread nD τ) scM1 fullShare (scrAt V c (n - 1) (by omega)).2.1
      ∗ owns (c : Thread nD τ) scM2 fullShare (scrAt V c (n - 1) (by omega)).2.2 ∗ besides c) := by
  cases n with
  | zero => exact absurd rfl hz
  | succ n => rfl

/-! ## The proof data -/

/-- The region's proof data on core `c`: the arrays as the region finds them; after the body each input window at
    its block, the output window at the quotient of the running triple (read only where the window is written);
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outS (scrAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outS (scrAt V c t.val t.isLt) := by dsimp only [dat1]

theorem holds1_0 (c : Dev nD) (t : Fin cfg1.N) (d) : (dat1 V c).before 0 t d = iblk1 V c 0 t :=
  holds1_0_of V (dat1 V c) (A_eq1 V c 0) (after1_0 V c) t d
theorem holds1_1 (c : Dev nD) (t : Fin cfg1.N) (d) : (dat1 V c).before 1 t d = iblk1 V c 1 t :=
  holds1_1_of V (dat1 V c) (A_eq1 V c 1) (after1_1 V c) t d
theorem holds1_2 (c : Dev nD) (t : Fin cfg1.N) (d) : (dat1 V c).before 2 t d = iblk1 V c 2 t :=
  holds1_2_of V (dat1 V c) (A_eq1 V c 2) (after1_2 V c) t d

theorem Phi_castSucc (c : Dev nD) (t : Fin cfg1.N) :
    (dat1 V c).Φ t.castSucc = PhiS V c t.val (Nat.le_of_lt t.isLt) := by
  dsimp only [dat1]; simp only [Fin.coe_castSucc]

/-! ## Where the windows are idle -/

theorem live1_0 (i : grid1.Coords) : cfg1.idle 0 i = false := rfl
theorem live1_1 (i : grid1.Coords) : cfg1.idle 1 i = false := rfl
theorem live1_2 (i : grid1.Coords) : cfg1.idle 2 i = false := rfl
/-- Away from the last key block the output window is idle, -/
theorem idle1_3 (i : grid1.Coords) (h : ¬cnd3 i) : cfg1.idle 3 i = true := by
  show (!(k1_cond3 i == 1#1)) = true
  simp only [Bool.not_eq_true', beq_eq_false_iff_ne, ne_eq]; exact h
/-- and not written back; -/
theorem noFlush1_3 (t : Fin cfg1.N) (h : ¬cnd3 (grid1.coords t)) : (cfg1.win 3).flush t = false := by
  cases hf : (cfg1.win 3).flush t
  · rfl
  · exact absurd ((cnd3_points t).mpr ((flush1_3 t).mp hf)) h
/-- at the last key block it is live. -/
theorem live1_3 (i : grid1.Coords) (h : cnd3 i) : cfg1.idle 3 i = false := by
  show (!(k1_cond3 i == 1#1)) = false
  simp only [Bool.not_eq_false', beq_iff_eq]; exact h

/-! ## The body obligation, at a generic point -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .bf16 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The invariant at a point's start hands out the scratch at some triple — after the first point, the one the point
    before left — and the rest. -/
theorem Phi_open (c : Dev nD) (t : Fin cfg1.N) :
    (dat1 V c).Φ t.castSucc ⊢ (iprop(∃ s : St F, ⌜t.val ≠ 0 → s = scrAt V c (t.val - 1) (Nat.lt_of_le_of_lt (Nat.sub_le _ _) t.isLt)⌝
        ∗ owns (c : Thread nD τ) scM0 fullShare s.1 ∗ owns (c : Thread nD τ) scM1 fullShare s.2.1 ∗ owns (c : Thread nD τ) scM2 fullShare s.2.2
        ∗ besides c) : sProp 𝕄) := by
  rw [Phi_castSucc]
  by_cases hz : t.val = 0
  · rw [PhiS_zero V c _ _ hz, PhiA1_eq]
    iintro ⟨⟨⟨⟨%d0, H0⟩, ⟨%d1, H1⟩, ⟨%d2, H2⟩⟩, Hr⟩, Hg⟩
    iexists (d0, d1, d2)
    isplitr; · ipureintro; intro h; exact absurd hz h
    isplitl [H0]; · iexact H0
    isplitl [H1]; · iexact H1
    isplitl [H2]; · iexact H2
    isplitl [Hr]; · iexact Hr
    iexact Hg
  · rw [PhiS_pos V c _ _ hz]
    iintro ⟨H0, H1, H2, Hb⟩
    iexists _
    isplitr; · ipureintro; intro _; rfl
    isplitl [H0]; · iexact H0
    isplitl [H1]; · iexact H1
    isplitl [H2]; · iexact H2
    iexact Hb

set_option maxHeartbeats 4000000 in
/-- The body at any point: the input windows hold their blocks; the coordinates say which of the five cases the point
    is in; the invariant hands the scratch out at what the point before left and takes it back at this point's triple;
    the output window is handed back untouched where it is idle, at the quotient where it is written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [holds1_0, holds1_1, holds1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [live1_0], after1_0]
  rw [show (dat1 V c).leavesExact 1 t = owns (c : Thread nD τ) (ms1_1 t) fullShare ((dat1 V c).after 1 t) from by
      unfold Dat.leavesExact; rw [live1_1], after1_1]
  rw [show (dat1 V c).leavesExact 2 t = owns (c : Thread nD τ) (ms1_2 t) fullShare ((dat1 V c).after 2 t) from by
      unfold Dat.leavesExact; rw [live1_2], after1_2]
  by_cases h3 : cnd3 (grid1.coords t)
  · rw [show (dat1 V c).leavesExact 3 t = owns (c : Thread nD τ) (ms1_3 t) fullShare ((dat1 V c).after 3 t) from by
        unfold Dat.leavesExact; rw [live1_3 _ h3], after1_3]
    have k3 := (cnd3_iff _).mp h3
    have h1 : ¬cnd1 (grid1.coords t) := fun h => by have := (cnd1_iff _).mp h; omega
    have k1 : ((grid1.coords t) 2).val ≠ 0 := fun h => h1 ((cnd1_iff _).mpr h)
    have ht : t.val ≠ 0 := fun h => h1 (first_point_resets t h)
    rw [scrAt_next V c t ht]
    by_cases h2 : cnd2 (grid1.coords t)
    · rw [stepS_upd _ _ _ _ _ k1 ((cnd2_iff _).mp h2)]
      iintro ⟨HΦ, Ho, ⟨%d0, H0⟩, ⟨%d1, H1⟩, ⟨%d2, H2⟩, ⟨%d3, H3⟩⟩
      ihave HS := (Phi_open V c t) $$ HΦ
      icases HS with ⟨%s, %hs, S0, S1, S2, Hb⟩
      obtain rfl := hs ht
      iapply (runD c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _) h1 h2 h3
        (iblk1 V c 0 t) (iblk1 V c 1 t) (iblk1 V c 2 t) _ _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hb]
      · isplitl [S0]; · iexact S0
        isplitl [S1]; · iexact S1
        isplitl [S2]; · iexact S2
        iexact Hb
      isplitl [Ho]; · iexact Ho
      isplitl [H0]; · iexact H0
      isplitl [H1]; · iexact H1
      isplitl [H2]; · iexact H2
      iexact H3
    · rw [stepS_skip _ _ _ _ _ k1 (fun h => h2 ((cnd2_iff _).mpr h))]
      iintro ⟨HΦ, Ho, ⟨%d0, H0⟩, ⟨%d1, H1⟩, ⟨%d2, H2⟩, ⟨%d3, H3⟩⟩
      ihave HS := (Phi_open V c t) $$ HΦ
      icases HS with ⟨%s, %hs, S0, S1, S2, Hb⟩
      obtain rfl := hs ht
      iapply (runE c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _) h1 h2 h3
        (iblk1 V c 0 t) (iblk1 V c 1 t) (iblk1 V c 2 t) _ _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hb]
      · isplitl [S0]; · iexact S0
        isplitl [S1]; · iexact S1
        isplitl [S2]; · iexact S2
        iexact Hb
      isplitl [Ho]; · iexact Ho
      isplitl [H0]; · iexact H0
      isplitl [H1]; · iexact H1
      isplitl [H2]; · iexact H2
      iexact H3
  · rw [Dat.leavesExact_idle (dat1 V c) 3 t (idle1_3 _ h3) (noFlush1_3 t h3)]
    by_cases h1 : cnd1 (grid1.coords t)
    · have k1 := (cnd1_iff _).mp h1
      have k2 : ((grid1.coords t) 2).val ≤ ((grid1.coords t) 1).val := by omega
      have h2 : cnd2 (grid1.coords t) := (cnd2_iff _).mpr k2
      have hS : scrAt V c t.val t.isLt = stUpd (BitVec.ofNat 32 ((grid1.coords t) 1).val) (BitVec.ofNat 32 ((grid1.coords t) 2).val)
          (iblk1 V c 0 t) (iblk1 V c 1 t) (iblk1 V c 2 t) stInit := by
        by_cases ht : t.val = 0
        · rw [scrAt_first V c t ht stInit, stepS_reset _ _ _ _ _ k1 k2]
        · rw [scrAt_next V c t ht, stepS_reset _ _ _ _ _ k1 k2]
      rw [hS]
      iintro ⟨HΦ, Ho, ⟨%d0, H0⟩, ⟨%d1, H1⟩, ⟨%d2, H2⟩, ⟨%d3, H3⟩⟩
      ihave HS := (Phi_open V c t) $$ HΦ
      icases HS with ⟨%s, %hs, S0, S1, S2, Hb⟩
      iapply (runA c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _) h1 h2 h3
        (iblk1 V c 0 t) (iblk1 V c 1 t) (iblk1 V c 2 t) _ _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hb]
      · isplitl [S0]; · iexact S0
        isplitl [S1]; · iexact S1
        isplitl [S2]; · iexact S2
        iexact Hb
      isplitl [Ho]; · iexact Ho
      isplitl [H0]; · iexact H0
      isplitl [H1]; · iexact H1
      isplitl [H2]; · iexact H2
      iexists d3; iexact H3
    · have k1 : ((grid1.coords t) 2).val ≠ 0 := fun h => h1 ((cnd1_iff _).mpr h)
      have ht : t.val ≠ 0 := fun h => h1 (first_point_resets t h)
      rw [scrAt_next V c t ht]
      by_cases h2 : cnd2 (grid1.coords t)
      · rw [stepS_upd _ _ _ _ _ k1 ((cnd2_iff _).mp h2)]
        iintro ⟨HΦ, Ho, ⟨%d0, H0⟩, ⟨%d1, H1⟩, ⟨%d2, H2⟩, ⟨%d3, H3⟩⟩
        ihave HS := (Phi_open V c t) $$ HΦ
        icases HS with ⟨%s, %hs, S0, S1, S2, Hb⟩
        obtain rfl := hs ht
        iapply (runB c Set.univ (grid1.coords t) (ms1_0 t) (hs1_0 t) (ms1_1 t) (hs1_1 t) (ms1_2 t) (hs1_2 t) (ms1_3 t) (hs1_3 t)
          scM0 (Memref.isWhole_whole _) scM1 (Memref.isWhole_whole _) scM2 (Memref.isWhole_whole _) h1 h2 h3
          (iblk1 V c 0 t) (iblk1 V c 1 t) (iblk1 V c 2 t) _ _ _)
        isplitl [H0]; · iexact H0
        isplitl [H1]; · iexact H1
        isplitl [H2]; · iexact H2
        isplitl [H3]; · iexact H3
        isplitl [S0]; · iexact S0
        isplitl [S1]; · iexact S1
        isplitl [S2]; · iexact S2
        iintro ⟨H0, H1, H2, H3, S0, S1, S2⟩
        isplitl [S0 S1 S2 Hb]
        · isplitl [S0]; · iexact S0
          isplitl [S1]; · iexact S1
          isplitl [S2]; · iexact S2
          iexact Hb
        isplitl [Ho]; · iexact Ho
        isplitl [H0]; · iexact H0
        isplitl [H1]; · iexact H1
        isplitl [H2]; · iexact H2
        iexists d3; iexact H3
      · rw [stepS_skip _ _ _ _ _ k1 (fun h => h2 ((cnd2_iff _).mpr h))]
        iintro ⟨HΦ, Ho, ⟨%d0, H0⟩, ⟨%d1, H1⟩, ⟨%d2, H2⟩, ⟨%d3, H3⟩⟩
        ihave HS := (Phi_open V c t) $$ HΦ
        icases HS with ⟨%s, %hs, S0, S1, S2, Hb⟩
        obtain rfl := hs ht
        iapply (runC c Set.univ (grid1.coords t) (ms1_0 t) (hs1_0 t) (ms1_1 t) (hs1_1 t) (ms1_2 t) (hs1_2 t) (ms1_3 t) (hs1_3 t)
          scM0 (Memref.isWhole_whole _) scM1 (Memref.isWhole_whole _) scM2 (Memref.isWhole_whole _) h1 h2 h3
          (iblk1 V c 0 t) (iblk1 V c 1 t) (iblk1 V c 2 t) _ _ _)
        isplitl [H0]; · iexact H0
        isplitl [H1]; · iexact H1
        isplitl [H2]; · iexact H2
        isplitl [H3]; · iexact H3
        isplitl [S0]; · iexact S0
        isplitl [S1]; · iexact S1
        isplitl [S2]; · iexact S2
        iintro ⟨H0, H1, H2, H3, S0, S1, S2⟩
        isplitl [S0 S1 S2 Hb]
        · isplitl [S0]; · iexact S0
          isplitl [S1]; · iexact S1
          isplitl [S2]; · iexact S2
          iexact Hb
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends -/

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the class's back: the triple's contents are forgotten. -/
theorem hout1 (c : Dev nD) : (dat1 V c).Φ (Fin.last cfg1.N) ⊢ (Pipeline.ΦA spec1 c : sProp 𝕄) := by
  rw [show (dat1 V c).Φ (Fin.last cfg1.N) = PhiS V c cfg1.N (le_refl _) from rfl,
    PhiS_pos V c _ _ (show cfg1.N ≠ 0 from by rw [show cfg1.N = 512 from N_1]; decide), PhiA1_eq]
  iintro ⟨H0, H1, H2, Hr, Hg⟩
  isplitl [H0 H1 H2 Hr]
  · isplitl [H0 H1 H2]
    · isplitl [H0]; · iexists _; iexact H0
      isplitl [H1]; · iexists _; iexact H1
      iexists _; iexact H2
    iexact Hr
  iexact Hg

end Cert.Kernel.Hand

end
-- ==== Proof.K.Region2.lean ====
import proofs.«133407_j369367188058_2_alg».proof.Proof.Gen.Kernel.Launch
import proofs.«133407_j369367188058_2_alg».proof.Proof.Gen.Kernel.Skeleton
import proofs.«133407_j369367188058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (the output projection, a matrix product): what one run of the body does to the staging buffers

Everything is stated at a parameter `V`, the contents of the core's buffers at the moment the region starts.
For a grid point `t`: the block of each window cut from `V` (`iblk2`); the contents of each output buffer once
the body has run, as a function of the input blocks (`out2_W`); the record of proof data built from the two
(`dat2`); the fact that an input buffer holds its block whether or not the pipeline copied it in at `t`; the
body's weakest-precondition statement on arbitrary whole buffers; and from these the obligation the pipeline rule
asks of the body at every point (`body_obligation2`). -/

-- deciding membership in a rectangle with extents in the hundreds recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, and the body's three whole-block accesses -/

/-- The block of window `w` at grid point `t`: the window's view at `t` read off its array's contents in `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- All of a 512×1024 buffer (the left factor's, and the product's). -/
abbrev rAct2 : Rect S512x1024 := Rect.unit (s := S512x1024) ![0, 0] S512x1024.size inb_S512x1024_S512x1024_0_0
/-- All of the 1024×1024 right factor's buffer. -/
abbrev rWt2 : Rect S1024x1024 := Rect.unit (s := S1024x1024) ![0, 0] S1024x1024.size inb_S1024x1024_S1024x1024_0_0

/-! ## The output buffer after the body -/

/-- The output window's buffer after the body, given the two input buffers' contents: the body stores once,
    over the whole buffer, the product payload of the two whole-buffer reads. -/
def out2_2 (x0 : Vec F S512x1024 .bf16) (x1 : Vec F S1024x1024 .f32) : Vec F S512x1024 .f32 :=
  View.canon [⟨rAct2, k2_pay1 (View.ld x0 rAct2) (View.ld x1 rWt2)⟩]

/-- A single piece over the whole-buffer rectangle reaches every index: its extent is the buffer's. -/
theorem out2_2_reaches (p : Vec F S512x1024 .f32) (y : S512x1024.Idx) :
    ∃ pc ∈ ([⟨rAct2, p⟩] : List (View.Piece (Elt F) S512x1024 .f32)), y ∈ pc.1.set :=
  View.cover_of_tiled [⟨rAct2, p⟩] S512x1024.size (by rfl) y

/-! ## The proof data -/

/-- Pipeline 2's proof data on core `c`. Arrays: as `V` has them. After the body at `t`: an input buffer still
    holds its block, the output buffer holds `out2_2` of the two input blocks. The invariant is the one that only
    carries the other scoped buffers and the generator register along; the core owes nothing; all shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## An input buffer holds its block at every point

Where the pipeline copies the block in, the buffer holds it by the copy. Where it does not, the block index is the
one of the point before, the body there left the buffer as it was (`after` is the block), and the window is neither
clipped nor ever idle: so the buffer still holds this point's block. The right factor is copied in at the first
point only and is read at all eight. -/

theorem holds2_0 (c : Dev nD) (t : Fin cfg2.N) (d) : (dat2 V c).before 0 t d = iblk2 V c 0 t := by
  have keep : ∀ s, (cfg2.win 0).cut (cfg2.grid.coords s) ((dat2 V c).after 0 s) = (dat2 V c).blockOf 0 s := fun s => by
    rw [after2_0]; unfold Dat.blockOf iblk2; rw [A_eq2]; try rfl
  rw [(dat2 V c).before_in_eq_fetched 0 rfl (fun _ => rfl) (fun _ _ _ => rfl) keep t d]
  unfold Dat.fetched Dat.blockOf iblk2; rw [A_eq2]; try rfl

theorem holds2_1 (c : Dev nD) (t : Fin cfg2.N) (d) : (dat2 V c).before 1 t d = iblk2 V c 1 t := by
  have keep : ∀ s, (cfg2.win 1).cut (cfg2.grid.coords s) ((dat2 V c).after 1 s) = (dat2 V c).blockOf 1 s := fun s => by
    rw [after2_1]; unfold Dat.blockOf iblk2; rw [A_eq2]; try rfl
  rw [(dat2 V c).before_in_eq_fetched 1 rfl (fun _ => rfl) (fun _ _ _ => rfl) keep t d]
  unfold Dat.fetched Dat.blockOf iblk2; rw [A_eq2]; try rfl

/-! ## The body on arbitrary whole buffers -/

set_option maxHeartbeats 1000000 in
/-- Given both input buffers whole at known contents and the output buffer whole at any contents, the body reaches
    any continuation that accepts the inputs unchanged and the output at `out2_2` of them. The body reads the two
    inputs, reads the output buffer once without using the value, and stores the payload over the whole output
    buffer; a buffer written everywhere by one piece reads back as that piece. -/
theorem kernel2_runs (c : Dev nD) (E : Set ℕ) (i : grid2.Coords)
    (a0 : Memref sig .tc .vmem S512x1024 .bf16) (h0 : a0.IsWhole) (a1 : Memref sig .tc .vmem S1024x1024 .f32) (h1 : a1.IsWhole)
    (a2 : Memref sig .tc .vmem S512x1024 .f32) (h2 : a2.IsWhole)
    (x0 : Vec F S512x1024 .bf16) (x1 : Vec F S1024x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__matmul_kernel i a0 h0 a1 h1 a2 h2) K := by
  rw [cc2__matmul_kernel_eq_skeleton]; unfold cc2__matmul_kernel_skel owns
  iintro ⟨⟨%b0, %e0, P0⟩, ⟨%b1, %e1, P1⟩, ⟨%y, %b2, -, P2⟩, Kont⟩
  subst e0 e1
  sl_exec
  sl_step
  iapply Kont
  isplitl [P0]
  · iexists b0; isplitr
    · ipureintro; rfl
    · iexact P0
  isplitl [P1]
  · iexists b1; isplitr
    · ipureintro; rfl
    · iexact P1
  -- the buffer's final contents are fixed by the points-to fact, so that conjunct goes first
  iexists _; isplitr; rotate_left
  · iexact P2
  · ipureintro; exact View.read_writes_eq_canon _ _ _ (out2_2_reaches _)

/-! ## The obligation at a grid point -/

/-- The body as the pipeline calls it at `t`, from the invariant, what the core owes and the three current staging
    buffers as the pipeline hands them over, to the same with each buffer at the proof data's `after`. The input
    buffers hold their blocks (`holds2_W`), so `kernel2_runs` applies at the blocks; the invariant and the debt do
    not depend on the point and are passed along. -/
theorem body2_runs (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t))) := by
  have hΦ : (dat2 V c).Φ t.succ = (dat2 V c).Φ t.castSucc := rfl
  have ho : (dat2 V c).owesAt () t.succ = (dat2 V c).owesAt () t.castSucc := rfl
  simp only [holds2_0, holds2_1]
  rw [hΦ, ho, after2_0, after2_1, after2_2]
  unfold bodyAt2
  iintro ⟨Inv, Debt, ⟨%d0, B0⟩, ⟨%d1, B1⟩, ⟨%d2, B2⟩⟩
  iapply (kernel2_runs c Set.univ _ _ _ _ _ _ _ (iblk2 V c 0 t) (iblk2 V c 1 t) _)
  isplitl [B0]; · iexact B0
  isplitl [B1]; · iexact B1
  isplitl [B2]; · iexists _; iexact B2
  iintro ⟨B0, B1, B2⟩
  isplitl [Inv]; · iexact Inv
  isplitl [Debt]; · iexact Debt
  isplitl [B0]; · iexact B0
  isplitl [B1]; · iexact B1
  iexact B2

/-- The pipeline rule's obligation on the body, at every point: its conjunction over the windows written out is
    `body2_runs`. -/
theorem body_obligation2 (c : Dev nD) : BodyObligation (dat2 (F := F) V c) (defs₀ (F := F)) Variants.none () Set.univ := fun t => by
  rw [bigSep_W2, bigSep_W2]
  exact body2_runs V c t

end Cert.Kernel.Hand

end
-- ==== Proof.K.Run.lean ====
import proofs.«133407_j369367188058_2_alg».proof.Proof.Gen.Kernel.Launch
import proofs.«133407_j369367188058_2_alg».proof.Proof.Gen.Kernel.Regions
import proofs.«133407_j369367188058_2_alg».proof.Proof.K.Region0
import proofs.«133407_j369367188058_2_alg».proof.Proof.K.Region1
import proofs.«133407_j369367188058_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # @main from the launch to the return

@main is six pieces in a row: region 0, three host reshapes, region 1, a host reshape, transpose and reshape,
region 2, one host reshape. This module follows a core's unscoped buffers through the six pieces. It names their
contents at each of the seven boundaries (`M0` at launch … `Wlast` at the return): a region replaces its windows'
arrays by what its pipeline leaves there and keeps every other buffer; a host piece applies its operations. Each
piece is then a segment of the run entered from the boundary before it and left at the one after it, and the
launch rule for a list of segments gives: every fair execution of @main from zero counters terminates, and in the
final memory every unscoped buffer of every core holds `Wlast` (`run_all`). Since no piece writes an argument
array, `Wlast` at an argument is the launch contents (`frame_all`); at the result buffer it is the last reshape of
what region 2's pipeline leaves in its output array (`Wlast_result`). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- At launch: the launch memory, read on core `c`. -/
abbrev M0 : Dev nD → Valuation τ sig (Elt F) := fun c b => (s₀ m ρ).mem ((c : Dev nD), b)
/-- Region 0 is entered from `M0`; its proof data read that boundary at the core's own references. -/
abbrev E0 : (c : Dev nD) → (b : Ref sig .tc) → Buf (Elt F) ((c : Thread nD τ).loc b) := fun c b => M0 m ρ c b
/-- After region 0: each window's array at what the pipeline leaves after the last point (an input's array
    untouched, an output's with every write-back applied), every other buffer as at `M0`. -/
def M1 (c : Dev nD) : Valuation τ sig (Elt F) :=
  Pipeline.withArrays spec0 c (M0 m ρ c) fun w => (dat0 (E0 m ρ) c).arrAt w cfg0.N
theorem M1_arr (c : Dev nD) (w : Fin cfg0.W) :
    M1 m ρ c (Proc.devRef .tc (Pipeline.arrRef spec0 w)) = (dat0 (E0 m ρ) c).arrAt w cfg0.N := by
  unfold M1; exact Pipeline.withArrays_arr spec0 launch0.win.arr_inj c _ _ w
theorem M1_off (c : Dev nD) (b : Ref sig .tc) (hb : ∀ w, Pipeline.arrRef spec0 w ≠ b) :
    M1 m ρ c (Proc.devRef .tc b) = M0 m ρ c (Proc.devRef .tc b) := by
  unfold M1; exact Pipeline.withArrays_of_ne spec0 c _ _ b hb
/-- An input window's array is not written by its pipeline: after region 0 it holds what it held before. -/
theorem M1_input (c : Dev nD) (w : Fin cfg0.W) (hin : (cfg0.win w).isOut = false) :
    M1 m ρ c (Proc.devRef .tc (Pipeline.arrRef spec0 w)) = M0 m ρ c (Proc.devRef .tc (Pipeline.arrRef spec0 w)) :=
  (M1_arr m ρ c w).trans (((dat0 (E0 m ρ) c).arrAt_in w hin _).trans (A_eq0 (E0 m ρ) c w))
/-- `M1` read at the core's own references. -/
abbrev M1tc : (c : Dev nD) → (b : Ref sig .tc) → Buf (Elt F) ((c : Thread nD τ).loc b) := fun c b => M1 m ρ c b

/-- After the three reshapes of region 0's outputs. -/
abbrev M2 : Dev nD → Valuation τ sig (Elt F) := fun c => StableHlo.after hostOps1 (M1 m ρ c)
/-- Region 1 is entered from `M2`; its proof data read that boundary at the core's own references. -/
abbrev E1 : (c : Dev nD) → (b : Ref sig .tc) → Buf (Elt F) ((c : Thread nD τ).loc b) := fun c b => M2 m ρ c b
/-- After region 1: each window's array at what the pipeline leaves after the last point (an input's array
    untouched, an output's with every write-back applied), every other buffer as at `M2`. -/
def M3 (c : Dev nD) : Valuation τ sig (Elt F) :=
  Pipeline.withArrays spec1 c (M2 m ρ c) fun w => (dat1 (E1 m ρ) c).arrAt w cfg1.N
theorem M3_arr (c : Dev nD) (w : Fin cfg1.W) :
    M3 m ρ c (Proc.devRef .tc (Pipeline.arrRef spec1 w)) = (dat1 (E1 m ρ) c).arrAt w cfg1.N := by
  unfold M3; exact Pipeline.withArrays_arr spec1 launch1.win.arr_inj c _ _ w
theorem M3_off (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
/-- An input window's array is not written by its pipeline: after region 1 it holds what it held before. -/
theorem M3_input (c : Dev nD) (w : Fin cfg1.W) (hin : (cfg1.win w).isOut = false) :
    M3 m ρ c (Proc.devRef .tc (Pipeline.arrRef spec1 w)) = M2 m ρ c (Proc.devRef .tc (Pipeline.arrRef spec1 w)) :=
  (M3_arr m ρ c w).trans (((dat1 (E1 m ρ) c).arrAt_in w hin _).trans (A_eq1 (E1 m ρ) c w))
/-- `M3` read at the core's own references. -/
abbrev M3tc : (c : Dev nD) → (b : Ref sig .tc) → Buf (Elt F) ((c : Thread nD τ).loc b) := fun c b => M3 m ρ c b

/-- After the reshape, transpose and reshape of region 1's output. -/
abbrev M4 : Dev nD → Valuation τ sig (Elt F) := fun c => StableHlo.after hostOps2 (M3 m ρ c)
/-- Region 2 is entered from `M4`; its proof data read that boundary at the core's own references. -/
abbrev E2 : (c : Dev nD) → (b : Ref sig .tc) → Buf (Elt F) ((c : Thread nD τ).loc b) := fun c b => M4 m ρ c b
/-- After region 2: each window's array at what the pipeline leaves after the last point (an input's array
    untouched, an output's with every write-back applied), every other buffer as at `M4`. -/
def M5 (c : Dev nD) : Valuation τ sig (Elt F) :=
  Pipeline.withArrays spec2 c (M4 m ρ c) fun w => (dat2 (E2 m ρ) c).arrAt w cfg2.N
theorem M5_arr (c : Dev nD) (w : Fin cfg2.W) :
    M5 m ρ c (Proc.devRef .tc (Pipeline.arrRef spec2 w)) = (dat2 (E2 m ρ) c).arrAt w cfg2.N := by
  unfold M5; exact Pipeline.withArrays_arr spec2 launch2.win.arr_inj c _ _ w
theorem M5_off (c : Dev nD) (b : Ref sig .tc) (hb : ∀ w, Pipeline.arrRef spec2 w ≠ b) :
    M5 m ρ c (Proc.devRef .tc b) = M4 m ρ c (Proc.devRef .tc b) := by
  unfold M5; exact Pipeline.withArrays_of_ne spec2 c _ _ b hb
/-- An input window's array is not written by its pipeline: after region 2 it holds what it held before. -/
theorem M5_input (c : Dev nD) (w : Fin cfg2.W) (hin : (cfg2.win w).isOut = false) :
    M5 m ρ c (Proc.devRef .tc (Pipeline.arrRef spec2 w)) = M4 m ρ c (Proc.devRef .tc (Pipeline.arrRef spec2 w)) :=
  (M5_arr m ρ c w).trans (((dat2 (E2 m ρ) c).arrAt_in w hin _).trans (A_eq2 (E2 m ρ) c w))
/-- `M5` read at the core's own references. -/
abbrev M5tc : (c : Dev nD) → (b : Ref sig .tc) → Buf (Elt F) ((c : Thread nD τ).loc b) := fun c b => M5 m ρ c b

/-- At the return: after the reshape of region 2's output. -/
abbrev Wlast : Dev nD → Valuation τ sig (Elt F) := fun c => StableHlo.after hostOps3 (M5 m ρ c)

/-! ## The arguments come back as launched

No host operation writes an argument. A region either stages an argument through an input window (regions 0 and 2),
whose array the pipeline never writes, or does not touch it at all. Walking from the return back to the launch,
boundary by boundary, each argument's contents never change. -/

theorem Wlast_arg0 (c : Dev nD) : Wlast m ρ c (Proc.devRef .tc main_arg0) = m ((c : Thread nD τ).loc main_arg0) :=
  calc Wlast m ρ c (Proc.devRef .tc main_arg0)
    _ = M5 m ρ c (Proc.devRef .tc main_arg0) := StableHlo.after_of_writes_sub hostOps3 _ hostOps3_writes (by decide)
    _ = M4 m ρ c (Proc.devRef .tc main_arg0) := M5_off m ρ c main_arg0 (by decide)
    _ = M3 m ρ c (Proc.devRef .tc main_arg0) := StableHlo.after_of_writes_sub hostOps2 _ hostOps2_writes (by decide)
    _ = M2 m ρ c (Proc.devRef .tc main_arg0) := M3_off m ρ c main_arg0 (by decide)
    _ = M1 m ρ c (Proc.devRef .tc main_arg0) := StableHlo.after_of_writes_sub hostOps1 _ hostOps1_writes (by decide)
    _ = M0 m ρ c (Proc.devRef .tc main_arg0) := M1_input m ρ c 0 rfl
    _ = m ((c : Thread nD τ).loc main_arg0) := rfl

theorem Wlast_arg1 (c : Dev nD) : Wlast m ρ c (Proc.devRef .tc main_arg1) = m ((c : Thread nD τ).loc main_arg1) :=
  calc Wlast m ρ c (Proc.devRef .tc main_arg1)
    _ = M5 m ρ c (Proc.devRef .tc main_arg1) := StableHlo.after_of_writes_sub hostOps3 _ hostOps3_writes (by decide)
    _ = M4 m ρ c (Proc.devRef .tc main_arg1) := M5_off m ρ c main_arg1 (by decide)
    _ = M3 m ρ c (Proc.devRef .tc main_arg1) := StableHlo.after_of_writes_sub hostOps2 _ hostOps2_writes (by decide)
    _ = M2 m ρ c (Proc.devRef .tc main_arg1) := M3_off m ρ c main_arg1 (by decide)
    _ = M1 m ρ c (Proc.devRef .tc main_arg1) := StableHlo.after_of_writes_sub hostOps1 _ hostOps1_writes (by decide)
    _ = M0 m ρ c (Proc.devRef .tc main_arg1) := M1_input m ρ c 1 rfl
    _ = m ((c : Thread nD τ).loc main_arg1) := rfl

theorem Wlast_arg2 (c : Dev nD) : Wlast m ρ c (Proc.devRef .tc main_arg2) = m ((c : Thread nD τ).loc main_arg2) :=
  calc Wlast m ρ c (Proc.devRef .tc main_arg2)
    _ = M5 m ρ c (Proc.devRef .tc main_arg2) := StableHlo.after_of_writes_sub hostOps3 _ hostOps3_writes (by decide)
    _ = M4 m ρ c (Proc.devRef .tc main_arg2) := M5_off m ρ c main_arg2 (by decide)
    _ = M3 m ρ c (Proc.devRef .tc main_arg2) := StableHlo.after_of_writes_sub hostOps2 _ hostOps2_writes (by decide)
    _ = M2 m ρ c (Proc.devRef .tc main_arg2) := M3_off m ρ c main_arg2 (by decide)
    _ = M1 m ρ c (Proc.devRef .tc main_arg2) := StableHlo.after_of_writes_sub hostOps1 _ hostOps1_writes (by decide)
    _ = M0 m ρ c (Proc.devRef .tc main_arg2) := M1_input m ρ c 2 rfl
    _ = m ((c : Thread nD τ).loc main_arg2) := rfl

theorem Wlast_arg3 (c : Dev nD) : Wlast m ρ c (Proc.devRef .tc main_arg3) = m ((c : Thread nD τ).loc main_arg3) :=
  calc Wlast m ρ c (Proc.devRef .tc main_arg3)
    _ = M5 m ρ c (Proc.devRef .tc main_arg3) := StableHlo.after_of_writes_sub hostOps3 _ hostOps3_writes (by decide)
    _ = M4 m ρ c (Proc.devRef .tc main_arg3) := M5_off m ρ c main_arg3 (by decide)
    _ = M3 m ρ c (Proc.devRef .tc main_arg3) := StableHlo.after_of_writes_sub hostOps2 _ hostOps2_writes (by decide)
    _ = M2 m ρ c (Proc.devRef .tc main_arg3) := M3_off m ρ c main_arg3 (by decide)
    _ = M1 m ρ c (Proc.devRef .tc main_arg3) := StableHlo.after_of_writes_sub hostOps1 _ hostOps1_writes (by decide)
    _ = M0 m ρ c (Proc.devRef .tc main_arg3) := M1_input m ρ c 3 rfl
    _ = m ((c : Thread nD τ).loc main_arg3) := rfl

theorem Wlast_arg4 (c : Dev nD) : Wlast m ρ c (Proc.devRef .tc main_arg4) = m ((c : Thread nD τ).loc main_arg4) :=
  calc Wlast m ρ c (Proc.devRef .tc main_arg4)
    _ = M5 m ρ c (Proc.devRef .tc main_arg4) := StableHlo.after_of_writes_sub hostOps3 _ hostOps3_writes (by decide)
    _ = M4 m ρ c (Proc.devRef .tc main_arg4) := M5_input m ρ c 1 rfl
    _ = M3 m ρ c (Proc.devRef .tc main_arg4) := StableHlo.after_of_writes_sub hostOps2 _ hostOps2_writes (by decide)
    _ = M2 m ρ c (Proc.devRef .tc main_arg4) := M3_off m ρ c main_arg4 (by decide)
    _ = M1 m ρ c (Proc.devRef .tc main_arg4) := StableHlo.after_of_writes_sub hostOps1 _ hostOps1_writes (by decide)
    _ = M0 m ρ c (Proc.devRef .tc main_arg4) := M1_off m ρ c main_arg4 (by decide)
    _ = m ((c : Thread nD τ).loc main_arg4) := rfl

/-! ## Proof data, and what a core holds between pieces -/

/-- The three pipelines' proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c

/-- No core waits on another: no level is assigned anywhere. -/
abbrev noLvl : GSem nD τ sig → Finset Unit := fun _ => ∅
abbrev lvl0 : GSem nD τ sig → Unit → ℕ := fun _ _ => 0

/-- Beside its buffers a core carries its generator register at some state and a debt of nothing. -/
abbrev carried (c : Dev nD) : sProp 𝕄 :=
  iprop((∃ r, prngReg c r) ∗ ∃ W, owes (c : Thread nD τ) (0 : CellTallies nD τ sig Unit) W)

/-- What a core holds at a boundary with contents `W`: every unscoped buffer whole at `W`, and `carried`. -/
abbrev atBoundary (W : Dev nD → Valuation τ sig (Elt F)) (c : Dev nD) : sProp 𝕄 :=
  iprop(StableHlo.held (c : Thread nD τ) (Pipeline.ucRefs τ sig) (W c) ∗ carried c)

/-- An unscoped reference of the core is one of the buffers held at a boundary. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The host pieces -/

/-- A row of host operations as a segment: from the boundary `W` to `W` with the operations applied, `carried`
    untouched. The operations touch unscoped buffers of the core only and allocate nothing. -/
abbrev hostPiece (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLvl lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

/-! ## The regions -/

-- the library's entry and exit lemmas are stated over a pinned configuration; matching them against pipeline 0's
-- needs unification to unfold definitions inside a metavariable's type
set_option backward.isDefEq.respectTransparency.types false in
/-- Region 0 as a segment from `M0` to `M1`. Entry: the unscoped buffers split into the windows' arrays and the
    rest; the register goes into the invariant, the rest goes round the region. Exit: the arrays, now at what the
    pipeline left, and the rest make up the unscoped buffers at `M1`, which agrees with `M0` off the arrays.
    The kernel has no semaphore of its own and owes nothing. -/
def piece0 : Pipeline.RegionSeg (pcfgs (F := F)) adm (pdats m ρ) () defs₀ Variants.none noLvl lvl0 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ noLvl lvl0 0 fun _ _ => rfl
  pre := atBoundary (M0 m ρ)
  post := atBoundary (M1 m ρ)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    have split := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at split
    rw [Pipeline.ownSems0_none]
    iintro ⟨⟨Bufs, Reg, Debt⟩, -, -⟩
    ihave Parts := split $$ Bufs
    icases Parts with ⟨Arr, Rest⟩
    imodintro
    isplitl [Arr]; · iexact Arr
    isplitr
    · -- there is no prefetched table: an empty conjunction
      unfold Pipeline.prefHeld
      rw [show (Finset.univ : Finset (Fin 0)) = ∅ from rfl, BI.bigSep_empty]; iempintro
    isplitl [Debt]
    · -- a debt of nothing lies within any bound
      unfold Pipeline.Dat.owesAt Pipeline.owesWithin
      icases Debt with ⟨%W, Debt⟩
      iexists W; isplitr
      · ipureintro; exact fun _ _ => Or.inl trivial
      · iexact Debt
    isplitl [Reg]; · iexact Reg
    iexact Rest
  hin c := by
    -- the invariant at the first point is the scoped rest beside the register
    rw [show (pdats m ρ 0 c).Φ 0 = Pipeline.ΦA spec0 c from rfl]; unfold Pipeline.ΦA
    iintro ⟨Reg, -, Scoped⟩
    isplitl [Scoped]; · iexact Scoped
    iexact Reg
  hout c := by
    rw [Pipeline.ownSems0_none]
    rw [show (pdats m ρ 0 c).Φ (Fin.last _) = Pipeline.ΦA spec0 c from rfl]; unfold Pipeline.ΦA
    iintro ⟨Scoped, Reg⟩
    isplitl [Reg]; · iexact Reg
    isplitr; · iempintro
    iexact Scoped
  hexit c := by
    have join := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (M1tc m ρ c) ((pdats m ρ 0 c).arrAt · cfg0.N)
      (fun w => (M1_arr m ρ c w).symm)
      (fun b hb => M1_off m ρ c b fun w e => hb (Finset.mem_image.mpr ⟨w, Finset.mem_univ _, e⟩))
    rw [Pipeline.unscopedBufs_held] at join
    iintro ⟨Arr, Debt, Reg, Rest⟩
    imodintro
    isplitl [Arr Rest]
    · iapply join; isplitl [Arr] <;> iassumption
    isplitl [Reg]; · iexact Reg
    unfold Pipeline.Dat.owesAt Pipeline.owesWithin
    icases Debt with ⟨%W, -, Debt⟩
    iexists W; iexact Debt

-- the library's entry and exit lemmas are stated over a pinned configuration; matching them against pipeline 1's
-- needs unification to unfold definitions inside a metavariable's type
set_option backward.isDefEq.respectTransparency.types false in
/-- Region 1 as a segment from `M2` to `M3`. Entry: the unscoped buffers split into the windows' arrays and the
    rest; the register goes into the invariant, the rest goes round the region. Exit: the arrays, now at what the
    pipeline left, and the rest make up the unscoped buffers at `M3`, which agrees with `M2` off the arrays.
    The kernel has no semaphore of its own and owes nothing. -/
def piece1 : Pipeline.RegionSeg (pcfgs (F := F)) adm (pdats m ρ) () defs₀ Variants.none noLvl lvl0 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ noLvl lvl0 1 fun _ _ => rfl
  pre := atBoundary (M2 m ρ)
  post := atBoundary (M3 m ρ)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    have split := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at split
    rw [Pipeline.ownSems0_none]
    iintro ⟨⟨Bufs, Reg, Debt⟩, -, -⟩
    ihave Parts := split $$ Bufs
    icases Parts with ⟨Arr, Rest⟩
    imodintro
    isplitl [Arr]; · iexact Arr
    isplitr
    · -- there is no prefetched table: an empty conjunction
      unfold Pipeline.prefHeld
      rw [show (Finset.univ : Finset (Fin 0)) = ∅ from rfl, BI.bigSep_empty]; iempintro
    isplitl [Debt]
    · -- a debt of nothing lies within any bound
      unfold Pipeline.Dat.owesAt Pipeline.owesWithin
      icases Debt with ⟨%W, Debt⟩
      iexists W; isplitr
      · ipureintro; exact fun _ _ => Or.inl trivial
      · iexact Debt
    isplitl [Reg]; · iexact Reg
    iexact Rest
  hin c := by
    -- the scoped rest beside the register is the plain invariant, which region 1's own starts from
    refine .trans ?_ (hin1 (E1 m ρ) c)
    unfold Pipeline.ΦA
    iintro ⟨Reg, -, Scoped⟩
    isplitl [Scoped]; · iexact Scoped
    iexact Reg
  hout c := by
    rw [Pipeline.ownSems0_none]
    -- region 1's invariant after the last point gives the plain one back
    refine (hout1 (E1 m ρ) c).trans ?_
    unfold Pipeline.ΦA
    iintro ⟨Scoped, Reg⟩
    isplitl [Reg]; · iexact Reg
    isplitr; · iempintro
    iexact Scoped
  hexit c := by
    have join := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (M3tc m ρ c) ((pdats m ρ 1 c).arrAt · cfg1.N)
      (fun w => (M3_arr m ρ c w).symm)
      (fun b hb => M3_off m ρ c b fun w e => hb (Finset.mem_image.mpr ⟨w, Finset.mem_univ _, e⟩))
    rw [Pipeline.unscopedBufs_held] at join
    iintro ⟨Arr, Debt, Reg, Rest⟩
    imodintro
    isplitl [Arr Rest]
    · iapply join; isplitl [Arr] <;> iassumption
    isplitl [Reg]; · iexact Reg
    unfold Pipeline.Dat.owesAt Pipeline.owesWithin
    icases Debt with ⟨%W, -, Debt⟩
    iexists W; iexact Debt

-- the library's entry and exit lemmas are stated over a pinned configuration; matching them against pipeline 2's
-- needs unification to unfold definitions inside a metavariable's type
set_option backward.isDefEq.respectTransparency.types false in
/-- Region 2 as a segment from `M4` to `M5`. Entry: the unscoped buffers split into the windows' arrays and the
    rest; the register goes into the invariant, the rest goes round the region. Exit: the arrays, now at what the
    pipeline left, and the rest make up the unscoped buffers at `M5`, which agrees with `M4` off the arrays.
    The kernel has no semaphore of its own and owes nothing. -/
def piece2 : Pipeline.RegionSeg (pcfgs (F := F)) adm (pdats m ρ) () defs₀ Variants.none noLvl lvl0 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ noLvl lvl0 2 fun _ _ => rfl
  pre := atBoundary (M4 m ρ)
  post := atBoundary (M5 m ρ)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    have split := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at split
    rw [Pipeline.ownSems0_none]
    iintro ⟨⟨Bufs, Reg, Debt⟩, -, -⟩
    ihave Parts := split $$ Bufs
    icases Parts with ⟨Arr, Rest⟩
    imodintro
    isplitl [Arr]; · iexact Arr
    isplitr
    · -- there is no prefetched table: an empty conjunction
      unfold Pipeline.prefHeld
      rw [show (Finset.univ : Finset (Fin 0)) = ∅ from rfl, BI.bigSep_empty]; iempintro
    isplitl [Debt]
    · -- a debt of nothing lies within any bound
      unfold Pipeline.Dat.owesAt Pipeline.owesWithin
      icases Debt with ⟨%W, Debt⟩
      iexists W; isplitr
      · ipureintro; exact fun _ _ => Or.inl trivial
      · iexact Debt
    isplitl [Reg]; · iexact Reg
    iexact Rest
  hin c := by
    -- the invariant at the first point is the scoped rest beside the register
    rw [show (pdats m ρ 2 c).Φ 0 = Pipeline.ΦA spec2 c from rfl]; unfold Pipeline.ΦA
    iintro ⟨Reg, -, Scoped⟩
    isplitl [Scoped]; · iexact Scoped
    iexact Reg
  hout c := by
    rw [Pipeline.ownSems0_none]
    rw [show (pdats m ρ 2 c).Φ (Fin.last _) = Pipeline.ΦA spec2 c from rfl]; unfold Pipeline.ΦA
    iintro ⟨Scoped, Reg⟩
    isplitl [Reg]; · iexact Reg
    isplitr; · iempintro
    iexact Scoped
  hexit c := by
    have join := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (M5tc m ρ c) ((pdats m ρ 2 c).arrAt · cfg2.N)
      (fun w => (M5_arr m ρ c w).symm)
      (fun b hb => M5_off m ρ c b fun w e => hb (Finset.mem_image.mpr ⟨w, Finset.mem_univ _, e⟩))
    rw [Pipeline.unscopedBufs_held] at join
    iintro ⟨Arr, Debt, Reg, Rest⟩
    imodintro
    isplitl [Arr Rest]
    · iapply join; isplitl [Arr] <;> iassumption
    isplitl [Reg]; · iexact Reg
    unfold Pipeline.Dat.owesAt Pipeline.owesWithin
    icases Debt with ⟨%W, -, Debt⟩
    iexists W; iexact Debt

/-! ## @main as the six pieces, and the launch -/

/-- The six pieces in @main's order, each entered from the boundary the one before it is left at. -/
abbrev pieces : List (Pipeline.Seg (pcfgs (F := F)) adm (pdats m ρ) () defs₀ Variants.none noLvl lvl0) :=
  [ .region (piece0 m ρ),
    .host (hostPiece hostOps1 hostOps1_sub hostOps1_fresh (M1 m ρ)),
    .region (piece1 m ρ),
    .host (hostPiece hostOps2 hostOps2_sub hostOps2_fresh (M3 m ρ)),
    .region (piece2 m ρ),
    .host (hostPiece hostOps3 hostOps3_sub hostOps3_fresh (M5 m ρ)) ]

/-- @main is the run of the six pieces: its printed sequence of calls and host operations, regrouped. -/
theorem main_is_pieces (c : Dev nD) : main (F := F) c = Pipeline.Seg.run (pieces m ρ) :=
  main_segs adm (pdats m ρ) () Variants.none noLvl lvl0 _ _ _ (piece0 m ρ) (piece1 m ρ) (piece2 m ρ) rfl rfl rfl c

/-- What a core holds at the return, without the debt: every unscoped buffer at `Wlast`, the register at some state. -/
abbrev atReturn (c : Dev nD) : sProp 𝕄 :=
  iprop(StableHlo.held (c : Thread nD τ) (Pipeline.ucRefs τ sig) (Wlast m ρ c) ∗ ∃ r, prngReg c r)

-- the launch rule's implicit arguments are found by unifying its conclusion with the statement, which needs
-- unification to unfold definitions inside a metavariable's type
set_option backward.isDefEq.respectTransparency.types false in
/-- From any memory `m` with all counters at zero and any generator states, every weakly fair execution of @main on
    the cores terminates without fault, and in every final state each unscoped buffer of each core holds `Wlast`.
    The launch deals each core its unscoped buffers at `m`, its register and a debt of nothing: the state the first
    piece is entered from. The pieces chain boundary to boundary. What the last piece leaves, read against the final
    state, says the memory agrees with `Wlast` on every buffer held. -/
theorem run_all : θ_run defs (onTc (τ := τ) (main (F := F))) ⟨m, fun _ => 0, ρ⟩
    (fun r => ∀ c : Dev nD, ∀ b ∈ Pipeline.ucRefs τ sig, r.2.mem ((c : Thread nD τ).1, b) = Wlast m ρ c b) :=
  Pipeline.θ_run_regions_kit (pcfgs (F := F)) adm (pdats m ρ) () cellOf_inj emb₁ defs₀ Variants.none noLvl lvl0 m ρ main (pieces m ρ)
    (fun c Q => by rw [main_is_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the library's own; no ghost resource is asked for
      iintro Own; imodintro
      isplitl [Own]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Own
      iapply (show (BI.emp : sProp 𝕄) ⊢ bigSep Finset.univ (fun _ : Dev nD => (BI.emp : sProp 𝕄)) from by rw [BI.bigSep_emp_const])
      iempintro)
    (T₀ := atBoundary (M0 m ρ)) (Tₙ := atReturn m ρ)
    (hch := ⟨fun _ => .rfl, fun _ => .rfl, fun _ => .rfl, fun _ => .rfl, fun _ => .rfl, fun _ => .rfl, fun c => by
      -- the last piece leaves the buffers beside (register, debt): regroup as (buffers, register) beside the debt
      show atBoundary (Wlast m ρ) c ⊢ iprop(atReturn m ρ c ∗ ∃ W, owes (c : Thread nD τ) (0 : CellTallies nD τ sig Unit) W)
      iintro ⟨Bufs, Reg, Debt⟩
      isplitl [Bufs Reg]
      · isplitl [Bufs]; · iexact Bufs
        iexact Reg
      iexact Debt⟩)
    (hinit := by
      refine Pipeline.initEach noLvl lvl0 fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Bufs, -, Debt, -, Reg, -⟩, -⟩
      imodintro
      isplitl [Bufs]; · iexact Bufs
      isplitl [Reg]; · iexists _; iexact Reg
      iexists ∅; iexact Debt)
    (QY := fun c s => ∀ b ∈ Pipeline.ucRefs τ sig, s.mem (((c : Thread nD τ)).1, b) = Wlast m ρ c b)
    (hfin := fun c s' => by
      iintro ⟨⟨Bufs, -⟩, State⟩
      unfold StableHlo.held
      imodintro
      iapply (pointsTo_read_all (Pipeline.ucRefs τ sig) (fun b => (((c : Thread nD τ)).1, b)) (Wlast m ρ c) s')
      isplitl [Bufs] <;> iassumption)
    (hQ := fun _ h => h)

/-- The five argument arrays end as launched: each is an unscoped buffer, so the final memory has it at `Wlast`,
    which at an argument is the launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (unscoped_mem main_arg0 (by decide))).trans (Wlast_arg0 m ρ c),
     (h c _ (unscoped_mem main_arg1 (by decide))).trans (Wlast_arg1 m ρ c),
     (h c _ (unscoped_mem main_arg2 (by decide))).trans (Wlast_arg2 m ρ c),
     (h c _ (unscoped_mem main_arg3 (by decide))).trans (Wlast_arg3 m ρ c),
     (h c _ (unscoped_mem main_arg4 (by decide))).trans (Wlast_arg4 m ρ c)⟩) (run_all m ρ)

/-! ## The result buffer at the return -/

/-- The result buffer at the return is the last reshape of region 2's output array as that region leaves it, and
    that array holds what the pipeline's write-backs of the output window add up to after the last point. -/
theorem Wlast_result (c : Dev nD) : Wlast m ρ c (Proc.devRef .tc main_v9)
    = fun i => shapeCast S2x2048x1024 (M5 m ρ c (Proc.devRef .tc main_v8)) shapeCasts_S4096x1024_S2x2048x1024 i :=
  by
  show (StableHlo.reshape main_v8 main_v9 rfl shapeCasts_S4096x1024_S2x2048x1024 : HloOp τ sig (Elt F)).result (M5 m ρ c)
      (Proc.devRef .tc main_v9) = _
  rw [StableHlo.reshape_result]
  rfl
theorem M5_result (c : Dev nD) : M5 m ρ c (Proc.devRef .tc main_v8) = (dat2 (E2 m ρ) c).arrAt 2 cfg2.N :=
  M5_arr m ρ c 2

end Cert.Kernel.Hand

end
-- ==== Proof.KI.Region0.lean ====
import proofs.«133407_j369367188058_2_alg».proof.Proof.Gen.KernelIdeal.Launch
import proofs.«133407_j369367188058_2_alg».proof.Proof.Gen.KernelIdeal.Skeleton
import proofs.«133407_j369367188058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the query, key and value projections, three matrix products of one activation block): what one run of the body does to the staging buffers

Everything is stated at a parameter `V`, the contents of the core's buffers at the moment the region starts.
For a grid point `t`: the block of each window cut from `V` (`iblk0`); the contents of each output buffer once
the body has run, as a function of the input blocks (`out0_W`); the record of proof data built from the two
(`dat0`); the fact that an input buffer holds its block whether or not the pipeline copied it in at `t`; the
body's weakest-precondition statement on arbitrary whole buffers; and from these the obligation the pipeline rule
asks of the body at every point (`body_obligation0`). -/

-- deciding membership in a rectangle with extents in the hundreds recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Blocks, and the body's whole-block accesses -/

/-- The block of window `w` at grid point `t`: the window's view at `t` read off its array's contents in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- All of the 1×512×1024 activation buffer. -/
abbrev rAct0 : Rect S1x512x1024 := Rect.unit (s := S1x512x1024) ![0, 0, 0] S1x512x1024.size inb_S1x512x1024_S1x512x1024_0_0_0
/-- All of a 1024×1024 weight buffer. -/
abbrev rWt0 : Rect S1024x1024 := Rect.unit (s := S1024x1024) ![0, 0] S1024x1024.size inb_S1024x1024_S1024x1024_0_0
/-- All of a 1×16×512×64 per-head output buffer. -/
abbrev rHead0 : Rect S1x16x512x64 := Rect.unit (s := S1x16x512x64) ![0, 0, 0, 0] S1x16x512x64.size inb_S1x16x512x64_S1x16x512x64_0_0_0_0

/-! ## The output buffers after the body

Each of the three output buffers is stored once, over the whole buffer: the activation block times one weight,
split into heads. The three differ only in the weight and the payload. -/

/-- The query window's buffer after the body, from the activation block and the first weight. -/
def out0_4 (x0 : Vec F S1x512x1024 .f32) (x1 : Vec F S1024x1024 .f32) : Vec F S1x16x512x64 .bf16 :=
  View.canon [⟨rHead0, k0_pay2 (View.ld x0 rAct0) (View.ld x1 rWt0)⟩]
/-- The key window's, from the activation block and the second weight. -/
def out0_5 (x0 : Vec F S1x512x1024 .f32) (x2 : Vec F S1024x1024 .f32) : Vec F S1x16x512x64 .bf16 :=
  View.canon [⟨rHead0, k0_pay3 (View.ld x0 rAct0) (View.ld x2 rWt0)⟩]
/-- The value window's, from the activation block and the third weight. -/
def out0_6 (x0 : Vec F S1x512x1024 .f32) (x3 : Vec F S1024x1024 .f32) : Vec F S1x16x512x64 .bf16 :=
  View.canon [⟨rHead0, k0_pay4 (View.ld x0 rAct0) (View.ld x3 rWt0)⟩]

/-- A single piece over the whole-buffer rectangle reaches every index of a per-head buffer. -/
theorem head0_reaches (p : Vec F S1x16x512x64 .bf16) (y : S1x16x512x64.Idx) :
    ∃ pc ∈ ([⟨rHead0, p⟩] : List (View.Piece (Elt F) S1x16x512x64 .bf16)), y ∈ pc.1.set :=
  View.cover_of_tiled [⟨rHead0, p⟩] S1x16x512x64.size (by rfl) y

/-! ## The proof data -/

/-- Pipeline 0's proof data on core `c`. Arrays: as `V` has them. After the body at `t`: each of the four input
    buffers still holds its block; the three output buffers hold `out0_4`, `out0_5`, `out0_6` of the activation
    block and the matching weight. The invariant only carries the other scoped buffers and the generator register
    along; the core owes nothing; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-! ## An input buffer holds its block at every point

Where the pipeline copies the block in, the buffer holds it by the copy. Where it does not, the block index is the
one of the point before, the body there left the buffer as it was (`after` is the block), and the window is neither
clipped nor ever idle: so the buffer still holds this point's block. The activation block is copied in at every
point; each weight is copied in at the first point only and read at all eight. -/

theorem holds0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) keep t d]
  unfold Dat.fetched Dat.blockOf iblk0; rw [A_eq0]; try rfl

theorem holds0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) keep t d]
  unfold Dat.fetched Dat.blockOf iblk0; rw [A_eq0]; try rfl

theorem holds0_2 (c : Dev nD) (t : Fin cfg0.N) (d) : (dat0 V c).before 2 t d = iblk0 V c 2 t := by
  have keep : ∀ s, (cfg0.win 2).cut (cfg0.grid.coords s) ((dat0 V c).after 2 s) = (dat0 V c).blockOf 2 s := fun s => by
    rw [after0_2]; unfold Dat.blockOf iblk0; rw [A_eq0]; try rfl
  rw [(dat0 V c).before_in_eq_fetched 2 rfl (fun _ => rfl) (fun _ _ _ => rfl) keep t d]
  unfold Dat.fetched Dat.blockOf iblk0; rw [A_eq0]; try rfl

theorem holds0_3 (c : Dev nD) (t : Fin cfg0.N) (d) : (dat0 V c).before 3 t d = iblk0 V c 3 t := by
  have keep : ∀ s, (cfg0.win 3).cut (cfg0.grid.coords s) ((dat0 V c).after 3 s) = (dat0 V c).blockOf 3 s := fun s => by
    rw [after0_3]; unfold Dat.blockOf iblk0; rw [A_eq0]; try rfl
  rw [(dat0 V c).before_in_eq_fetched 3 rfl (fun _ => rfl) (fun _ _ _ => rfl) keep t d]
  unfold Dat.fetched Dat.blockOf iblk0; rw [A_eq0]; try rfl

/-! ## The body on arbitrary whole buffers -/

set_option maxHeartbeats 2000000 in
/-- Given the four input buffers whole at known contents and the three output buffers whole at any contents, the
    body reaches any continuation that accepts the inputs unchanged and the outputs at `out0_4`, `out0_5`, `out0_6`
    of them. The body reads the four inputs; then for each output in turn it reads the buffer once without using
    the value and stores the payload over the whole buffer. A buffer written everywhere by one piece reads back as
    that piece. -/
theorem kernel0_runs (c : Dev nD) (E : Set ℕ) (i : grid0.Coords)
    (a0 : Memref sig .tc .vmem S1x512x1024 .f32) (h0 : a0.IsWhole)
    (a1 : Memref sig .tc .vmem S1024x1024 .f32) (h1 : a1.IsWhole) (a2 : Memref sig .tc .vmem S1024x1024 .f32) (h2 : a2.IsWhole)
    (a3 : Memref sig .tc .vmem S1024x1024 .f32) (h3 : a3.IsWhole)
    (a4 : Memref sig .tc .vmem S1x16x512x64 .bf16) (h4 : a4.IsWhole) (a5 : Memref sig .tc .vmem S1x16x512x64 .bf16) (h5 : a5.IsWhole)
    (a6 : Memref sig .tc .vmem S1x16x512x64 .bf16) (h6 : a6.IsWhole)
    (x0 : Vec F S1x512x1024 .f32) (x1 x2 x3 : Vec F S1024x1024 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3
        ∗ (∃ d, owns (c : Thread nD τ) a4 fullShare d) ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3
            ∗ owns (c : Thread nD τ) a4 fullShare (out0_4 x0 x1) ∗ owns (c : Thread nD τ) a5 fullShare (out0_5 x0 x2)
            ∗ owns (c : Thread nD τ) a6 fullShare (out0_6 x0 x3)) -∗ K ⟨⟩))
      ⊢ wp frame (wpE (defs₀ (F := F)) Variants.none c none) E (cc0__qkv_proj_kernel i a0 h0 a1 h1 a2 h2 a3 h3 a4 h4 a5 h5 a6 h6) K := by
  rw [cc0__qkv_proj_kernel_eq_skeleton]; unfold cc0__qkv_proj_kernel_skel owns
  iintro ⟨⟨%b0, %e0, P0⟩, ⟨%b1, %e1, P1⟩, ⟨%b2, %e2, P2⟩, ⟨%b3, %e3, P3⟩, ⟨%y4, %b4, -, P4⟩, ⟨%y5, %b5, -, P5⟩, ⟨%y6, %b6, -, P6⟩, Kont⟩
  subst e0 e1 e2 e3
  sl_exec
  sl_step
  iapply Kont
  isplitl [P0]
  · iexists b0; isplitr
    · ipureintro; rfl
    · iexact P0
  isplitl [P1]
  · iexists b1; isplitr
    · ipureintro; rfl
    · iexact P1
  isplitl [P2]
  · iexists b2; isplitr
    · ipureintro; rfl
    · iexact P2
  isplitl [P3]
  · iexists b3; isplitr
    · ipureintro; rfl
    · iexact P3
  -- an output buffer's final contents are fixed by its points-to fact, so that conjunct goes first
  isplitl [P4]
  · iexists _; isplitr; rotate_left
    · iexact P4
    · ipureintro; exact View.read_writes_eq_canon _ _ _ (head0_reaches _)
  isplitl [P5]
  · iexists _; isplitr; rotate_left
    · iexact P5
    · ipureintro; exact View.read_writes_eq_canon _ _ _ (head0_reaches _)
  iexists _; isplitr; rotate_left
  · iexact P6
  · ipureintro; exact View.read_writes_eq_canon _ _ _ (head0_reaches _)

/-! ## The obligation at a grid point -/

/-- The body as the pipeline calls it at `t`, from the invariant, what the core owes and the seven current staging
    buffers as the pipeline hands them over, to the same with each buffer at the proof data's `after`. The input
    buffers hold their blocks (`holds0_W`), so `kernel0_runs` applies at the blocks; the invariant and the debt do
    not depend on the point and are passed along. -/
theorem body0_runs (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d)))
      ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t)
          ∗ owns (c : Thread nD τ) (st0_5 t) fullShare ((dat0 V c).after 5 t)
          ∗ owns (c : Thread nD τ) (st0_6 t) fullShare ((dat0 V c).after 6 t))) := by
  have hΦ : (dat0 V c).Φ t.succ = (dat0 V c).Φ t.castSucc := rfl
  have ho : (dat0 V c).owesAt () t.succ = (dat0 V c).owesAt () t.castSucc := rfl
  simp only [holds0_0, holds0_1, holds0_2, holds0_3]
  rw [hΦ, ho, after0_0, after0_1, after0_2, after0_3, after0_4, after0_5, after0_6]
  unfold bodyAt0
  iintro ⟨Inv, Debt, ⟨%d0, B0⟩, ⟨%d1, B1⟩, ⟨%d2, B2⟩, ⟨%d3, B3⟩, ⟨%d4, B4⟩, ⟨%d5, B5⟩, ⟨%d6, B6⟩⟩
  iapply (kernel0_runs c Set.univ _ _ _ _ _ _ _ _ _ _ _ _ _ _ _ (iblk0 V c 0 t) (iblk0 V c 1 t) (iblk0 V c 2 t) (iblk0 V c 3 t) _)
  isplitl [B0]; · iexact B0
  isplitl [B1]; · iexact B1
  isplitl [B2]; · iexact B2
  isplitl [B3]; · iexact B3
  isplitl [B4]; · iexists _; iexact B4
  isplitl [B5]; · iexists _; iexact B5
  isplitl [B6]; · iexists _; iexact B6
  iintro ⟨B0, B1, B2, B3, B4, B5, B6⟩
  isplitl [Inv]; · iexact Inv
  isplitl [Debt]; · iexact Debt
  isplitl [B0]; · iexact B0
  isplitl [B1]; · iexact B1
  isplitl [B2]; · iexact B2
  isplitl [B3]; · iexact B3
  isplitl [B4]; · iexact B4
  isplitl [B5]; · iexact B5
  iexact B6

/-- The pipeline rule's obligation on the body, at every point: its conjunction over the windows written out is
    `body0_runs`. -/
theorem body_obligation0 (c : Dev nD) : BodyObligation (dat0 (F := F) V c) (defs₀ (F := F)) Variants.none () Set.univ := fun t => by
  rw [bigSep_W0, bigSep_W0]
  exact body0_runs V c t

end Cert.KernelIdeal.Hand

end
-- ==== Proof.KI.Scratch.lean ====
/-
  The flash-attention kernel keeps three buffers between grid points: the running row maximum (512 x 1), the running
  row denominator (512 x 1) and the running numerator (512 x 64). This module states, over the body's named
  payloads, what one grid point does to that triple — reset at the first key block, one step of the blockwise
  softmax recursion when the key block is not beyond the query block, nothing otherwise — and what the finalize
  branch writes out of it (numerator over denominator).
-/
import proofs.«133407_j369367188058_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Named F]

/-- Running maximum, running denominator, running numerator. -/
abbrev St (F : FTy → Type) [FloatOps F] : Type :=
  Vec F S512x1 .f32 × Vec F S512x1 .f32 × Vec F S512x64 .f32

/-- The triple the first key block starts from: maximum -inf, denominator 0, numerator 0. -/
def stInit : St F := (k1_pay1 (F := F), k1_pay2 (F := F), k1_pay3 (F := F))

/-- One step of the recursion on the key block `k`, value block `v`, query block `q`: new maximum, rescaled
    denominator plus the block's row sums, rescaled numerator plus the block's weighted values. -/
def stUpd (a1 a2 : BitVec 32) (q k v : Vec F S1x512x64 .bf16) (s : St F) : St F :=
  (k1_pay5 (k1_pay9 a1 a2 q k s.1),
   k1_pay12 a1 a2 q k s.1 s.2.1,
   k1_pay4 (k1_pay7 v) (k1_pay10 a1 a2 q k s.1) (k1_pay11 a1 a2 q k s.1) s.2.2)

/-- What grid point `i` = (batch-head, query block, key block) does to the triple. -/
def stepS (i : grid1.Coords) (q k v : Vec F S1x512x64 .bf16) (s : St F) : St F :=
  let s1 : St F := if (i 2).val = 0 then stInit else s
  if (i 2).val ≤ (i 1).val then
    stUpd (BitVec.ofNat 32 (i 1).val) (BitVec.ofNat 32 (i 2).val) q k v s1
  else s1

/-- At the first key block the incoming triple is not read. -/
theorem stepS_first (i : grid1.Coords) (q k v : Vec F S1x512x64 .bf16) (s s' : St F) (h : (i 2).val = 0) :
    stepS i q k v s = stepS i q k v s' := by
  unfold stepS; simp only [h, if_true]

/-- What the finalize branch stores into the output block: numerator over denominator. -/
def outS (s : St F) : Vec F S1x512x64 .bf16 := k1_pay6 s.2.2 s.2.1

end Cert.KernelIdeal.Hand

end
-- ==== Proof.KI.Region1Body.lean ====
/-
  The flash-attention body at one grid point, run on whole staging and scratch buffers.
  Three guarded blocks follow one another: a reset of the running triple (first key block), one step of the
  blockwise softmax recursion (key block not beyond the query block), and the final quotient written to the
  output block (last key block). Which blocks run depends only on the grid point; the five combinations the grid
  meets are run separately below, each with the buffers' final contents stated over the body's named payloads.
-/
import proofs.«133407_j369367188058_2_alg».proof.Proof.Gen.KernelIdeal.Launch
import proofs.«133407_j369367188058_2_alg».proof.Proof.Gen.KernelIdeal.Skeleton
import proofs.«133407_j369367188058_2_alg».proof.Proof.Gen.KernelIdeal.Points
import proofs.«133407_j369367188058_2_alg».proof.Proof.KI.Scratch
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The reset block runs: the key block is the first. -/
abbrev cnd1 (i : grid1.Coords) : Prop := (Scalar.cmpi .ne (Scalar.extui (Scalar.cmpi .eq (BitVec.ofNat 32 (i 2).val) 0#32)) 0#32) = 1#1
/-- The recursion step runs: the key block is not beyond the query block. -/
abbrev cnd2 (i : grid1.Coords) : Prop := (Scalar.cmpi .ne (Scalar.extui (Scalar.cmpi .sle (BitVec.ofNat 32 (i 2).val) (BitVec.ofNat 32 (i 1).val))) 0#32) = 1#1
/-- The final quotient is written: the key block is the last. -/
abbrev cnd3 (i : grid1.Coords) : Prop := k1_cond3 i = 1#1

/-! ## Loads and stores through a buffer's whole rectangle -/

theorem zeros2 : (![0, 0] : Fin 2 → ℕ) = fun _ => 0 := by funext a; fin_cases a <;> rfl
theorem zeros3 : (![0, 0, 0] : Fin 3 → ℕ) = fun _ => 0 := by funext a; fin_cases a <;> rfl

section Whole
variable {Val : EltTy → Type} [∀ e, Nonempty (Val e)] {sg : RefSig} {κ : Kind} {sp : Space} {S : Shape} {e : EltTy}

/-- What a buffer reads after a list of stores whose LAST one (the head) fills it: that store's value. -/
theorem read_after_fill (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

/-- A whole load after such stores reads that value too. -/
theorem load_after_fill (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h inb]

/-- A whole load of a buffer nothing stored into reads its contents. -/
theorem load_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]
end Whole

/-- Close a "contents after the run = stated contents" goal: unfold the run's names, read whole loads and stores. -/
macro "fin1" : tactic => `(tactic| first
  | rfl
  | (sl_unfold_words
     simp only [stUpd, stInit, outS,
       read_after_fill (S := S512x1) _ _ zeros2, read_after_fill (S := S512x64) _ _ zeros2, read_after_fill (S := S1x512x64) _ _ zeros3,
       load_after_fill (S := S512x1) _ zeros2, load_after_fill (S := S512x64) _ zeros2, load_after_fill (S := S1x512x64) _ zeros3,
       load_whole (S := S512x1) _ _ zeros2, load_whole (S := S512x64) _ _ zeros2, load_whole (S := S1x512x64) _ _ zeros3]))

/-! ## First key block: reset, then one step from the reset triple; the output block untouched -/

set_option maxHeartbeats 4000000 in
theorem runA (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : cnd1 i) (hc2 : cnd2 i) (hc3 : ¬cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (d3)
            ∗ owns (c : Thread nD τ) arg7 fullShare ((stUpd (BitVec.ofNat 32 (i 1).val) (BitVec.ofNat 32 (i 2).val) x0 x1 x2 stInit).1) ∗ owns (c : Thread nD τ) arg8 fullShare ((stUpd (BitVec.ofNat 32 (i 1).val) (BitVec.ofNat 32 (i 2).val) x0 x1 x2 stInit).2.1) ∗ owns (c : Thread nD τ) arg9 fullShare ((stUpd (BitVec.ofNat 32 (i 1).val) (BitVec.ofNat 32 (i 2).val) x0 x1 x2 stInit).2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

/-! ## A middle key block at or below the diagonal: one step; the output block untouched -/

set_option maxHeartbeats 4000000 in
theorem runB (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cnd1 i) (hc2 : cnd2 i) (hc3 : ¬cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (d3)
            ∗ owns (c : Thread nD τ) arg7 fullShare ((stUpd (BitVec.ofNat 32 (i 1).val) (BitVec.ofNat 32 (i 2).val) x0 x1 x2 s).1) ∗ owns (c : Thread nD τ) arg8 fullShare ((stUpd (BitVec.ofNat 32 (i 1).val) (BitVec.ofNat 32 (i 2).val) x0 x1 x2 s).2.1) ∗ owns (c : Thread nD τ) arg9 fullShare ((stUpd (BitVec.ofNat 32 (i 1).val) (BitVec.ofNat 32 (i 2).val) x0 x1 x2 s).2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

/-! ## A middle key block beyond the diagonal: nothing happens -/

set_option maxHeartbeats 4000000 in
theorem runC (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cnd1 i) (hc2 : ¬cnd2 i) (hc3 : ¬cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (d3)
            ∗ owns (c : Thread nD τ) arg7 fullShare (s.1) ∗ owns (c : Thread nD τ) arg8 fullShare (s.2.1) ∗ owns (c : Thread nD τ) arg9 fullShare (s.2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

/-! ## The last key block on the diagonal: one step, then the quotient goes out -/

set_option maxHeartbeats 4000000 in
theorem runD (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cnd1 i) (hc2 : cnd2 i) (hc3 : cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (outS (stUpd (BitVec.ofNat 32 (i 1).val) (BitVec.ofNat 32 (i 2).val) x0 x1 x2 s))
            ∗ owns (c : Thread nD τ) arg7 fullShare ((stUpd (BitVec.ofNat 32 (i 1).val) (BitVec.ofNat 32 (i 2).val) x0 x1 x2 s).1) ∗ owns (c : Thread nD τ) arg8 fullShare ((stUpd (BitVec.ofNat 32 (i 1).val) (BitVec.ofNat 32 (i 2).val) x0 x1 x2 s).2.1) ∗ owns (c : Thread nD τ) arg9 fullShare ((stUpd (BitVec.ofNat 32 (i 1).val) (BitVec.ofNat 32 (i 2).val) x0 x1 x2 s).2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

/-! ## The last key block beyond the diagonal: only the quotient goes out -/

set_option maxHeartbeats 4000000 in
theorem runE (c : Dev nD) (E : Set ℕ) (i : grid1.Coords)
    (arg3 : Memref sig .tc .vmem S1x512x64 .bf16) (harg3 : arg3.IsWhole) (arg4 : Memref sig .tc .vmem S1x512x64 .bf16) (harg4 : arg4.IsWhole)
    (arg5 : Memref sig .tc .vmem S1x512x64 .bf16) (harg5 : arg5.IsWhole) (arg6 : Memref sig .tc .vmem S1x512x64 .bf16) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x64 .f32) (harg9 : arg9.IsWhole)
    (hc1 : ¬cnd1 i) (hc2 : ¬cnd2 i) (hc3 : cnd3 i)
    (x0 x1 x2 d3 : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3
        ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2
            ∗ owns (c : Thread nD τ) arg6 fullShare (outS s)
            ∗ owns (c : Thread nD τ) arg7 fullShare (s.1) ∗ owns (c : Thread nD τ) arg8 fullShare (s.2.1) ∗ owns (c : Thread nD τ) arg9 fullShare (s.2.2)) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  obtain ⟨s0, s1, s2⟩ := s
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, Hk⟩
  subst hf0 hf1 hf2 hf3 hg0 hg1 hg2
  sl_exec (disch := first | exact hc1 | exact hc2 | exact hc3)
  sl_step
  iapply Hk
  isplitl [H0]; · iexists _; isplitr; swap; iexact H0; ipureintro; rfl
  isplitl [H1]; · iexists _; isplitr; swap; iexact H1; ipureintro; rfl
  isplitl [H2]; · iexists _; isplitr; swap; iexact H2; ipureintro; rfl
  isplitl [H3]; · iexists _; isplitr; swap; iexact H3; ipureintro; fin1
  isplitl [G0]; · iexists _; isplitr; swap; iexact G0; ipureintro; fin1
  isplitl [G1]; · iexists _; isplitr; swap; iexact G1; ipureintro; fin1
  iexists _; isplitr; swap; iexact G2; ipureintro; fin1

end Cert.KernelIdeal.Hand

end
-- ==== Proof.KI.Region1.lean ====
/-
  The flash-attention region, point by point. The grid is (batch-head, query block, key block), the key block
  innermost. The three scratch buffers carry the running triple (maximum, denominator, numerator) from one point
  to the next; `scrAt` says what they hold after each point, by recursion on the point. The query, key and value
  windows hold their blocks at every point (a key/value block beyond the diagonal is the diagonal's, fetched or
  not); the output window is written, and written back, only at the last key block of each query block.
-/
import proofs.«133407_j369367188058_2_alg».proof.Proof.Gen.KernelIdeal.Launch
import proofs.«133407_j369367188058_2_alg».proof.Proof.Gen.KernelIdeal.Skeleton
import proofs.«133407_j369367188058_2_alg».proof.Proof.Gen.KernelIdeal.Points
import proofs.«133407_j369367188058_2_alg».proof.Proof.KI.Scratch
import Idealize.ShloMosaic.Lib.Pipeline.Value
import proofs.«133407_j369367188058_2_alg».proof.Proof.KI.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The three conditions, as arithmetic on the point's coordinates -/

theorem cnd1_iff (i : grid1.Coords) : cnd1 i ↔ (i 2).val = 0 := by
  have h : ∀ a : Fin 4, ((Scalar.cmpi .ne (Scalar.extui (Scalar.cmpi .eq (BitVec.ofNat 32 a.val) 0#32)) 0#32) = 1#1) ↔ a.val = 0 := by
    decide +kernel
  exact h (i 2)

theorem cnd2_iff (i : grid1.Coords) : cnd2 i ↔ (i 2).val ≤ (i 1).val := by
  have h : ∀ a b : Fin 4, ((Scalar.cmpi .ne (Scalar.extui (Scalar.cmpi .sle (BitVec.ofNat 32 a.val) (BitVec.ofNat 32 b.val))) 0#32) = 1#1) ↔ a.val ≤ b.val := by
    decide +kernel
  exact h (i 2) (i 1)

theorem cnd3_iff (i : grid1.Coords) : cnd3 i ↔ (i 2).val = 3 := by
  have h : ∀ a : Fin 4, ((Scalar.cmpi .ne (Scalar.extui (Scalar.cmpi .eq (BitVec.ofNat 32 a.val) 3#32)) 0#32) = 1#1) ↔ a.val = 3 := by
    decide +kernel
  exact h (i 2)

/-- The grid's first point is a first key block. -/
theorem first_point_resets : ∀ t : Fin cfg1.N, t.val = 0 → cnd1 (grid1.coords t) :=
  (by decide +kernel : ∀ t : Fin grid1.N, t.val = 0 → cnd1 (grid1.coords t))

/-- The last key block of a query block is every fourth point, from the third. -/
theorem cnd3_points : ∀ t : Fin cfg1.N, cnd3 (grid1.coords t) ↔ t.val % 4 = 3 :=
  (by decide +kernel : ∀ t : Fin grid1.N, cnd3 (grid1.coords t) ↔ t.val % 4 = 3)

/-! ## What `stepS` is in each case -/

theorem stepS_reset (i : grid1.Coords) (q k v : Vec F S1x512x64 .bf16) (s : St F) (h1 : (i 2).val = 0) (h2 : (i 2).val ≤ (i 1).val) :
    stepS i q k v s = stUpd (BitVec.ofNat 32 (i 1).val) (BitVec.ofNat 32 (i 2).val) q k v stInit := by
  unfold stepS; simp only [h1, if_true, Nat.zero_le]

theorem stepS_upd (i : grid1.Coords) (q k v : Vec F S1x512x64 .bf16) (s : St F) (h1 : (i 2).val ≠ 0) (h2 : (i 2).val ≤ (i 1).val) :
    stepS i q k v s = stUpd (BitVec.ofNat 32 (i 1).val) (BitVec.ofNat 32 (i 2).val) q k v s := by
  unfold stepS; simp only [h1, if_false, h2, if_true]

theorem stepS_skip (i : grid1.Coords) (q k v : Vec F S1x512x64 .bf16) (s : St F) (h1 : (i 2).val ≠ 0) (h2 : ¬(i 2).val ≤ (i 1).val) :
    stepS i q k v s = s := by
  unfold stepS; simp only [h1, if_false, h2]

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point, fetched there or not. -/
theorem holds1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the key window's: beyond the diagonal the block index stays at the diagonal's. -/
theorem holds1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- And the value window's. -/
theorem holds1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The running triple after each point -/

/-- What the three scratch buffers hold after the body at point `n`: the point's step on what the point before left
    (at the grid's first point the incoming triple is not read). -/
def scrAt (c : Dev nD) : (n : ℕ) → n < cfg1.N → St F
  | 0, h => stepS (grid1.coords ⟨0, h⟩) (iblk1 V c 0 ⟨0, h⟩) (iblk1 V c 1 ⟨0, h⟩) (iblk1 V c 2 ⟨0, h⟩) stInit
  | n + 1, h => stepS (grid1.coords ⟨n + 1, h⟩) (iblk1 V c 0 ⟨n + 1, h⟩) (iblk1 V c 1 ⟨n + 1, h⟩) (iblk1 V c 2 ⟨n + 1, h⟩)
      (scrAt c n (Nat.lt_of_succ_lt h))

theorem scrAt_first (c : Dev nD) (t : Fin cfg1.N) (ht : t.val = 0) (s : St F) :
    scrAt V c t.val t.isLt = stepS (grid1.coords t) (iblk1 V c 0 t) (iblk1 V c 1 t) (iblk1 V c 2 t) s := by
  obtain ⟨n, hn⟩ := t
  cases n with
  | zero => exact stepS_first _ _ _ _ _ _ ((cnd1_iff _).mp (first_point_resets ⟨0, hn⟩ rfl))
  | succ n => exact absurd ht (Nat.succ_ne_zero n)

theorem scrAt_next (c : Dev nD) (t : Fin cfg1.N) (ht : t.val ≠ 0) :
    scrAt V c t.val t.isLt = stepS (grid1.coords t) (iblk1 V c 0 t) (iblk1 V c 1 t) (iblk1 V c 2 t)
      (scrAt V c (t.val - 1) (Nat.lt_of_le_of_lt (Nat.sub_le _ _) t.isLt)) := by
  obtain ⟨n, hn⟩ := t
  cases n with
  | zero => exact absurd rfl ht
  | succ n => rfl

/-! ## The scratch buffers and the invariant -/

abbrev scM0 : Memref sig .tc .vmem S512x1 .f32 := Memref.whole cc1_scratch0
abbrev scM1 : Memref sig .tc .vmem S512x1 .f32 := Memref.whole cc1_scratch1
abbrev scM2 : Memref sig .tc .vmem S512x64 .f32 := Memref.whole cc1_scratch2
/-- The region's own scratch among the core's scoped buffers. -/
abbrev scrL : List (Ref sig .tc) := [cc1_scratch0, cc1_scratch1, cc1_scratch2]

/-- What rides beside the scratch: every other scoped buffer that is no staging buffer of this region, and the
    generator register. -/
abbrev besides (c : Dev nD) : sProp 𝕄 :=
  iprop(Pipeline.scopedRestBut (Ix := Unit) (Name := ℕ) (U := UR sig nD τ) (Lvl := ℕ) (Val := Elt F) spec1 c scrL ∗ (∃ r, prngReg c r))

/-- The class invariant with the scratch buffers split out, each at some contents. -/
theorem PhiA1_eq (c : Dev nD) :
    (Pipeline.ΦA spec1 c : sProp 𝕄)
      = iprop((((∃ d, owns (c : Thread nD τ) scM0 fullShare d) ∗ (∃ d, owns (c : Thread nD τ) scM1 fullShare d) ∗ (∃ d, owns (c : Thread nD τ) scM2 fullShare d))
          ∗ Pipeline.scopedRestBut (Ix := Unit) (Name := ℕ) (U := UR sig nD τ) (Lvl := ℕ) (Val := Elt F) spec1 c scrL) ∗ (∃ r, prngReg c r)) := by
  unfold Pipeline.ΦA
  rw [Pipeline.scopedRest_split_of_list spec1 c scrL (by decide) (by decide)]
  simp only [scM0, scM1, scM2, owns_whole]
  rfl

/-- The region's invariant before position `n`: before the first point the class's; afterwards the scratch at what the
    point before left, the rest riding along. -/
def PhiS (c : Dev nD) : (n : ℕ) → n ≤ cfg1.N → sProp 𝕄
  | 0, _ => Pipeline.ΦA spec1 c
  | n + 1, hn => iprop(owns (c : Thread nD τ) scM0 fullShare (scrAt V c n hn).1 ∗ owns (c : Thread nD τ) scM1 fullShare (scrAt V c n hn).2.1
      ∗ owns (c : Thread nD τ) scM2 fullShare (scrAt V c n hn).2.2 ∗ besides c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM0 fullShare (scrAt V c n hn).1 ∗ owns (c : Thread nD τ) scM1 fullShare (scrAt V c n hn).2.1
      ∗ owns (c : Thread nD τ) scM2 fullShare (scrAt V c n hn).2.2 ∗ besides c) := rfl

theorem PhiS_pos (c : Dev nD) (n : ℕ) (h : n ≤ cfg1.N) (hz : n ≠ 0) :
    PhiS V c n h = iprop(owns (c : Thread nD τ) scM0 fullShare (scrAt V c (n - 1) (by omega)).1 ∗ owns (c : Thread nD τ) scM1 fullShare (scrAt V c (n - 1) (by omega)).2.1
      ∗ owns (c : Thread nD τ) scM2 fullShare (scrAt V c (n - 1) (by omega)).2.2 ∗ besides c) := by
  cases n with
  | zero => exact absurd rfl hz
  | succ n => rfl

/-! ## The proof data -/

/-- The region's proof data on core `c`: the arrays as the region finds them; after the body each input window at
    its block, the output window at the quotient of the running triple (read only where the window is written);
    the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outS (scrAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outS (scrAt V c t.val t.isLt) := by dsimp only [dat1]

theorem holds1_0 (c : Dev nD) (t : Fin cfg1.N) (d) : (dat1 V c).before 0 t d = iblk1 V c 0 t :=
  holds1_0_of V (dat1 V c) (A_eq1 V c 0) (after1_0 V c) t d
theorem holds1_1 (c : Dev nD) (t : Fin cfg1.N) (d) : (dat1 V c).before 1 t d = iblk1 V c 1 t :=
  holds1_1_of V (dat1 V c) (A_eq1 V c 1) (after1_1 V c) t d
theorem holds1_2 (c : Dev nD) (t : Fin cfg1.N) (d) : (dat1 V c).before 2 t d = iblk1 V c 2 t :=
  holds1_2_of V (dat1 V c) (A_eq1 V c 2) (after1_2 V c) t d

theorem Phi_castSucc (c : Dev nD) (t : Fin cfg1.N) :
    (dat1 V c).Φ t.castSucc = PhiS V c t.val (Nat.le_of_lt t.isLt) := by
  dsimp only [dat1]; simp only [Fin.coe_castSucc]

/-! ## Where the windows are idle -/

theorem live1_0 (i : grid1.Coords) : cfg1.idle 0 i = false := rfl
theorem live1_1 (i : grid1.Coords) : cfg1.idle 1 i = false := rfl
theorem live1_2 (i : grid1.Coords) : cfg1.idle 2 i = false := rfl
/-- Away from the last key block the output window is idle, -/
theorem idle1_3 (i : grid1.Coords) (h : ¬cnd3 i) : cfg1.idle 3 i = true := by
  show (!(k1_cond3 i == 1#1)) = true
  simp only [Bool.not_eq_true', beq_eq_false_iff_ne, ne_eq]; exact h
/-- and not written back; -/
theorem noFlush1_3 (t : Fin cfg1.N) (h : ¬cnd3 (grid1.coords t)) : (cfg1.win 3).flush t = false := by
  cases hf : (cfg1.win 3).flush t
  · rfl
  · exact absurd ((cnd3_points t).mpr ((flush1_3 t).mp hf)) h
/-- at the last key block it is live. -/
theorem live1_3 (i : grid1.Coords) (h : cnd3 i) : cfg1.idle 3 i = false := by
  show (!(k1_cond3 i == 1#1)) = false
  simp only [Bool.not_eq_false', beq_iff_eq]; exact h

/-! ## The body obligation, at a generic point -/

abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .bf16 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The invariant at a point's start hands out the scratch at some triple — after the first point, the one the point
    before left — and the rest. -/
theorem Phi_open (c : Dev nD) (t : Fin cfg1.N) :
    (dat1 V c).Φ t.castSucc ⊢ (iprop(∃ s : St F, ⌜t.val ≠ 0 → s = scrAt V c (t.val - 1) (Nat.lt_of_le_of_lt (Nat.sub_le _ _) t.isLt)⌝
        ∗ owns (c : Thread nD τ) scM0 fullShare s.1 ∗ owns (c : Thread nD τ) scM1 fullShare s.2.1 ∗ owns (c : Thread nD τ) scM2 fullShare s.2.2
        ∗ besides c) : sProp 𝕄) := by
  rw [Phi_castSucc]
  by_cases hz : t.val = 0
  · rw [PhiS_zero V c _ _ hz, PhiA1_eq]
    iintro ⟨⟨⟨⟨%d0, H0⟩, ⟨%d1, H1⟩, ⟨%d2, H2⟩⟩, Hr⟩, Hg⟩
    iexists (d0, d1, d2)
    isplitr; · ipureintro; intro h; exact absurd hz h
    isplitl [H0]; · iexact H0
    isplitl [H1]; · iexact H1
    isplitl [H2]; · iexact H2
    isplitl [Hr]; · iexact Hr
    iexact Hg
  · rw [PhiS_pos V c _ _ hz]
    iintro ⟨H0, H1, H2, Hb⟩
    iexists _
    isplitr; · ipureintro; intro _; rfl
    isplitl [H0]; · iexact H0
    isplitl [H1]; · iexact H1
    isplitl [H2]; · iexact H2
    iexact Hb

set_option maxHeartbeats 4000000 in
/-- The body at any point: the input windows hold their blocks; the coordinates say which of the five cases the point
    is in; the invariant hands the scratch out at what the point before left and takes it back at this point's triple;
    the output window is handed back untouched where it is idle, at the quotient where it is written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [holds1_0, holds1_1, holds1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [live1_0], after1_0]
  rw [show (dat1 V c).leavesExact 1 t = owns (c : Thread nD τ) (ms1_1 t) fullShare ((dat1 V c).after 1 t) from by
      unfold Dat.leavesExact; rw [live1_1], after1_1]
  rw [show (dat1 V c).leavesExact 2 t = owns (c : Thread nD τ) (ms1_2 t) fullShare ((dat1 V c).after 2 t) from by
      unfold Dat.leavesExact; rw [live1_2], after1_2]
  by_cases h3 : cnd3 (grid1.coords t)
  · rw [show (dat1 V c).leavesExact 3 t = owns (c : Thread nD τ) (ms1_3 t) fullShare ((dat1 V c).after 3 t) from by
        unfold Dat.leavesExact; rw [live1_3 _ h3], after1_3]
    have k3 := (cnd3_iff _).mp h3
    have h1 : ¬cnd1 (grid1.coords t) := fun h => by have := (cnd1_iff _).mp h; omega
    have k1 : ((grid1.coords t) 2).val ≠ 0 := fun h => h1 ((cnd1_iff _).mpr h)
    have ht : t.val ≠ 0 := fun h => h1 (first_point_resets t h)
    rw [scrAt_next V c t ht]
    by_cases h2 : cnd2 (grid1.coords t)
    · rw [stepS_upd _ _ _ _ _ k1 ((cnd2_iff _).mp h2)]
      iintro ⟨HΦ, Ho, ⟨%d0, H0⟩, ⟨%d1, H1⟩, ⟨%d2, H2⟩, ⟨%d3, H3⟩⟩
      ihave HS := (Phi_open V c t) $$ HΦ
      icases HS with ⟨%s, %hs, S0, S1, S2, Hb⟩
      obtain rfl := hs ht
      iapply (runD c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _) h1 h2 h3
        (iblk1 V c 0 t) (iblk1 V c 1 t) (iblk1 V c 2 t) _ _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hb]
      · isplitl [S0]; · iexact S0
        isplitl [S1]; · iexact S1
        isplitl [S2]; · iexact S2
        iexact Hb
      isplitl [Ho]; · iexact Ho
      isplitl [H0]; · iexact H0
      isplitl [H1]; · iexact H1
      isplitl [H2]; · iexact H2
      iexact H3
    · rw [stepS_skip _ _ _ _ _ k1 (fun h => h2 ((cnd2_iff _).mpr h))]
      iintro ⟨HΦ, Ho, ⟨%d0, H0⟩, ⟨%d1, H1⟩, ⟨%d2, H2⟩, ⟨%d3, H3⟩⟩
      ihave HS := (Phi_open V c t) $$ HΦ
      icases HS with ⟨%s, %hs, S0, S1, S2, Hb⟩
      obtain rfl := hs ht
      iapply (runE c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _) h1 h2 h3
        (iblk1 V c 0 t) (iblk1 V c 1 t) (iblk1 V c 2 t) _ _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hb]
      · isplitl [S0]; · iexact S0
        isplitl [S1]; · iexact S1
        isplitl [S2]; · iexact S2
        iexact Hb
      isplitl [Ho]; · iexact Ho
      isplitl [H0]; · iexact H0
      isplitl [H1]; · iexact H1
      isplitl [H2]; · iexact H2
      iexact H3
  · rw [Dat.leavesExact_idle (dat1 V c) 3 t (idle1_3 _ h3) (noFlush1_3 t h3)]
    by_cases h1 : cnd1 (grid1.coords t)
    · have k1 := (cnd1_iff _).mp h1
      have k2 : ((grid1.coords t) 2).val ≤ ((grid1.coords t) 1).val := by omega
      have h2 : cnd2 (grid1.coords t) := (cnd2_iff _).mpr k2
      have hS : scrAt V c t.val t.isLt = stUpd (BitVec.ofNat 32 ((grid1.coords t) 1).val) (BitVec.ofNat 32 ((grid1.coords t) 2).val)
          (iblk1 V c 0 t) (iblk1 V c 1 t) (iblk1 V c 2 t) stInit := by
        by_cases ht : t.val = 0
        · rw [scrAt_first V c t ht stInit, stepS_reset _ _ _ _ _ k1 k2]
        · rw [scrAt_next V c t ht, stepS_reset _ _ _ _ _ k1 k2]
      rw [hS]
      iintro ⟨HΦ, Ho, ⟨%d0, H0⟩, ⟨%d1, H1⟩, ⟨%d2, H2⟩, ⟨%d3, H3⟩⟩
      ihave HS := (Phi_open V c t) $$ HΦ
      icases HS with ⟨%s, %hs, S0, S1, S2, Hb⟩
      iapply (runA c Set.univ (grid1.coords t) (ms1_0 t) (hs1_0 t) (ms1_1 t) (hs1_1 t) (ms1_2 t) (hs1_2 t) (ms1_3 t) (hs1_3 t)
        scM0 (Memref.isWhole_whole _) scM1 (Memref.isWhole_whole _) scM2 (Memref.isWhole_whole _) h1 h2 h3
        (iblk1 V c 0 t) (iblk1 V c 1 t) (iblk1 V c 2 t) _ _ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hb]
      · isplitl [S0]; · iexact S0
        isplitl [S1]; · iexact S1
        isplitl [S2]; · iexact S2
        iexact Hb
      isplitl [Ho]; · iexact Ho
      isplitl [H0]; · iexact H0
      isplitl [H1]; · iexact H1
      isplitl [H2]; · iexact H2
      iexists d3; iexact H3
    · have k1 : ((grid1.coords t) 2).val ≠ 0 := fun h => h1 ((cnd1_iff _).mpr h)
      have ht : t.val ≠ 0 := fun h => h1 (first_point_resets t h)
      rw [scrAt_next V c t ht]
      by_cases h2 : cnd2 (grid1.coords t)
      · rw [stepS_upd _ _ _ _ _ k1 ((cnd2_iff _).mp h2)]
        iintro ⟨HΦ, Ho, ⟨%d0, H0⟩, ⟨%d1, H1⟩, ⟨%d2, H2⟩, ⟨%d3, H3⟩⟩
        ihave HS := (Phi_open V c t) $$ HΦ
        icases HS with ⟨%s, %hs, S0, S1, S2, Hb⟩
        obtain rfl := hs ht
        iapply (runB c Set.univ (grid1.coords t) (ms1_0 t) (hs1_0 t) (ms1_1 t) (hs1_1 t) (ms1_2 t) (hs1_2 t) (ms1_3 t) (hs1_3 t)
          scM0 (Memref.isWhole_whole _) scM1 (Memref.isWhole_whole _) scM2 (Memref.isWhole_whole _) h1 h2 h3
          (iblk1 V c 0 t) (iblk1 V c 1 t) (iblk1 V c 2 t) _ _ _)
        isplitl [H0]; · iexact H0
        isplitl [H1]; · iexact H1
        isplitl [H2]; · iexact H2
        isplitl [H3]; · iexact H3
        isplitl [S0]; · iexact S0
        isplitl [S1]; · iexact S1
        isplitl [S2]; · iexact S2
        iintro ⟨H0, H1, H2, H3, S0, S1, S2⟩
        isplitl [S0 S1 S2 Hb]
        · isplitl [S0]; · iexact S0
          isplitl [S1]; · iexact S1
          isplitl [S2]; · iexact S2
          iexact Hb
        isplitl [Ho]; · iexact Ho
        isplitl [H0]; · iexact H0
        isplitl [H1]; · iexact H1
        isplitl [H2]; · iexact H2
        iexists d3; iexact H3
      · rw [stepS_skip _ _ _ _ _ k1 (fun h => h2 ((cnd2_iff _).mpr h))]
        iintro ⟨HΦ, Ho, ⟨%d0, H0⟩, ⟨%d1, H1⟩, ⟨%d2, H2⟩, ⟨%d3, H3⟩⟩
        ihave HS := (Phi_open V c t) $$ HΦ
        icases HS with ⟨%s, %hs, S0, S1, S2, Hb⟩
        obtain rfl := hs ht
        iapply (runC c Set.univ (grid1.coords t) (ms1_0 t) (hs1_0 t) (ms1_1 t) (hs1_1 t) (ms1_2 t) (hs1_2 t) (ms1_3 t) (hs1_3 t)
          scM0 (Memref.isWhole_whole _) scM1 (Memref.isWhole_whole _) scM2 (Memref.isWhole_whole _) h1 h2 h3
          (iblk1 V c 0 t) (iblk1 V c 1 t) (iblk1 V c 2 t) _ _ _)
        isplitl [H0]; · iexact H0
        isplitl [H1]; · iexact H1
        isplitl [H2]; · iexact H2
        isplitl [H3]; · iexact H3
        isplitl [S0]; · iexact S0
        isplitl [S1]; · iexact S1
        isplitl [S2]; · iexact S2
        iintro ⟨H0, H1, H2, H3, S0, S1, S2⟩
        isplitl [S0 S1 S2 Hb]
        · isplitl [S0]; · iexact S0
          isplitl [S1]; · iexact S1
          isplitl [S2]; · iexact S2
          iexact Hb
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends -/

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the class's back: the triple's contents are forgotten. -/
theorem hout1 (c : Dev nD) : (dat1 V c).Φ (Fin.last cfg1.N) ⊢ (Pipeline.ΦA spec1 c : sProp 𝕄) := by
  rw [show (dat1 V c).Φ (Fin.last cfg1.N) = PhiS V c cfg1.N (le_refl _) from rfl,
    PhiS_pos V c _ _ (show cfg1.N ≠ 0 from by rw [show cfg1.N = 512 from N_1]; decide), PhiA1_eq]
  iintro ⟨H0, H1, H2, Hr, Hg⟩
  isplitl [H0 H1 H2 Hr]
  · isplitl [H0 H1 H2]
    · isplitl [H0]; · iexists _; iexact H0
      isplitl [H1]; · iexists _; iexact H1
      iexists _; iexact H2
    iexact Hr
  iexact Hg

end Cert.KernelIdeal.Hand

end
-- ==== Proof.KI.Region2.lean ====
import proofs.«133407_j369367188058_2_alg».proof.Proof.Gen.KernelIdeal.Launch
import proofs.«133407_j369367188058_2_alg».proof.Proof.Gen.KernelIdeal.Skeleton
import proofs.«133407_j369367188058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (the output projection, a matrix product): what one run of the body does to the staging buffers

Everything is stated at a parameter `V`, the contents of the core's buffers at the moment the region starts.
For a grid point `t`: the block of each window cut from `V` (`iblk2`); the contents of each output buffer once
the body has run, as a function of the input blocks (`out2_W`); the record of proof data built from the two
(`dat2`); the fact that an input buffer holds its block whether or not the pipeline copied it in at `t`; the
body's weakest-precondition statement on arbitrary whole buffers; and from these the obligation the pipeline rule
asks of the body at every point (`body_obligation2`). -/

-- deciding membership in a rectangle with extents in the hundreds recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Blocks, and the body's three whole-block accesses -/

/-- The block of window `w` at grid point `t`: the window's view at `t` read off its array's contents in `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- All of a 512×1024 buffer (the left factor's, and the product's). -/
abbrev rAct2 : Rect S512x1024 := Rect.unit (s := S512x1024) ![0, 0] S512x1024.size inb_S512x1024_S512x1024_0_0
/-- All of the 1024×1024 right factor's buffer. -/
abbrev rWt2 : Rect S1024x1024 := Rect.unit (s := S1024x1024) ![0, 0] S1024x1024.size inb_S1024x1024_S1024x1024_0_0

/-! ## The output buffer after the body -/

/-- The output window's buffer after the body, given the two input buffers' contents: the body stores once,
    over the whole buffer, the product payload of the two whole-buffer reads. -/
def out2_2 (x0 : Vec F S512x1024 .bf16) (x1 : Vec F S1024x1024 .f32) : Vec F S512x1024 .f32 :=
  View.canon [⟨rAct2, k2_pay1 (View.ld x0 rAct2) (View.ld x1 rWt2)⟩]

/-- A single piece over the whole-buffer rectangle reaches every index: its extent is the buffer's. -/
theorem out2_2_reaches (p : Vec F S512x1024 .f32) (y : S512x1024.Idx) :
    ∃ pc ∈ ([⟨rAct2, p⟩] : List (View.Piece (Elt F) S512x1024 .f32)), y ∈ pc.1.set :=
  View.cover_of_tiled [⟨rAct2, p⟩] S512x1024.size (by rfl) y

/-! ## The proof data -/

/-- Pipeline 2's proof data on core `c`. Arrays: as `V` has them. After the body at `t`: an input buffer still
    holds its block, the output buffer holds `out2_2` of the two input blocks. The invariant is the one that only
    carries the other scoped buffers and the generator register along; the core owes nothing; all shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## An input buffer holds its block at every point

Where the pipeline copies the block in, the buffer holds it by the copy. Where it does not, the block index is the
one of the point before, the body there left the buffer as it was (`after` is the block), and the window is neither
clipped nor ever idle: so the buffer still holds this point's block. The right factor is copied in at the first
point only and is read at all eight. -/

theorem holds2_0 (c : Dev nD) (t : Fin cfg2.N) (d) : (dat2 V c).before 0 t d = iblk2 V c 0 t := by
  have keep : ∀ s, (cfg2.win 0).cut (cfg2.grid.coords s) ((dat2 V c).after 0 s) = (dat2 V c).blockOf 0 s := fun s => by
    rw [after2_0]; unfold Dat.blockOf iblk2; rw [A_eq2]; try rfl
  rw [(dat2 V c).before_in_eq_fetched 0 rfl (fun _ => rfl) (fun _ _ _ => rfl) keep t d]
  unfold Dat.fetched Dat.blockOf iblk2; rw [A_eq2]; try rfl

theorem holds2_1 (c : Dev nD) (t : Fin cfg2.N) (d) : (dat2 V c).before 1 t d = iblk2 V c 1 t := by
  have keep : ∀ s, (cfg2.win 1).cut (cfg2.grid.coords s) ((dat2 V c).after 1 s) = (dat2 V c).blockOf 1 s := fun s => by
    rw [after2_1]; unfold Dat.blockOf iblk2; rw [A_eq2]; try rfl
  rw [(dat2 V c).before_in_eq_fetched 1 rfl (fun _ => rfl) (fun _ _ _ => rfl) keep t d]
  unfold Dat.fetched Dat.blockOf iblk2; rw [A_eq2]; try rfl

/-! ## The body on arbitrary whole buffers -/

set_option maxHeartbeats 1000000 in
/-- Given both input buffers whole at known contents and the output buffer whole at any contents, the body reaches
    any continuation that accepts the inputs unchanged and the output at `out2_2` of them. The body reads the two
    inputs, reads the output buffer once without using the value, and stores the payload over the whole output
    buffer; a buffer written everywhere by one piece reads back as that piece. -/
theorem kernel2_runs (c : Dev nD) (E : Set ℕ) (i : grid2.Coords)
    (a0 : Memref sig .tc .vmem S512x1024 .bf16) (h0 : a0.IsWhole) (a1 : Memref sig .tc .vmem S1024x1024 .f32) (h1 : a1.IsWhole)
    (a2 : Memref sig .tc .vmem S512x1024 .f32) (h2 : a2.IsWhole)
    (x0 : Vec F S512x1024 .bf16) (x1 : Vec F S1024x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__matmul_kernel i a0 h0 a1 h1 a2 h2) K := by
  rw [cc2__matmul_kernel_eq_skeleton]; unfold cc2__matmul_kernel_skel owns
  iintro ⟨⟨%b0, %e0, P0⟩, ⟨%b1, %e1, P1⟩, ⟨%y, %b2, -, P2⟩, Kont⟩
  subst e0 e1
  sl_exec
  sl_step
  iapply Kont
  isplitl [P0]
  · iexists b0; isplitr
    · ipureintro; rfl
    · iexact P0
  isplitl [P1]
  · iexists b1; isplitr
    · ipureintro; rfl
    · iexact P1
  -- the buffer's final contents are fixed by the points-to fact, so that conjunct goes first
  iexists _; isplitr; rotate_left
  · iexact P2
  · ipureintro; exact View.read_writes_eq_canon _ _ _ (out2_2_reaches _)

/-! ## The obligation at a grid point -/

/-- The body as the pipeline calls it at `t`, from the invariant, what the core owes and the three current staging
    buffers as the pipeline hands them over, to the same with each buffer at the proof data's `after`. The input
    buffers hold their blocks (`holds2_W`), so `kernel2_runs` applies at the blocks; the invariant and the debt do
    not depend on the point and are passed along. -/
theorem body2_runs (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
        iprop((dat2 V c).Φ t.succ ∗ (dat2 V c).owesAt () t.succ
          ∗ owns (c : Thread nD τ) (st2_0 t) fullShare ((dat2 V c).after 0 t)
          ∗ owns (c : Thread nD τ) (st2_1 t) fullShare ((dat2 V c).after 1 t)
          ∗ owns (c : Thread nD τ) (st2_2 t) fullShare ((dat2 V c).after 2 t))) := by
  have hΦ : (dat2 V c).Φ t.succ = (dat2 V c).Φ t.castSucc := rfl
  have ho : (dat2 V c).owesAt () t.succ = (dat2 V c).owesAt () t.castSucc := rfl
  simp only [holds2_0, holds2_1]
  rw [hΦ, ho, after2_0, after2_1, after2_2]
  unfold bodyAt2
  iintro ⟨Inv, Debt, ⟨%d0, B0⟩, ⟨%d1, B1⟩, ⟨%d2, B2⟩⟩
  iapply (kernel2_runs c Set.univ _ _ _ _ _ _ _ (iblk2 V c 0 t) (iblk2 V c 1 t) _)
  isplitl [B0]; · iexact B0
  isplitl [B1]; · iexact B1
  isplitl [B2]; · iexists _; iexact B2
  iintro ⟨B0, B1, B2⟩
  isplitl [Inv]; · iexact Inv
  isplitl [Debt]; · iexact Debt
  isplitl [B0]; · iexact B0
  isplitl [B1]; · iexact B1
  iexact B2

/-- The pipeline rule's obligation on the body, at every point: its conjunction over the windows written out is
    `body2_runs`. -/
theorem body_obligation2 (c : Dev nD) : BodyObligation (dat2 (F := F) V c) (defs₀ (F := F)) Variants.none () Set.univ := fun t => by
  rw [bigSep_W2, bigSep_W2]
  exact body2_runs V c t

end Cert.KernelIdeal.Hand

end
-- ==== Proof.KI.Run.lean ====
import proofs.«133407_j369367188058_2_alg».proof.Proof.Gen.KernelIdeal.Launch
import proofs.«133407_j369367188058_2_alg».proof.Proof.Gen.KernelIdeal.Regions
import proofs.«133407_j369367188058_2_alg».proof.Proof.KI.Region0
import proofs.«133407_j369367188058_2_alg».proof.Proof.KI.Region1
import proofs.«133407_j369367188058_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # @main from the launch to the return

@main is six pieces in a row: region 0, three host reshapes, region 1, a host reshape, transpose and reshape,
region 2, one host reshape. This module follows a core's unscoped buffers through the six pieces. It names their
contents at each of the seven boundaries (`M0` at launch … `Wlast` at the return): a region replaces its windows'
arrays by what its pipeline leaves there and keeps every other buffer; a host piece applies its operations. Each
piece is then a segment of the run entered from the boundary before it and left at the one after it, and the
launch rule for a list of segments gives: every fair execution of @main from zero counters terminates, and in the
final memory every unscoped buffer of every core holds `Wlast` (`run_all`). Since no piece writes an argument
array, `Wlast` at an argument is the launch contents (`frame_all`); at the result buffer it is the last reshape of
what region 2's pipeline leaves in its output array (`Wlast_result`). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- At launch: the launch memory, read on core `c`. -/
abbrev M0 : Dev nD → Valuation τ sig (Elt F) := fun c b => (s₀ m ρ).mem ((c : Dev nD), b)
/-- Region 0 is entered from `M0`; its proof data read that boundary at the core's own references. -/
abbrev E0 : (c : Dev nD) → (b : Ref sig .tc) → Buf (Elt F) ((c : Thread nD τ).loc b) := fun c b => M0 m ρ c b
/-- After region 0: each window's array at what the pipeline leaves after the last point (an input's array
    untouched, an output's with every write-back applied), every other buffer as at `M0`. -/
def M1 (c : Dev nD) : Valuation τ sig (Elt F) :=
  Pipeline.withArrays spec0 c (M0 m ρ c) fun w => (dat0 (E0 m ρ) c).arrAt w cfg0.N
theorem M1_arr (c : Dev nD) (w : Fin cfg0.W) :
    M1 m ρ c (Proc.devRef .tc (Pipeline.arrRef spec0 w)) = (dat0 (E0 m ρ) c).arrAt w cfg0.N := by
  unfold M1; exact Pipeline.withArrays_arr spec0 launch0.win.arr_inj c _ _ w
theorem M1_off (c : Dev nD) (b : Ref sig .tc) (hb : ∀ w, Pipeline.arrRef spec0 w ≠ b) :
    M1 m ρ c (Proc.devRef .tc b) = M0 m ρ c (Proc.devRef .tc b) := by
  unfold M1; exact Pipeline.withArrays_of_ne spec0 c _ _ b hb
/-- An input window's array is not written by its pipeline: after region 0 it holds what it held before. -/
theorem M1_input (c : Dev nD) (w : Fin cfg0.W) (hin : (cfg0.win w).isOut = false) :
    M1 m ρ c (Proc.devRef .tc (Pipeline.arrRef spec0 w)) = M0 m ρ c (Proc.devRef .tc (Pipeline.arrRef spec0 w)) :=
  (M1_arr m ρ c w).trans (((dat0 (E0 m ρ) c).arrAt_in w hin _).trans (A_eq0 (E0 m ρ) c w))
/-- `M1` read at the core's own references. -/
abbrev M1tc : (c : Dev nD) → (b : Ref sig .tc) → Buf (Elt F) ((c : Thread nD τ).loc b) := fun c b => M1 m ρ c b

/-- After the three reshapes of region 0's outputs. -/
abbrev M2 : Dev nD → Valuation τ sig (Elt F) := fun c => StableHlo.after hostOps1 (M1 m ρ c)
/-- Region 1 is entered from `M2`; its proof data read that boundary at the core's own references. -/
abbrev E1 : (c : Dev nD) → (b : Ref sig .tc) → Buf (Elt F) ((c : Thread nD τ).loc b) := fun c b => M2 m ρ c b
/-- After region 1: each window's array at what the pipeline leaves after the last point (an input's array
    untouched, an output's with every write-back applied), every other buffer as at `M2`. -/
def M3 (c : Dev nD) : Valuation τ sig (Elt F) :=
  Pipeline.withArrays spec1 c (M2 m ρ c) fun w => (dat1 (E1 m ρ) c).arrAt w cfg1.N
theorem M3_arr (c : Dev nD) (w : Fin cfg1.W) :
    M3 m ρ c (Proc.devRef .tc (Pipeline.arrRef spec1 w)) = (dat1 (E1 m ρ) c).arrAt w cfg1.N := by
  unfold M3; exact Pipeline.withArrays_arr spec1 launch1.win.arr_inj c _ _ w
theorem M3_off (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
/-- An input window's array is not written by its pipeline: after region 1 it holds what it held before. -/
theorem M3_input (c : Dev nD) (w : Fin cfg1.W) (hin : (cfg1.win w).isOut = false) :
    M3 m ρ c (Proc.devRef .tc (Pipeline.arrRef spec1 w)) = M2 m ρ c (Proc.devRef .tc (Pipeline.arrRef spec1 w)) :=
  (M3_arr m ρ c w).trans (((dat1 (E1 m ρ) c).arrAt_in w hin _).trans (A_eq1 (E1 m ρ) c w))
/-- `M3` read at the core's own references. -/
abbrev M3tc : (c : Dev nD) → (b : Ref sig .tc) → Buf (Elt F) ((c : Thread nD τ).loc b) := fun c b => M3 m ρ c b

/-- After the reshape, transpose and reshape of region 1's output. -/
abbrev M4 : Dev nD → Valuation τ sig (Elt F) := fun c => StableHlo.after hostOps2 (M3 m ρ c)
/-- Region 2 is entered from `M4`; its proof data read that boundary at the core's own references. -/
abbrev E2 : (c : Dev nD) → (b : Ref sig .tc) → Buf (Elt F) ((c : Thread nD τ).loc b) := fun c b => M4 m ρ c b
/-- After region 2: each window's array at what the pipeline leaves after the last point (an input's array
    untouched, an output's with every write-back applied), every other buffer as at `M4`. -/
def M5 (c : Dev nD) : Valuation τ sig (Elt F) :=
  Pipeline.withArrays spec2 c (M4 m ρ c) fun w => (dat2 (E2 m ρ) c).arrAt w cfg2.N
theorem M5_arr (c : Dev nD) (w : Fin cfg2.W) :
    M5 m ρ c (Proc.devRef .tc (Pipeline.arrRef spec2 w)) = (dat2 (E2 m ρ) c).arrAt w cfg2.N := by
  unfold M5; exact Pipeline.withArrays_arr spec2 launch2.win.arr_inj c _ _ w
theorem M5_off (c : Dev nD) (b : Ref sig .tc) (hb : ∀ w, Pipeline.arrRef spec2 w ≠ b) :
    M5 m ρ c (Proc.devRef .tc b) = M4 m ρ c (Proc.devRef .tc b) := by
  unfold M5; exact Pipeline.withArrays_of_ne spec2 c _ _ b hb
/-- An input window's array is not written by its pipeline: after region 2 it holds what it held before. -/
theorem M5_input (c : Dev nD) (w : Fin cfg2.W) (hin : (cfg2.win w).isOut = false) :
    M5 m ρ c (Proc.devRef .tc (Pipeline.arrRef spec2 w)) = M4 m ρ c (Proc.devRef .tc (Pipeline.arrRef spec2 w)) :=
  (M5_arr m ρ c w).trans (((dat2 (E2 m ρ) c).arrAt_in w hin _).trans (A_eq2 (E2 m ρ) c w))
/-- `M5` read at the core's own references. -/
abbrev M5tc : (c : Dev nD) → (b : Ref sig .tc) → Buf (Elt F) ((c : Thread nD τ).loc b) := fun c b => M5 m ρ c b

/-- At the return: after the reshape of region 2's output. -/
abbrev Wlast : Dev nD → Valuation τ sig (Elt F) := fun c => StableHlo.after hostOps3 (M5 m ρ c)

/-! ## The arguments come back as launched

No host operation writes an argument. A region either stages an argument through an input window (regions 0 and 2),
whose array the pipeline never writes, or does not touch it at all. Walking from the return back to the launch,
boundary by boundary, each argument's contents never change. -/

theorem Wlast_arg0 (c : Dev nD) : Wlast m ρ c (Proc.devRef .tc main_arg0) = m ((c : Thread nD τ).loc main_arg0) :=
  calc Wlast m ρ c (Proc.devRef .tc main_arg0)
    _ = M5 m ρ c (Proc.devRef .tc main_arg0) := StableHlo.after_of_writes_sub hostOps3 _ hostOps3_writes (by decide)
    _ = M4 m ρ c (Proc.devRef .tc main_arg0) := M5_off m ρ c main_arg0 (by decide)
    _ = M3 m ρ c (Proc.devRef .tc main_arg0) := StableHlo.after_of_writes_sub hostOps2 _ hostOps2_writes (by decide)
    _ = M2 m ρ c (Proc.devRef .tc main_arg0) := M3_off m ρ c main_arg0 (by decide)
    _ = M1 m ρ c (Proc.devRef .tc main_arg0) := StableHlo.after_of_writes_sub hostOps1 _ hostOps1_writes (by decide)
    _ = M0 m ρ c (Proc.devRef .tc main_arg0) := M1_input m ρ c 0 rfl
    _ = m ((c : Thread nD τ).loc main_arg0) := rfl

theorem Wlast_arg1 (c : Dev nD) : Wlast m ρ c (Proc.devRef .tc main_arg1) = m ((c : Thread nD τ).loc main_arg1) :=
  calc Wlast m ρ c (Proc.devRef .tc main_arg1)
    _ = M5 m ρ c (Proc.devRef .tc main_arg1) := StableHlo.after_of_writes_sub hostOps3 _ hostOps3_writes (by decide)
    _ = M4 m ρ c (Proc.devRef .tc main_arg1) := M5_off m ρ c main_arg1 (by decide)
    _ = M3 m ρ c (Proc.devRef .tc main_arg1) := StableHlo.after_of_writes_sub hostOps2 _ hostOps2_writes (by decide)
    _ = M2 m ρ c (Proc.devRef .tc main_arg1) := M3_off m ρ c main_arg1 (by decide)
    _ = M1 m ρ c (Proc.devRef .tc main_arg1) := StableHlo.after_of_writes_sub hostOps1 _ hostOps1_writes (by decide)
    _ = M0 m ρ c (Proc.devRef .tc main_arg1) := M1_input m ρ c 1 rfl
    _ = m ((c : Thread nD τ).loc main_arg1) := rfl

theorem Wlast_arg2 (c : Dev nD) : Wlast m ρ c (Proc.devRef .tc main_arg2) = m ((c : Thread nD τ).loc main_arg2) :=
  calc Wlast m ρ c (Proc.devRef .tc main_arg2)
    _ = M5 m ρ c (Proc.devRef .tc main_arg2) := StableHlo.after_of_writes_sub hostOps3 _ hostOps3_writes (by decide)
    _ = M4 m ρ c (Proc.devRef .tc main_arg2) := M5_off m ρ c main_arg2 (by decide)
    _ = M3 m ρ c (Proc.devRef .tc main_arg2) := StableHlo.after_of_writes_sub hostOps2 _ hostOps2_writes (by decide)
    _ = M2 m ρ c (Proc.devRef .tc main_arg2) := M3_off m ρ c main_arg2 (by decide)
    _ = M1 m ρ c (Proc.devRef .tc main_arg2) := StableHlo.after_of_writes_sub hostOps1 _ hostOps1_writes (by decide)
    _ = M0 m ρ c (Proc.devRef .tc main_arg2) := M1_input m ρ c 2 rfl
    _ = m ((c : Thread nD τ).loc main_arg2) := rfl

theorem Wlast_arg3 (c : Dev nD) : Wlast m ρ c (Proc.devRef .tc main_arg3) = m ((c : Thread nD τ).loc main_arg3) :=
  calc Wlast m ρ c (Proc.devRef .tc main_arg3)
    _ = M5 m ρ c (Proc.devRef .tc main_arg3) := StableHlo.after_of_writes_sub hostOps3 _ hostOps3_writes (by decide)
    _ = M4 m ρ c (Proc.devRef .tc main_arg3) := M5_off m ρ c main_arg3 (by decide)
    _ = M3 m ρ c (Proc.devRef .tc main_arg3) := StableHlo.after_of_writes_sub hostOps2 _ hostOps2_writes (by decide)
    _ = M2 m ρ c (Proc.devRef .tc main_arg3) := M3_off m ρ c main_arg3 (by decide)
    _ = M1 m ρ c (Proc.devRef .tc main_arg3) := StableHlo.after_of_writes_sub hostOps1 _ hostOps1_writes (by decide)
    _ = M0 m ρ c (Proc.devRef .tc main_arg3) := M1_input m ρ c 3 rfl
    _ = m ((c : Thread nD τ).loc main_arg3) := rfl

theorem Wlast_arg4 (c : Dev nD) : Wlast m ρ c (Proc.devRef .tc main_arg4) = m ((c : Thread nD τ).loc main_arg4) :=
  calc Wlast m ρ c (Proc.devRef .tc main_arg4)
    _ = M5 m ρ c (Proc.devRef .tc main_arg4) := StableHlo.after_of_writes_sub hostOps3 _ hostOps3_writes (by decide)
    _ = M4 m ρ c (Proc.devRef .tc main_arg4) := M5_input m ρ c 1 rfl
    _ = M3 m ρ c (Proc.devRef .tc main_arg4) := StableHlo.after_of_writes_sub hostOps2 _ hostOps2_writes (by decide)
    _ = M2 m ρ c (Proc.devRef .tc main_arg4) := M3_off m ρ c main_arg4 (by decide)
    _ = M1 m ρ c (Proc.devRef .tc main_arg4) := StableHlo.after_of_writes_sub hostOps1 _ hostOps1_writes (by decide)
    _ = M0 m ρ c (Proc.devRef .tc main_arg4) := M1_off m ρ c main_arg4 (by decide)
    _ = m ((c : Thread nD τ).loc main_arg4) := rfl

/-! ## Proof data, and what a core holds between pieces -/

/-- The three pipelines' proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c

/-- No core waits on another: no level is assigned anywhere. -/
abbrev noLvl : GSem nD τ sig → Finset Unit := fun _ => ∅
abbrev lvl0 : GSem nD τ sig → Unit → ℕ := fun _ _ => 0

/-- Beside its buffers a core carries its generator register at some state and a debt of nothing. -/
abbrev carried (c : Dev nD) : sProp 𝕄 :=
  iprop((∃ r, prngReg c r) ∗ ∃ W, owes (c : Thread nD τ) (0 : CellTallies nD τ sig Unit) W)

/-- What a core holds at a boundary with contents `W`: every unscoped buffer whole at `W`, and `carried`. -/
abbrev atBoundary (W : Dev nD → Valuation τ sig (Elt F)) (c : Dev nD) : sProp 𝕄 :=
  iprop(StableHlo.held (c : Thread nD τ) (Pipeline.ucRefs τ sig) (W c) ∗ carried c)

/-- An unscoped reference of the core is one of the buffers held at a boundary. -/
theorem unscoped_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The host pieces -/

/-- A row of host operations as a segment: from the boundary `W` to `W` with the operations applied, `carried`
    untouched. The operations touch unscoped buffers of the core only and allocate nothing. -/
abbrev hostPiece (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLvl lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

/-! ## The regions -/

-- the library's entry and exit lemmas are stated over a pinned configuration; matching them against pipeline 0's
-- needs unification to unfold definitions inside a metavariable's type
set_option backward.isDefEq.respectTransparency.types false in
/-- Region 0 as a segment from `M0` to `M1`. Entry: the unscoped buffers split into the windows' arrays and the
    rest; the register goes into the invariant, the rest goes round the region. Exit: the arrays, now at what the
    pipeline left, and the rest make up the unscoped buffers at `M1`, which agrees with `M0` off the arrays.
    The kernel has no semaphore of its own and owes nothing. -/
def piece0 : Pipeline.RegionSeg (pcfgs (F := F)) adm (pdats m ρ) () defs₀ Variants.none noLvl lvl0 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ noLvl lvl0 0 fun _ _ => rfl
  pre := atBoundary (M0 m ρ)
  post := atBoundary (M1 m ρ)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    have split := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at split
    rw [Pipeline.ownSems0_none]
    iintro ⟨⟨Bufs, Reg, Debt⟩, -, -⟩
    ihave Parts := split $$ Bufs
    icases Parts with ⟨Arr, Rest⟩
    imodintro
    isplitl [Arr]; · iexact Arr
    isplitr
    · -- there is no prefetched table: an empty conjunction
      unfold Pipeline.prefHeld
      rw [show (Finset.univ : Finset (Fin 0)) = ∅ from rfl, BI.bigSep_empty]; iempintro
    isplitl [Debt]
    · -- a debt of nothing lies within any bound
      unfold Pipeline.Dat.owesAt Pipeline.owesWithin
      icases Debt with ⟨%W, Debt⟩
      iexists W; isplitr
      · ipureintro; exact fun _ _ => Or.inl trivial
      · iexact Debt
    isplitl [Reg]; · iexact Reg
    iexact Rest
  hin c := by
    -- the invariant at the first point is the scoped rest beside the register
    rw [show (pdats m ρ 0 c).Φ 0 = Pipeline.ΦA spec0 c from rfl]; unfold Pipeline.ΦA
    iintro ⟨Reg, -, Scoped⟩
    isplitl [Scoped]; · iexact Scoped
    iexact Reg
  hout c := by
    rw [Pipeline.ownSems0_none]
    rw [show (pdats m ρ 0 c).Φ (Fin.last _) = Pipeline.ΦA spec0 c from rfl]; unfold Pipeline.ΦA
    iintro ⟨Scoped, Reg⟩
    isplitl [Reg]; · iexact Reg
    isplitr; · iempintro
    iexact Scoped
  hexit c := by
    have join := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (M1tc m ρ c) ((pdats m ρ 0 c).arrAt · cfg0.N)
      (fun w => (M1_arr m ρ c w).symm)
      (fun b hb => M1_off m ρ c b fun w e => hb (Finset.mem_image.mpr ⟨w, Finset.mem_univ _, e⟩))
    rw [Pipeline.unscopedBufs_held] at join
    iintro ⟨Arr, Debt, Reg, Rest⟩
    imodintro
    isplitl [Arr Rest]
    · iapply join; isplitl [Arr] <;> iassumption
    isplitl [Reg]; · iexact Reg
    unfold Pipeline.Dat.owesAt Pipeline.owesWithin
    icases Debt with ⟨%W, -, Debt⟩
    iexists W; iexact Debt

-- the library's entry and exit lemmas are stated over a pinned configuration; matching them against pipeline 1's
-- needs unification to unfold definitions inside a metavariable's type
set_option backward.isDefEq.respectTransparency.types false in
/-- Region 1 as a segment from `M2` to `M3`. Entry: the unscoped buffers split into the windows' arrays and the
    rest; the register goes into the invariant, the rest goes round the region. Exit: the arrays, now at what the
    pipeline left, and the rest make up the unscoped buffers at `M3`, which agrees with `M2` off the arrays.
    The kernel has no semaphore of its own and owes nothing. -/
def piece1 : Pipeline.RegionSeg (pcfgs (F := F)) adm (pdats m ρ) () defs₀ Variants.none noLvl lvl0 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ noLvl lvl0 1 fun _ _ => rfl
  pre := atBoundary (M2 m ρ)
  post := atBoundary (M3 m ρ)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    have split := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at split
    rw [Pipeline.ownSems0_none]
    iintro ⟨⟨Bufs, Reg, Debt⟩, -, -⟩
    ihave Parts := split $$ Bufs
    icases Parts with ⟨Arr, Rest⟩
    imodintro
    isplitl [Arr]; · iexact Arr
    isplitr
    · -- there is no prefetched table: an empty conjunction
      unfold Pipeline.prefHeld
      rw [show (Finset.univ : Finset (Fin 0)) = ∅ from rfl, BI.bigSep_empty]; iempintro
    isplitl [Debt]
    · -- a debt of nothing lies within any bound
      unfold Pipeline.Dat.owesAt Pipeline.owesWithin
      icases Debt with ⟨%W, Debt⟩
      iexists W; isplitr
      · ipureintro; exact fun _ _ => Or.inl trivial
      · iexact Debt
    isplitl [Reg]; · iexact Reg
    iexact Rest
  hin c := by
    -- the scoped rest beside the register is the plain invariant, which region 1's own starts from
    refine .trans ?_ (hin1 (E1 m ρ) c)
    unfold Pipeline.ΦA
    iintro ⟨Reg, -, Scoped⟩
    isplitl [Scoped]; · iexact Scoped
    iexact Reg
  hout c := by
    rw [Pipeline.ownSems0_none]
    -- region 1's invariant after the last point gives the plain one back
    refine (hout1 (E1 m ρ) c).trans ?_
    unfold Pipeline.ΦA
    iintro ⟨Scoped, Reg⟩
    isplitl [Reg]; · iexact Reg
    isplitr; · iempintro
    iexact Scoped
  hexit c := by
    have join := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (M3tc m ρ c) ((pdats m ρ 1 c).arrAt · cfg1.N)
      (fun w => (M3_arr m ρ c w).symm)
      (fun b hb => M3_off m ρ c b fun w e => hb (Finset.mem_image.mpr ⟨w, Finset.mem_univ _, e⟩))
    rw [Pipeline.unscopedBufs_held] at join
    iintro ⟨Arr, Debt, Reg, Rest⟩
    imodintro
    isplitl [Arr Rest]
    · iapply join; isplitl [Arr] <;> iassumption
    isplitl [Reg]; · iexact Reg
    unfold Pipeline.Dat.owesAt Pipeline.owesWithin
    icases Debt with ⟨%W, -, Debt⟩
    iexists W; iexact Debt

-- the library's entry and exit lemmas are stated over a pinned configuration; matching them against pipeline 2's
-- needs unification to unfold definitions inside a metavariable's type
set_option backward.isDefEq.respectTransparency.types false in
/-- Region 2 as a segment from `M4` to `M5`. Entry: the unscoped buffers split into the windows' arrays and the
    rest; the register goes into the invariant, the rest goes round the region. Exit: the arrays, now at what the
    pipeline left, and the rest make up the unscoped buffers at `M5`, which agrees with `M4` off the arrays.
    The kernel has no semaphore of its own and owes nothing. -/
def piece2 : Pipeline.RegionSeg (pcfgs (F := F)) adm (pdats m ρ) () defs₀ Variants.none noLvl lvl0 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ noLvl lvl0 2 fun _ _ => rfl
  pre := atBoundary (M4 m ρ)
  post := atBoundary (M5 m ρ)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    have split := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at split
    rw [Pipeline.ownSems0_none]
    iintro ⟨⟨Bufs, Reg, Debt⟩, -, -⟩
    ihave Parts := split $$ Bufs
    icases Parts with ⟨Arr, Rest⟩
    imodintro
    isplitl [Arr]; · iexact Arr
    isplitr
    · -- there is no prefetched table: an empty conjunction
      unfold Pipeline.prefHeld
      rw [show (Finset.univ : Finset (Fin 0)) = ∅ from rfl, BI.bigSep_empty]; iempintro
    isplitl [Debt]
    · -- a debt of nothing lies within any bound
      unfold Pipeline.Dat.owesAt Pipeline.owesWithin
      icases Debt with ⟨%W, Debt⟩
      iexists W; isplitr
      · ipureintro; exact fun _ _ => Or.inl trivial
      · iexact Debt
    isplitl [Reg]; · iexact Reg
    iexact Rest
  hin c := by
    -- the invariant at the first point is the scoped rest beside the register
    rw [show (pdats m ρ 2 c).Φ 0 = Pipeline.ΦA spec2 c from rfl]; unfold Pipeline.ΦA
    iintro ⟨Reg, -, Scoped⟩
    isplitl [Scoped]; · iexact Scoped
    iexact Reg
  hout c := by
    rw [Pipeline.ownSems0_none]
    rw [show (pdats m ρ 2 c).Φ (Fin.last _) = Pipeline.ΦA spec2 c from rfl]; unfold Pipeline.ΦA
    iintro ⟨Scoped, Reg⟩
    isplitl [Reg]; · iexact Reg
    isplitr; · iempintro
    iexact Scoped
  hexit c := by
    have join := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (M5tc m ρ c) ((pdats m ρ 2 c).arrAt · cfg2.N)
      (fun w => (M5_arr m ρ c w).symm)
      (fun b hb => M5_off m ρ c b fun w e => hb (Finset.mem_image.mpr ⟨w, Finset.mem_univ _, e⟩))
    rw [Pipeline.unscopedBufs_held] at join
    iintro ⟨Arr, Debt, Reg, Rest⟩
    imodintro
    isplitl [Arr Rest]
    · iapply join; isplitl [Arr] <;> iassumption
    isplitl [Reg]; · iexact Reg
    unfold Pipeline.Dat.owesAt Pipeline.owesWithin
    icases Debt with ⟨%W, -, Debt⟩
    iexists W; iexact Debt

/-! ## @main as the six pieces, and the launch -/

/-- The six pieces in @main's order, each entered from the boundary the one before it is left at. -/
abbrev pieces : List (Pipeline.Seg (pcfgs (F := F)) adm (pdats m ρ) () defs₀ Variants.none noLvl lvl0) :=
  [ .region (piece0 m ρ),
    .host (hostPiece hostOps1 hostOps1_sub hostOps1_fresh (M1 m ρ)),
    .region (piece1 m ρ),
    .host (hostPiece hostOps2 hostOps2_sub hostOps2_fresh (M3 m ρ)),
    .region (piece2 m ρ),
    .host (hostPiece hostOps3 hostOps3_sub hostOps3_fresh (M5 m ρ)) ]

/-- @main is the run of the six pieces: its printed sequence of calls and host operations, regrouped. -/
theorem main_is_pieces (c : Dev nD) : main (F := F) c = Pipeline.Seg.run (pieces m ρ) :=
  main_segs adm (pdats m ρ) () Variants.none noLvl lvl0 _ _ _ (piece0 m ρ) (piece1 m ρ) (piece2 m ρ) rfl rfl rfl c

/-- What a core holds at the return, without the debt: every unscoped buffer at `Wlast`, the register at some state. -/
abbrev atReturn (c : Dev nD) : sProp 𝕄 :=
  iprop(StableHlo.held (c : Thread nD τ) (Pipeline.ucRefs τ sig) (Wlast m ρ c) ∗ ∃ r, prngReg c r)

-- the launch rule's implicit arguments are found by unifying its conclusion with the statement, which needs
-- unification to unfold definitions inside a metavariable's type
set_option backward.isDefEq.respectTransparency.types false in
/-- From any memory `m` with all counters at zero and any generator states, every weakly fair execution of @main on
    the cores terminates without fault, and in every final state each unscoped buffer of each core holds `Wlast`.
    The launch deals each core its unscoped buffers at `m`, its register and a debt of nothing: the state the first
    piece is entered from. The pieces chain boundary to boundary. What the last piece leaves, read against the final
    state, says the memory agrees with `Wlast` on every buffer held. -/
theorem run_all : θ_run defs (onTc (τ := τ) (main (F := F))) ⟨m, fun _ => 0, ρ⟩
    (fun r => ∀ c : Dev nD, ∀ b ∈ Pipeline.ucRefs τ sig, r.2.mem ((c : Thread nD τ).1, b) = Wlast m ρ c b) :=
  Pipeline.θ_run_regions_kit (pcfgs (F := F)) adm (pdats m ρ) () cellOf_inj emb₁ defs₀ Variants.none noLvl lvl0 m ρ main (pieces m ρ)
    (fun c Q => by rw [main_is_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the library's own; no ghost resource is asked for
      iintro Own; imodintro
      isplitl [Own]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Own
      iapply (show (BI.emp : sProp 𝕄) ⊢ bigSep Finset.univ (fun _ : Dev nD => (BI.emp : sProp 𝕄)) from by rw [BI.bigSep_emp_const])
      iempintro)
    (T₀ := atBoundary (M0 m ρ)) (Tₙ := atReturn m ρ)
    (hch := ⟨fun _ => .rfl, fun _ => .rfl, fun _ => .rfl, fun _ => .rfl, fun _ => .rfl, fun _ => .rfl, fun c => by
      -- the last piece leaves the buffers beside (register, debt): regroup as (buffers, register) beside the debt
      show atBoundary (Wlast m ρ) c ⊢ iprop(atReturn m ρ c ∗ ∃ W, owes (c : Thread nD τ) (0 : CellTallies nD τ sig Unit) W)
      iintro ⟨Bufs, Reg, Debt⟩
      isplitl [Bufs Reg]
      · isplitl [Bufs]; · iexact Bufs
        iexact Reg
      iexact Debt⟩)
    (hinit := by
      refine Pipeline.initEach noLvl lvl0 fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Bufs, -, Debt, -, Reg, -⟩, -⟩
      imodintro
      isplitl [Bufs]; · iexact Bufs
      isplitl [Reg]; · iexists _; iexact Reg
      iexists ∅; iexact Debt)
    (QY := fun c s => ∀ b ∈ Pipeline.ucRefs τ sig, s.mem (((c : Thread nD τ)).1, b) = Wlast m ρ c b)
    (hfin := fun c s' => by
      iintro ⟨⟨Bufs, -⟩, State⟩
      unfold StableHlo.held
      imodintro
      iapply (pointsTo_read_all (Pipeline.ucRefs τ sig) (fun b => (((c : Thread nD τ)).1, b)) (Wlast m ρ c) s')
      isplitl [Bufs] <;> iassumption)
    (hQ := fun _ h => h)

/-- The five argument arrays end as launched: each is an unscoped buffer, so the final memory has it at `Wlast`,
    which at an argument is the launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (unscoped_mem main_arg0 (by decide))).trans (Wlast_arg0 m ρ c),
     (h c _ (unscoped_mem main_arg1 (by decide))).trans (Wlast_arg1 m ρ c),
     (h c _ (unscoped_mem main_arg2 (by decide))).trans (Wlast_arg2 m ρ c),
     (h c _ (unscoped_mem main_arg3 (by decide))).trans (Wlast_arg3 m ρ c),
     (h c _ (unscoped_mem main_arg4 (by decide))).trans (Wlast_arg4 m ρ c)⟩) (run_all m ρ)

/-! ## The result buffer at the return -/

/-- The result buffer at the return is the last reshape of region 2's output array as that region leaves it, and
    that array holds what the pipeline's write-backs of the output window add up to after the last point. -/
theorem Wlast_result (c : Dev nD) : Wlast m ρ c (Proc.devRef .tc main_v9)
    = fun i => shapeCast S2x2048x1024 (M5 m ρ c (Proc.devRef .tc main_v8)) shapeCasts_S4096x1024_S2x2048x1024 i :=
  by
  show (StableHlo.reshape main_v8 main_v9 rfl shapeCasts_S4096x1024_S2x2048x1024 : HloOp τ sig (Elt F)).result (M5 m ρ c)
      (Proc.devRef .tc main_v9) = _
  rw [StableHlo.reshape_result]
  rfl
theorem M5_result (c : Dev nD) : M5 m ρ c (Proc.devRef .tc main_v8) = (dat2 (E2 m ρ) c).arrAt 2 cfg2.N :=
  M5_arr m ρ c 2

end Cert.KernelIdeal.Hand

end
-- ==== Proof.LibIsReal.lean ====
/-
  Extended reals that are real numbers.

  A float input that is finite denotes, at the ideal instance, an extended real that is neither infinity: a real
  number. Sums, differences, products and maxima of real numbers are real, and so is a quotient by a nonzero real;
  the laws of arithmetic that fail at the infinities (distributivity, cancellation) hold on such values.
-/
import Idealize.ShloMosaic.PureOps.Ideal

noncomputable section

namespace Cert.Reals

open Idealize.ShloMosaic

/-- `x` is a real number: not an infinity. -/
def IsReal (x : EReal) : Prop := ∃ a : ℝ, x = (a : EReal)

theorem isReal_coe (a : ℝ) : IsReal (a : EReal) := ⟨a, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (by exact_mod_cast h)⟩
  · exact ⟨a, max_eq_left (by exact_mod_cast h)⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real number by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The quotient of a real number by an extended real that is at least one is a real number: the divisor is a
    nonzero real, or `+∞`, whose inverse is zero. -/
theorem IsReal.div_of_one_le {x y : EReal} (hx : IsReal x) (hy : 1 ≤ y) : IsReal (Ideal.div x y) := by
  obtain ⟨a, rfl⟩ := hx
  induction y using EReal.rec with
  | bot => exact absurd (le_bot_iff.mp hy) (by rw [← EReal.coe_one]; exact EReal.coe_ne_bot 1)
  | top => exact ⟨0, by simp [Ideal.div]⟩
  | coe b =>
    have hb : (1 : ℝ) ≤ b := by exact_mod_cast hy
    exact (isReal_coe a).div_coe (by linarith : b ≠ 0)

end Cert.Reals

end
-- ==== Proof.LibScaleSum.lean ====
/- Normalising a weighted sum on the extended reals, for any number of terms: for real weights a_m whose total d = Σ a_m is
   not zero and real summands x_m, dividing the weighted sum by the total is the sum weighted by the normalised weights,
       (Σ_m a_m · x_m) / d  =  Σ_m (a_m / d) · x_m .
   Over the reals this is distributivity of the product with 1/d over a finite sum. Both hypotheses are needed on the
   extended reals: distributivity fails at an infinity, and a quotient by zero is a signed infinity or the junk value, not
   a product with an inverse. With it, the coercion of a finite sum of reals as the sum of the coercions. Nothing here
   depends on a particular program. -/
import Idealize.ShloMosaic.PureOps.Ideal
import proofs.«133407_j369367188058_2_alg».proof.Proof.LibIsReal

noncomputable section

open scoped BigOperators

open Idealize.ShloMosaic Cert.Reals

namespace Cert.Lib.ScaleSum

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a weighted sum by the total weight is the sum weighted by the normalised weights, for real weights of
    nonzero total and real summands. -/
theorem scale_sum {K : ℕ} (a x : Fin K → EReal) (ha : ∀ m, IsReal (a m)) (hx : ∀ m, IsReal (x m)) (hd : ∑ m, a m ≠ 0) :
    Ideal.div (∑ m, a m * x m) (∑ m, a m) = ∑ m, Ideal.div (a m) (∑ m', a m') * x m := by
  choose a' ha' using ha
  choose x' hx' using hx
  obtain rfl : a = fun m => ((a' m : ℝ) : EReal) := funext ha'
  obtain rfl : x = fun m => ((x' m : ℝ) : EReal) := funext hx'
  have hs : ∑ m, ((a' m : ℝ) : EReal) = ((∑ m, a' m : ℝ) : EReal) := (coe_sum _ _).symm
  rw [hs] at hd
  have hd' : (∑ m, a' m) ≠ 0 := fun h => hd (by rw [h]; rfl)
  simp only [hs, Ideal.div_coe hd', ← EReal.coe_mul, ← coe_sum]
  rw [EReal.coe_eq_coe_iff, Finset.sum_mul]
  exact Finset.sum_congr rfl fun m _ => by ring

end Cert.Lib.ScaleSum

end
-- ==== Proof.LibSoftmaxShift.lean ====
/-
  Two normalisations of a softmax-weighted average agree, for any number of terms. Nothing here depends on a particular program.

  Fix a row of real scores e_n and real values x_n, n < K with K > 0. One side shifts every score by the constant 1:
  weights exp(e_n - 1), and it divides the weighted sum by the total weight. The other side shifts by the row's own
  maximum M (taken from the bottom element, then once more against the bottom element), normalises each weight by the
  total weight first, and then sums. Since exp(e_n - M) = exp(e_n - 1) · exp(1 - M) with exp(1 - M) a positive real,
  the common factor cancels between a weight and the total, and dividing a finite sum of reals by a nonzero real is
  termwise. Both steps need the entries to be real numbers: on the extended reals neither distributivity nor
  cancellation survives an infinity.
-/
import Idealize.ShloMosaic.PureOps.Ideal
import Mathlib.Analysis.SpecialFunctions.Exp
import Mathlib.Data.Finset.Fold
import proofs.«133407_j369367188058_2_alg».proof.Proof.LibIsReal
import proofs.«133407_j369367188058_2_alg».proof.Proof.LibScaleSum

noncomputable section

open scoped BigOperators

namespace Cert.Lib.SoftmaxShift

open Idealize.ShloMosaic Cert.Reals Cert.Lib.ScaleSum

/-- An extended real that is neither infinity is a real number. -/
theorem isReal_of_ne {y : EReal} (h1 : y ≠ ⊥) (h2 : y ≠ ⊤) : IsReal y := ⟨y.toReal, (EReal.coe_toReal h2 h1).symm⟩

/-- The exponential of a real number is a real number. -/
theorem IsReal.exp {y : EReal} (hy : IsReal y) : IsReal (Ideal.exp y) := by
  obtain ⟨a, rfl⟩ := hy; exact ⟨Real.exp a, rfl⟩

/-- The weight of score `n` under the fixed shift by one. -/
def wOne {K : ℕ} (e : Fin K → EReal) (n : Fin K) : EReal := Ideal.exp (e n - 1)

/-- The row's maximum as a reduction from the bottom element computes it, compared once more with the bottom element. -/
def rowTop {K : ℕ} (e : Fin K → EReal) : EReal := max ⊥ ((Finset.univ : Finset (Fin K)).fold max ⊥ e)

/-- The weight of score `n` under the shift by the row's maximum. -/
def wTop {K : ℕ} (e : Fin K → EReal) (n : Fin K) : EReal := Ideal.exp (e n - rowTop e)

/-- The maximum of a nonempty row of real numbers is a real number. -/
theorem isReal_rowTop {K : ℕ} (hK : 0 < K) (e : Fin K → EReal) (he : ∀ n, IsReal (e n)) : IsReal (rowTop e) := by
  unfold rowTop
  rw [max_eq_right bot_le]
  refine isReal_of_ne ?_ ?_
  · obtain ⟨a, ha⟩ := he ⟨0, hK⟩
    have h : e ⟨0, hK⟩ ≤ (Finset.univ : Finset (Fin K)).fold max ⊥ e :=
      (Finset.le_fold_max _).mpr (Or.inr ⟨⟨0, hK⟩, Finset.mem_univ _, le_rfl⟩)
    intro hb
    rw [hb, ha] at h
    exact absurd (le_bot_iff.mp h) (EReal.coe_ne_bot a)
  · refine ne_of_lt ((Finset.fold_max_lt _).mpr ⟨bot_lt_top, fun n _ => ?_⟩)
    obtain ⟨a, ha⟩ := he n
    rw [ha]; exact EReal.coe_lt_top a

/-- The two normalisations of the weighted average of a row agree, for real scores and real values. -/
theorem row_law {K : ℕ} (hK : 0 < K) (e x : Fin K → EReal) (he : ∀ n, IsReal (e n)) (hx : ∀ n, IsReal (x n)) :
    Ideal.div (∑ n, wOne e n * x n) (∑ n, wOne e n)
      = ∑ n, Ideal.div (wTop e n) (0 + ∑ n', wTop e n') * x n := by
  obtain ⟨M, hM⟩ := isReal_rowTop hK e he
  choose e' he' using he
  have hne : (Finset.univ : Finset (Fin K)).Nonempty := ⟨⟨0, hK⟩, Finset.mem_univ _⟩
  have hwOne : ∀ n, wOne e n = ((Real.exp (e' n - 1) : ℝ) : EReal) := fun n => by
    unfold wOne; rw [he' n, ← EReal.coe_one, ← EReal.coe_sub]; rfl
  have hwTop : ∀ n, wTop e n = ((Real.exp (e' n - M) : ℝ) : EReal) := fun n => by
    unfold wTop; rw [hM, he' n, ← EReal.coe_sub]; rfl
  have hA : (∑ n, Real.exp (e' n - 1)) ≠ 0 := (Finset.sum_pos (fun i _ => Real.exp_pos _) hne).ne'
  have hB : (∑ n, Real.exp (e' n - M)) ≠ 0 := (Finset.sum_pos (fun i _ => Real.exp_pos _) hne).ne'
  have hpos : ∑ m, wOne e m ≠ 0 := by
    simp only [hwOne, ← coe_sum]
    exact fun h => hA (by exact_mod_cast h)
  rw [scale_sum (wOne e) x (fun n => ⟨_, hwOne n⟩) hx hpos]
  refine Finset.sum_congr rfl fun n _ => ?_
  congr 1
  rw [zero_add]
  simp only [hwOne, hwTop, ← coe_sum]
  rw [Ideal.div_coe hA, Ideal.div_coe hB, ← EReal.coe_mul, ← EReal.coe_mul, EReal.coe_eq_coe_iff]
  have hsplit : ∀ k, Real.exp (e' k - M) = Real.exp (e' k - 1) * Real.exp (1 - M) := fun k => by
    rw [← Real.exp_add]; congr 1; ring
  have hc : Real.exp (1 - M) ≠ 0 := Real.exp_ne_zero _
  simp only [hsplit, ← Finset.sum_mul]
  field_simp

end Cert.Lib.SoftmaxShift

end
-- ==== Proof.LibOnlineDefs.lean ====
/-
  A softmax-weighted average computed in one pass over consecutive blocks of scores, and the same average computed with
  the whole row in hand: the definitions only.  Nothing here depends on a particular program.

  The blockwise form consumes a row in blocks of `B` scores and keeps a running maximum, a running total weight and
  running weighted sums; at every block the old totals are rescaled by `exp (old maximum - new maximum)`, so that all
  weights are always expressed against the current maximum.  The one-pass form shifts the scores by the row's maximum,
  normalises each weight by the total, and sums.
-/
import Idealize.ShloMosaic.PureOps.Ideal
import proofs.«133407_j369367188058_2_alg».proof.Proof.LibSoftmaxShift

noncomputable section

open scoped BigOperators

open Idealize.ShloMosaic

namespace Cert.Lib.Online

section Blocks

variable (B : ℕ)

/-- The running maximum after one more block of scores. -/
def mStep (mp : EReal) (s : Fin B → EReal) : EReal := max mp ((Finset.univ : Finset (Fin B)).fold max ⊥ s)

/-- The running total weight after one more block: the old total rescaled to the new maximum, plus the block's weights. -/
def lStep (mp lp : EReal) (s : Fin B → EReal) : EReal :=
  Ideal.exp (mp - mStep B mp s) * lp + ∑ j : Fin B, Ideal.exp (s j - mStep B mp s)

/-- A running weighted sum after one more block: the old sum rescaled, plus the block's weighted values. -/
def aStep (mp ap : EReal) (s v : Fin B → EReal) : EReal :=
  Ideal.exp (mp - mStep B mp s) * ap + ∑ j : Fin B, Ideal.exp (s j - mStep B mp s) * v j

/-- Block `k` of a sequence: its entries `k·B + j`, `j < B`. -/
def blk (e : ℕ → EReal) (k : ℕ) : Fin B → EReal := fun j => e (k * B + j.val)

/-- The running maximum after `k` blocks, from the bottom element. -/
def runM (e : ℕ → EReal) : ℕ → EReal
  | 0 => ⊥
  | k + 1 => mStep B (runM e k) (blk B e k)

/-- The running total weight after `k` blocks, from zero. -/
def runL (e : ℕ → EReal) : ℕ → EReal
  | 0 => 0
  | k + 1 => lStep B (runM B e k) (runL e k) (blk B e k)

/-- The running weighted sum of `v` after `k` blocks, from zero. -/
def runA (e v : ℕ → EReal) : ℕ → EReal
  | 0 => 0
  | k + 1 => aStep B (runM B e k) (runA e v k) (blk B e k) (blk B v k)

end Blocks

/-- The one-pass softmax-weighted average of `v` under the scores `e`: weights shifted by the row's maximum, each
    normalised by the total weight (taken from zero), then summed. -/
def attnRef {K : ℕ} (e v : Fin K → EReal) : EReal :=
  ∑ m : Fin K, Ideal.div (Cert.Lib.SoftmaxShift.wTop e m) (0 + ∑ m' : Fin K, Cert.Lib.SoftmaxShift.wTop e m') * v m

/-- A row of `K` entries continued by zeros, so that it can be cut into blocks by plain arithmetic on positions. -/
def seqOf {K : ℕ} (e : Fin K → EReal) : ℕ → EReal := fun i => if h : i < K then e ⟨i, h⟩ else 0

theorem seqOf_of_lt {K : ℕ} (e : Fin K → EReal) (i : ℕ) (h : i < K) : seqOf e i = e ⟨i, h⟩ := dif_pos h

end Cert.Lib.Online

end
-- ==== Proof.Math.Spec.lean ====
/-
  The computation as three staged functions of arrays of extended reals, index by index: a causal multi-head
  self-attention layer with 2 batches, 2048 positions, model width 1024 and 16 heads of width 64.

  * `projH z w`: the head-major projection.  At batch b, head h, position t, lane d it is the inner product of row
    (b, t) of `z` with column 64·h + d of `w`.
  * `attnH q k v`: causal softmax attention inside each (batch, head).  The score of key position j for query position
    t is the inner product of the two 64-wide rows times the scale 1/8 when j ≤ t, and the bottom element when j > t;
    the result at lane d is the softmax-weighted average of `v`'s lane d over all 2048 key positions: weights shifted
    by the row's maximum (taken from the bottom element), each weight divided by the total weight (taken from zero),
    then multiplied by the value and summed.
  * `outP c w`: the output projection.  At (b, t, e) it is the sum over k < 1024 of the context at head k / 64,
    lane k % 64, times `w` at (k, e): the heads are laid side by side along the contracted axis.

  The scale is written in the two programs in two ways: as the word of 0.125, and as one divided by the square root of
  sixty-four.  Both are the real number 1/8.
-/
import Idealize.ShloMosaic.PureOps.Ideal
import Idealize.ShloMosaic.PureOps.Ideal.Laws
import Idealize.ShloMosaic.Lib.ValueIdx
import proofs.«133407_j369367188058_2_alg».proof.Proof.LibOnlineDefs

noncomputable section

open scoped BigOperators

namespace Cert.Math

open Idealize.ShloMosaic Idealize.ShloMosaic.ValueIdx

/-- Activations: batch, position, model width. -/
abbrev SAct : Shape := ⟨3, ![2, 2048, 1024]⟩
/-- A weight matrix. -/
abbrev SWgt : Shape := ⟨2, ![1024, 1024]⟩
/-- Head-major arrays: batch, head, position, lane. -/
abbrev SHead : Shape := ⟨4, ![2, 16, 2048, 64]⟩

/-- The column of a weight matrix that feeds lane `d` of head `h`. -/
def hcol (h : Fin 16) (d : Fin 64) : Fin 1024 := ⟨64 * h.val + d.val, by omega⟩

/-- The head a column belongs to. -/
def khead (k : Fin 1024) : Fin 16 := ⟨k.val / 64, by omega⟩

/-- The lane of a column inside its head. -/
def klane (k : Fin 1024) : Fin 64 := ⟨k.val % 64, Nat.mod_lt _ (by decide)⟩

/-- The scale of the scores: the real number one eighth. -/
def scale : EReal := ((1 / 8 : ℝ) : EReal)

/-- The head-major projection at batch `b`, head `h`, position `t`, lane `d`. -/
def projAt (z : SAct.Idx → EReal) (w : SWgt.Idx → EReal) (b : Fin 2) (h : Fin 16) (t : Fin 2048) (d : Fin 64) : EReal :=
  ∑ k : Fin 1024, z (ix3 b t k) * w (ix2 k (hcol h d))

/-- The head-major projection. -/
def projH (z : SAct.Idx → EReal) (w : SWgt.Idx → EReal) : SHead.Idx → EReal :=
  fun i => projAt z w (i 0) (i 1) (i 2) (i 3)

/-- The masked, scaled score of key position `j` for query position `t` in batch `b`, head `h`. -/
def score (q k : SHead.Idx → EReal) (b : Fin 2) (h : Fin 16) (t j : Fin 2048) : EReal :=
  if j.val ≤ t.val then (∑ e : Fin 64, q (ix4 b h t e) * k (ix4 b h j e)) * scale else ⊥

/-- Causal softmax attention at batch `b`, head `h`, position `t`, lane `d`. -/
def attnAt (q k v : SHead.Idx → EReal) (b : Fin 2) (h : Fin 16) (t : Fin 2048) (d : Fin 64) : EReal :=
  Cert.Lib.Online.attnRef (K := 2048) (fun j => score q k b h t j) (fun j => v (ix4 b h j d))

/-- Causal softmax attention, head-major. -/
def attnH (q k v : SHead.Idx → EReal) : SHead.Idx → EReal :=
  fun i => attnAt q k v (i 0) (i 1) (i 2) (i 3)

/-- The output projection at batch `b`, position `t`, column `e`. -/
def outAt (c : SHead.Idx → EReal) (w : SWgt.Idx → EReal) (b : Fin 2) (t : Fin 2048) (e : Fin 1024) : EReal :=
  ∑ k : Fin 1024, c (ix4 b (khead k) t (klane k)) * w (ix2 k e)

/-- The output projection. -/
def outP (c : SHead.Idx → EReal) (w : SWgt.Idx → EReal) : SAct.Idx → EReal :=
  fun i => outAt c w (i 0) (i 1) (i 2)

/-- The whole layer. -/
def layer (z : SAct.Idx → EReal) (wq wk wv wo : SWgt.Idx → EReal) : SAct.Idx → EReal :=
  outP (attnH (projH z wq) (projH z wk) (projH z wv)) wo

theorem projH_ix (z : SAct.Idx → EReal) (w : SWgt.Idx → EReal) (b : Fin 2) (h : Fin 16) (t : Fin 2048) (d : Fin 64) :
    projH z w (ix4 b h t d) = projAt z w b h t d := rfl

theorem attnH_ix (q k v : SHead.Idx → EReal) (b : Fin 2) (h : Fin 16) (t : Fin 2048) (d : Fin 64) :
    attnH q k v (ix4 b h t d) = attnAt q k v b h t d := rfl

theorem outP_ix (c : SHead.Idx → EReal) (w : SWgt.Idx → EReal) (b : Fin 2) (t : Fin 2048) (e : Fin 1024) :
    outP c w (ix3 b t e) = outAt c w b t e := rfl

/-! ### The scale, twice -/

/-- The word of 0.125 is one eighth. -/
theorem ofBits_eighth : Ideal.ofBits .f32 0x3E000000#32 = scale := by
  simp [Ideal.ofBits, Ideal.ieee, scale, -EReal.coe_mul]
  norm_num

/-- The word of 64.0 is sixty-four. -/
theorem ofBits_sixtyfour : Ideal.ofBits .f32 0x42800000#32 = ((64 : ℝ) : EReal) := by
  simp [Ideal.ofBits, Ideal.ieee, -EReal.coe_mul]
  norm_num

/-- The word of 1.0 is one. -/
theorem ofBits_one : Ideal.ofBits .f32 0x3F800000#32 = ((1 : ℝ) : EReal) := by
  simp [Ideal.ofBits, Ideal.ieee, -EReal.coe_mul]
  norm_num

/-- One divided by the square root of sixty-four is one eighth. -/
theorem one_div_sqrt_sixtyfour :
    Ideal.div (Ideal.ofBits .f32 0x3F800000#32) (Ideal.sqrt (Ideal.ofBits .f32 0x42800000#32)) = scale := by
  rw [ofBits_one, ofBits_sixtyfour]
  have h8 : Real.sqrt 64 = 8 := by
    rw [show (64 : ℝ) = 8 ^ 2 by norm_num, Real.sqrt_sq (by norm_num)]
  have hs : Ideal.sqrt ((64 : ℝ) : EReal) = ((8 : ℝ) : EReal) := by
    show (if (64 : ℝ) < 0 then (⊥ : EReal) else (Real.sqrt 64 : EReal)) = _
    rw [if_neg (by norm_num), h8]
  rw [hs, Ideal.div_coe (by norm_num : (8 : ℝ) ≠ 0), ← EReal.coe_mul, scale]
  norm_num

end Cert.Math

end
-- ==== Proof.Math.RefProj.lean ====
/-
  The reference's layout chains, read at an index.

  Each of the three projections is a product of the activations with a weight matrix, recorded as [batch, position,
  width], recast as [batch, position, head, lane] and then turned head-major.  Following an index (b, h, t, d) of the
  head-major array back through the turn and the recast lands on row (b, t), column 64·h + d of the product: the
  head-major projection of the specification.  The output stage goes the other way: the context is turned back to
  [batch, position, head, lane], the two trailing axes are merged into one of width 1024, and the merged array is
  multiplied by the output weights; column k of the merged axis is head k / 64, lane k % 64.
-/
import proofs.«133407_j369367188058_2_alg».proof.Proof.Gen.ReferenceIdeal.Read
import proofs.«133407_j369367188058_2_alg».proof.Proof.Math.Spec

noncomputable section

open scoped BigOperators

namespace Cert.Math

open Idealize.ShloMosaic Idealize.ShloMosaic.ValueIdx
open Cert.ReferenceIdeal Cert.ReferenceIdeal.Gen Cert.ReferenceIdeal.Read

/-- Through the turn and the recast, the head-major index (b, h, t, d) reads the product at row (b, t) and column
    64·h + d, whatever column of the contraction `k` is being summed. -/
theorem lidx_headmajor (b : Fin 2) (h : Fin 16) (t : Fin 2048) (d : Fin 64) (k : Fin 1024) :
    lidx_main_v0 (idx_main_v1 (idx_main_v2 (ix4 b h t d))) k = ix3 b t k := by
  funext a
  apply Fin.ext
  have hb := b.isLt; have hh := h.isLt; have ht := t.isLt; have hd := d.isLt
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => rfl

theorem ridx_headmajor (b : Fin 2) (h : Fin 16) (t : Fin 2048) (d : Fin 64) (k : Fin 1024) :
    ridx_main_v0 (idx_main_v1 (idx_main_v2 (ix4 b h t d))) k = ix2 k (hcol h d) := by
  funext a
  apply Fin.ext
  have hb := b.isLt; have hh := h.isLt; have ht := t.isLt; have hd := d.isLt
  match a with
  | ⟨0, _⟩ => rfl
  | ⟨1, _⟩ => show (((b.val * 2048 + t.val) * 16 + h.val) * 64 + d.val) % 1024 = 64 * h.val + d.val; omega

/-- The first projection chain of the reference is the head-major projection. -/
theorem ref_proj (x0 : SAct.Idx → EReal) (x1 : SWgt.Idx → EReal) :
    val_main_v2 (F := Ideal) x0 x1 = projH x0 x1 := by
  funext i
  obtain ⟨b, h, t, d, rfl⟩ : ∃ (b : Fin 2) (h : Fin 16) (t : Fin 2048) (d : Fin 64), i = ix4 b h t d :=
    ⟨i 0, i 1, i 2, i 3, eq_ix4 i⟩
  rw [val_main_v2_apply, val_main_v1_apply, val_main_v0_apply, projH_ix]
  unfold projAt
  refine Finset.sum_congr rfl fun k _ => ?_
  rw [lidx_headmajor, ridx_headmajor]

/-- The second chain is the same operations on the second weight matrix. -/
theorem ref_proj_k (x0 : SAct.Idx → EReal) (x2 : SWgt.Idx → EReal) :
    val_main_v5 (F := Ideal) x0 x2 = projH x0 x2 := ref_proj x0 x2

/-- The third chain is the same operations on the third weight matrix. -/
theorem ref_proj_v (x0 : SAct.Idx → EReal) (x3 : SWgt.Idx → EReal) :
    val_main_v8 (F := Ideal) x0 x3 = projH x0 x3 := ref_proj x0 x3

/-- Through the merge and the turn back, column `k` of the merged context at (b, t) is the head-major context at head
    k / 64, lane k % 64. -/
theorem lidx_merged (b : Fin 2) (t : Fin 2048) (e k : Fin 1024) :
    idx_main_v30 (idx_main_v31 (lidx_main_v32 (ix3 b t e) k)) = ix4 b (khead k) t (klane k) := by
  funext a
  apply Fin.ext
  have hb := b.isLt; have ht := t.isLt; have hk := k.isLt
  match a with
  | ⟨0, _⟩ => show ((b.val * 2048 + t.val) * 1024 + k.val) / 2097152 = b.val; omega
  | ⟨1, _⟩ => show ((b.val * 2048 + t.val) * 1024 + k.val) / 64 % 16 = k.val / 64; omega
  | ⟨2, _⟩ => show ((b.val * 2048 + t.val) * 1024 + k.val) / 1024 % 2048 = t.val; omega
  | ⟨3, _⟩ => show ((b.val * 2048 + t.val) * 1024 + k.val) % 64 = k.val % 64; omega

theorem ridx_merged (b : Fin 2) (t : Fin 2048) (e k : Fin 1024) :
    ridx_main_v32 (ix3 b t e) k = ix2 k e := by
  funext a
  apply Fin.ext
  match a with
  | ⟨0, _⟩ => rfl
  | ⟨1, _⟩ => rfl

/-- The reference's last three operations are the output projection of its context. -/
theorem ref_out (x0 : SAct.Idx → EReal) (x1 x2 x3 x4 : SWgt.Idx → EReal) :
    val_main_v32 (F := Ideal) x0 x1 x2 x3 x4 = outP (val_main_v29 (F := Ideal) x0 x1 x2 x3) x4 := by
  funext i
  obtain ⟨b, t, e, rfl⟩ : ∃ (b : Fin 2) (t : Fin 2048) (e : Fin 1024), i = ix3 b t e := ⟨i 0, i 1, i 2, eq_ix3 i⟩
  rw [val_main_v32_apply, outP_ix]
  unfold outAt
  refine Finset.sum_congr rfl fun k _ => ?_
  rw [val_main_v31_apply, val_main_v30_apply, lidx_merged, ridx_merged]

end Cert.Math

end
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.Math.RefAttn.lean ====
/-
  The reference's attention stage, read at an index.

  The scores are the inner products of a query row with a key row times one over the square root of sixty-four; an
  entry whose key position lies after its query position is replaced by the bottom element (the comparison is made on
  32-bit position counters, which for positions below 2048 is the comparison of the positions); the softmax along the
  key axis subtracts the row's maximum, taken from the bottom element and compared once more with the bottom element,
  exponentiates, sums from zero, and divides each weight by the total; the context is the weighted sum of the values.
  Each step is followed at an index, and the result is the one-pass softmax-weighted average of the specification.
-/
import proofs.«133407_j369367188058_2_alg».proof.Proof.Gen.ReferenceIdeal.Read
import proofs.«133407_j369367188058_2_alg».proof.Proof.Math.Spec
import proofs.«133407_j369367188058_2_alg».proof.Proof.LibMaxFold
import Idealize.ShloMosaic.Lib.Affine

noncomputable section

open scoped BigOperators

namespace Cert.Math

open Idealize.ShloMosaic Idealize.ShloMosaic.ValueIdx
open Cert.ReferenceIdeal Cert.ReferenceIdeal.Gen Cert.ReferenceIdeal.Read

open Cert.Lib.Online Cert.Lib.SoftmaxShift

/-- A position below 2048, as a 32-bit counter read signed, is the position. -/
theorem toInt_ofNat32 (n : ℕ) (h : n < 2048) : (BitVec.ofNat 32 n).toInt = (n : ℤ) := by
  rw [BitVec.toInt_eq_toNat_cond, BitVec.toNat_ofNat, Nat.mod_eq_of_lt (by omega), if_pos (by omega)]

/-- The mask at query position `t`, key position `j`: clear when the key is not after the query, set when it is. -/
theorem mask_apply (t j : Fin 2048) :
    val_main_v15 (F := Ideal) (ix2 t j) = if j.val ≤ t.val then 0#1 else 1#1 := by
  rw [val_main_v15_apply, val_main_call0_v4_apply, val_main_call0_v2_apply, val_main_call0_v0_apply,
    val_main_call0_v3_apply, val_main_call0_v1_apply, val_main_call0_c_apply, val_main_call0_v5_apply,
    val_main_call0_c_0_apply, val_main_v14_apply, val_main_c_apply]
  show Scalar.select (IntOp.cmpi .sge (IntOp.addi (BitVec.ofNat 32 t.val) 0#32) (BitVec.ofNat 32 j.val)) (0#1) (1#1) = _
  have hc : IntOp.cmpi .sge (IntOp.addi (BitVec.ofNat 32 t.val) 0#32) (BitVec.ofNat 32 j.val) = 1#1 ↔ j.val ≤ t.val := by
    rw [IntOp.cmpi_sge, IntOp.addi, BitVec.add_zero, toInt_ofNat32 _ t.isLt, toInt_ofNat32 _ j.isLt]
    exact Int.ofNat_le
  by_cases h : j.val ≤ t.val
  · rw [if_pos h, hc.mpr h]
    rfl
  · rw [if_neg h]
    rcases BitVec.eq_zero_or_eq_one
      (IntOp.cmpi .sge (IntOp.addi (BitVec.ofNat 32 t.val) 0#32) (BitVec.ofNat 32 j.val)) with h0 | h1
    · rw [h0]
      rfl
    · exact absurd (hc.mp h1) h

/-- Selecting by a mask that is clear exactly when `p` holds takes the second alternative exactly when `p` holds. -/
theorem select_mask {α : Type} (p : Prop) [Decidable p] (a b : α) :
    Scalar.select (if p then (0#1 : BitVec 1) else 1#1) a b = if p then b else a := by
  unfold Scalar.select
  by_cases h : p
  · rw [if_pos h, if_pos h, if_neg (by decide)]
  · rw [if_neg h, if_neg h, if_pos (by decide)]

/-- The mask broadcast over batches and heads reads the same entry. -/
theorem mask_bcast (b : Fin 2) (h : Fin 16) (t j : Fin 2048) :
    val_main_call1_v1 (F := Ideal) (ix4 b h t j) = if j.val ≤ t.val then 0#1 else 1#1 := by
  rw [val_main_call1_v1_apply, val_main_v16_apply, ← mask_apply t j]
  exact congrArg _ (funext fun a => Fin.ext (by
    match a with
    | ⟨0, _⟩ => rfl
    | ⟨1, _⟩ => rfl))

/-- The reference's scale is one eighth. -/
theorem ref_scale (i : S2x16x2048x2048.Idx) : val_main_v12 (F := Ideal) i = scale := by
  rw [val_main_v12_apply, val_main_v10_apply, val_main_v9_apply, val_main_cst_apply, val_main_cst_0_apply]
  simp only [Ideal.hostDivf_def, Ideal.hostUnary_sqrt_def, Ideal.ofBits_def]
  exact one_div_sqrt_sixtyfour

/-- The masked scores of the reference are the specification's scores of its two projections. -/
theorem ref_score (x0 : SAct.Idx → EReal) (x1 x2 : SWgt.Idx → EReal) (b : Fin 2) (h : Fin 16) (t j : Fin 2048) :
    val_main_v17 (F := Ideal) x0 x1 x2 (ix4 b h t j)
      = score (val_main_v2 (F := Ideal) x0 x1) (val_main_v5 (F := Ideal) x0 x2) b h t j := by
  rw [val_main_v17_apply, mask_bcast, val_main_v13_apply, ref_scale, val_main_v11_apply]
  have hl : ∀ e : Fin 64, lidx_main_v11 (ix4 b h t j) e = ix4 b h t e := fun e => funext fun a => Fin.ext (by
    match a with
    | ⟨0, _⟩ => rfl
    | ⟨1, _⟩ => rfl
    | ⟨2, _⟩ => rfl
    | ⟨3, _⟩ => rfl)
  have hr : ∀ e : Fin 64, ridx_main_v11 (ix4 b h t j) e = ix4 b h j e := fun e => funext fun a => Fin.ext (by
    match a with
    | ⟨0, _⟩ => rfl
    | ⟨1, _⟩ => rfl
    | ⟨2, _⟩ => rfl
    | ⟨3, _⟩ => rfl)
  simp only [hl, hr, Ideal.mulf_def]
  rw [select_mask, val_main_call1_v2_apply, val_main_call1_v0_apply, val_main_cst_1_apply, Ideal.ofBits_def,
    Cert.Lib.MaxFold.ofBits_neg_inf]
  rfl

/-- The row of masked scores the softmax at (b, h, t) works on. -/
def refRow (x0 : SAct.Idx → EReal) (x1 x2 : SWgt.Idx → EReal) (b : Fin 2) (h : Fin 16) (t : Fin 2048) : Fin 2048 → EReal :=
  fun j => val_main_v17 (F := Ideal) x0 x1 x2 (ix4 b h t j)

/-- The maximum the reference subtracts is the row's maximum from the bottom element, compared once more with it. -/
theorem ref_rowmax (x0 : SAct.Idx → EReal) (x1 x2 : SWgt.Idx → EReal) (b : Fin 2) (h : Fin 16) (t : Fin 2048) :
    val_main_v20 (F := Ideal) x0 x1 x2 (ix3 b h t) = rowTop (refRow x0 x1 x2 b h t) := by
  rw [val_main_v20_apply, val_main_v19_apply, val_main_cst_3_apply]
  unfold val_main_v18 val_main_cst_2 refRow rowTop
  generalize val_main_v17 (F := Ideal) x0 x1 x2 = y
  rw [Cert.Lib.MaxFold.hostMaxRed_apply y reducesTo_S2x16x2048x2048_S2x16x2048_d3 (by decide) h_S_ (ix3 b h t)]
  simp only [Ideal.maximumf_def, Ideal.ofBits_def, Cert.Lib.MaxFold.ofBits_neg_inf]
  refine congrArg (max ⊥) (congrArg (fun f => Finset.fold max ⊥ f Finset.univ) (funext fun k => congrArg y (funext fun a => Fin.ext (by
    match a with
    | ⟨0, _⟩ => rfl
    | ⟨1, _⟩ => rfl
    | ⟨2, _⟩ => rfl
    | ⟨3, _⟩ => rfl))))

/-- A weight of the reference: the exponential of a masked score less the row's maximum. -/
theorem ref_weight (x0 : SAct.Idx → EReal) (x1 x2 : SWgt.Idx → EReal) (b : Fin 2) (h : Fin 16) (t k : Fin 2048) :
    val_main_v24 (F := Ideal) x0 x1 x2 (ix4 b h t k) = wTop (refRow x0 x1 x2 b h t) k := by
  rw [val_main_v24_apply, val_main_v23_apply, val_main_v22_apply, val_main_v21_apply]
  have hi : idx_main_v21 (idx_main_v22 (ix4 b h t k)) = ix3 b h t := funext fun a => Fin.ext (by
    match a with
    | ⟨0, _⟩ => rfl
    | ⟨1, _⟩ => rfl
    | ⟨2, _⟩ => rfl)
  rw [hi, ref_rowmax]
  simp only [Ideal.hostUnary_exp_def, Ideal.subf_def]
  rfl

/-- The total weight of the reference: from zero, the sum of the row's weights. -/
theorem ref_total (x0 : SAct.Idx → EReal) (x1 x2 : SWgt.Idx → EReal) (b : Fin 2) (h : Fin 16) (t k : Fin 2048) :
    val_main_v27 (F := Ideal) x0 x1 x2 (ix4 b h t k) = 0 + ∑ m : Fin 2048, wTop (refRow x0 x1 x2 b h t) m := by
  rw [val_main_v27_apply, val_main_v26_apply]
  have hi : idx_main_v26 (idx_main_v27 (ix4 b h t k)) = ix3 b h t := funext fun a => Fin.ext (by
    match a with
    | ⟨0, _⟩ => rfl
    | ⟨1, _⟩ => rfl
    | ⟨2, _⟩ => rfl)
  rw [hi, val_main_v25_apply, val_main_cst_4_apply, Ideal.ofBits_def, Ideal.ofBits_zero_f32]
  refine congrArg (0 + ·) (Finset.sum_congr rfl fun m _ => ?_)
  rw [← ref_weight x0 x1 x2 b h t m]
  exact congrArg _ (funext fun a => Fin.ext (by
    match a with
    | ⟨0, _⟩ => rfl
    | ⟨1, _⟩ => rfl
    | ⟨2, _⟩ => rfl
    | ⟨3, _⟩ => rfl))

/-- The reference's context is the causal softmax attention of its three projections. -/
theorem ref_attn (x0 : SAct.Idx → EReal) (x1 x2 x3 : SWgt.Idx → EReal) :
    val_main_v29 (F := Ideal) x0 x1 x2 x3
      = attnH (val_main_v2 (F := Ideal) x0 x1) (val_main_v5 (F := Ideal) x0 x2) (val_main_v8 (F := Ideal) x0 x3) := by
  funext i
  obtain ⟨b, h, t, d, rfl⟩ : ∃ (b : Fin 2) (h : Fin 16) (t : Fin 2048) (d : Fin 64), i = ix4 b h t d :=
    ⟨i 0, i 1, i 2, i 3, eq_ix4 i⟩
  rw [val_main_v29_apply, attnH_ix]
  unfold attnAt attnRef
  have hrow : (fun j => score (val_main_v2 (F := Ideal) x0 x1) (val_main_v5 (F := Ideal) x0 x2) b h t j)
      = refRow x0 x1 x2 b h t := funext fun j => (ref_score x0 x1 x2 b h t j).symm
  rw [hrow]
  refine Finset.sum_congr rfl fun m _ => ?_
  have hl : lidx_main_v29 (ix4 b h t d) m = ix4 b h t m := funext fun a => Fin.ext (by
    match a with
    | ⟨0, _⟩ => rfl
    | ⟨1, _⟩ => rfl
    | ⟨2, _⟩ => rfl
    | ⟨3, _⟩ => rfl)
  have hr : ridx_main_v29 (ix4 b h t d) m = ix4 b h m d := funext fun a => Fin.ext (by
    match a with
    | ⟨0, _⟩ => rfl
    | ⟨1, _⟩ => rfl
    | ⟨2, _⟩ => rfl
    | ⟨3, _⟩ => rfl)
  rw [hl, hr, val_main_v28_apply, ref_weight, ref_total, Ideal.hostDivf_def]

end Cert.Math

end
-- ==== Proof.Math.RefIsSpec.lean ====
/-
  The reference program computes the specification.

  Its result is the output projection of its context (the last three operations), its context is the causal softmax
  attention of its three head-major arrays (the scores, the mask, the softmax and the weighted sum), and each of those
  arrays is the head-major projection of the activations by one weight matrix (a product, a recast and a turn).
  Composed, the term the reference's run leaves in its result buffer is the layer of the five argument arrays.
-/
import proofs.«133407_j369367188058_2_alg».proof.Proof.Math.RefProj
import proofs.«133407_j369367188058_2_alg».proof.Proof.Math.RefAttn

noncomputable section

namespace Cert.Math

open Idealize.ShloMosaic Idealize.ShloMosaic.TcCoe Idealize.SL.Sem
open Cert.ReferenceIdeal Cert.ReferenceIdeal.Gen Cert.ReferenceIdeal.Read

/-- The reference's composed term is the layer of its five arguments. -/
theorem ref_is_layer (x0 : SAct.Idx → EReal) (x1 x2 x3 x4 : SWgt.Idx → EReal) :
    val_main_v32 (F := Ideal) x0 x1 x2 x3 x4 = layer x0 x1 x2 x3 x4 := by
  rw [ref_out, ref_attn, ref_proj, ref_proj_k, ref_proj_v]
  rfl

/-- The same, of the term the reference's run states for its result buffer on device `c`, from launch contents `m`. -/
theorem ref_result (m : (ℓ : Loc nD τ sig) → Buf (Elt Ideal) ℓ) (c : Dev nD) :
    Cert.ReferenceIdeal.Value.res_main_v32 (F := Ideal) m c
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v32_eq]
  exact ref_is_layer _ _ _ _ _

end Cert.Math

end
-- ==== Proof.LibAbsFinite.lean ====
/- A finiteness test read on the extended reals: the f32 word 0x7F800000 denotes +∞, and an extended real whose absolute
   value (max y (-y)) compares strictly below that word is a real number — it is neither infinity. This is the element
   fact behind a precondition of the form |y| < +∞ at every entry. Nothing here depends on a particular program. -/
import Idealize.ShloMosaic.PureOps.Ideal
import Idealize.ShloMosaic.PureOps.Ideal.Laws
import proofs.«133407_j369367188058_2_alg».proof.Proof.LibIsReal

noncomputable section

namespace Cert.Lib.AbsFinite

open Idealize.ShloMosaic Cert.Reals

/-- The float word 0x7F800000 denotes +∞. -/
theorem inf_word : Ideal.ofBits .f32 0x7F800000#32 = ⊤ := by simp [Ideal.ofBits, Ideal.ieee]

/-- An extended real whose absolute value compares below the word of +∞ is a real number. -/
theorem isReal_of_abs_lt {y : EReal} (e : Ideal.cmp .olt (max y (-y)) (Ideal.ofBits .f32 0x7F800000#32) = 1#1) : IsReal y := by
  rw [inf_word] at e
  induction y using EReal.rec with
  | bot => simp [Ideal.cmp] at e
  | top => simp [Ideal.cmp] at e
  | coe a => exact ⟨a, rfl⟩

end Cert.Lib.AbsFinite

end
-- ==== Proof.Math.Finite.lean ====
/-
  From the precondition to real entries.

  The precondition says of each of the five argument arrays that every entry's absolute value compares strictly below
  +∞, the five tests reduced by "and" over all axes and conjoined.  A conjunction of one-bit words that is one has
  every conjunct one; a reduction by "and" over all axes that is one had a one at every entry; and an extended real
  whose absolute value compares below +∞ is neither infinity: a real number.  So under the precondition every entry
  of every argument array is a real number.
-/
import proofs.«133407_j369367188058_2_alg».proof.Defs
import proofs.«133407_j369367188058_2_alg».proof.Proof.Gen.Pre_finite_inputs
import proofs.«133407_j369367188058_2_alg».proof.Proof.LibAbsFinite
import Idealize.ShloMosaic.Lib.ReduceAll
import Idealize.ShloMosaic.Lib.ValueIdx

noncomputable section

namespace Cert.Math

open Idealize.ShloMosaic Idealize.ShloMosaic.ValueIdx Idealize.ShloMosaic.TcCoe Idealize.SL.Sem Cert.Reals

/-- The shape with no axes has one index. -/
local instance : Subsingleton Cert.Pre_finite_inputs.S_.Idx := ⟨fun a b => funext fun d => d.elim0⟩

/-- One test of the precondition: if "every entry's absolute value is below +∞", reduced by "and" over all axes, is
    one, then every entry is a real number. -/
theorem real_of_all_lt {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1)
    (i : s.Idx) : IsReal (x i) :=
  Cert.Lib.AbsFinite.isReal_of_abs_lt (Host.reduce_andi_all _ _ hr hu ix0 e i)

/-- The printed predicate, all ones, makes every entry of its five arguments a real number. -/
theorem fn_real [Cert.Pre_finite_inputs.Facts] (a0 : FVec Ideal Cert.Pre_finite_inputs.S2x2048x1024 .f32)
    (a1 a2 a3 a4 : FVec Ideal Cert.Pre_finite_inputs.S1024x1024 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ix0
  dsimp only [Cert.Pre_finite_inputs.fn, Cert.Pre_finite_inputs.fn_part1, Idealize.ShloMosaic.andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all_lt a0 _ _ _ e0, real_of_all_lt a1 _ _ _ e1, real_of_all_lt a2 _ _ _ e2,
    real_of_all_lt a3 _ _ _ e3, real_of_all_lt a4 _ _ _ e4⟩

/-- Under the idealized kernel's precondition every entry of its five argument arrays, on every device, is a real
    number. -/
theorem inputs_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S2x2048x1024.Idx,
        IsReal ((m ((c.tc : Thread Cert.KernelIdeal.nD Cert.KernelIdeal.τ).loc Cert.KernelIdeal.main_arg0)
          : Cert.KernelIdeal.S2x2048x1024.Idx → EReal) i))
    ∧ (∀ i : Cert.KernelIdeal.S1024x1024.Idx,
        IsReal ((m ((c.tc : Thread Cert.KernelIdeal.nD Cert.KernelIdeal.τ).loc Cert.KernelIdeal.main_arg1)
          : Cert.KernelIdeal.S1024x1024.Idx → EReal) i))
    ∧ (∀ i : Cert.KernelIdeal.S1024x1024.Idx,
        IsReal ((m ((c.tc : Thread Cert.KernelIdeal.nD Cert.KernelIdeal.τ).loc Cert.KernelIdeal.main_arg2)
          : Cert.KernelIdeal.S1024x1024.Idx → EReal) i))
    ∧ (∀ i : Cert.KernelIdeal.S1024x1024.Idx,
        IsReal ((m ((c.tc : Thread Cert.KernelIdeal.nD Cert.KernelIdeal.τ).loc Cert.KernelIdeal.main_arg3)
          : Cert.KernelIdeal.S1024x1024.Idx → EReal) i))
    ∧ (∀ i : Cert.KernelIdeal.S1024x1024.Idx,
        IsReal ((m ((c.tc : Thread Cert.KernelIdeal.nD Cert.KernelIdeal.τ).loc Cert.KernelIdeal.main_arg4)
          : Cert.KernelIdeal.S1024x1024.Idx → EReal) i)) :=
  fn_real _ _ _ _ _ (h c)

end Cert.Math

end
-- ==== Proof.Math.Reals.lean ====
/-
  Real entries stay real through the projections and the scores.

  A finite float denotes a real number.  A head-major projection of arrays of real numbers has real entries: each is a
  finite sum of products of reals.  A score whose key position is not after its query position is a real number (a
  finite sum of products of reals times one eighth); a score whose key position is after its query position is the
  bottom element.  So every score is a real number or masked, the first score of every row is a real number, and every
  score past the query position is masked: what a blockwise evaluation of the softmax-weighted average needs to know
  of a row.
-/
import proofs.«133407_j369367188058_2_alg».proof.Proof.Math.Spec
import proofs.«133407_j369367188058_2_alg».proof.Proof.LibIsReal

noncomputable section

open scoped BigOperators

namespace Cert.Math

open Idealize.ShloMosaic Idealize.ShloMosaic.ValueIdx Cert.Reals

/-- One eighth is a real number. -/
theorem isReal_scale : IsReal scale := ⟨1 / 8, rfl⟩

/-- A head-major projection of real arrays is real, entry by entry. -/
theorem projAt_real {z : SAct.Idx → EReal} {w : SWgt.Idx → EReal} (hz : ∀ i, IsReal (z i)) (hw : ∀ i, IsReal (w i))
    (b : Fin 2) (h : Fin 16) (t : Fin 2048) (d : Fin 64) : IsReal (projAt z w b h t d) :=
  isReal_sum _ _ fun k _ => (hz _).mul (hw _)

theorem projH_real {z : SAct.Idx → EReal} {w : SWgt.Idx → EReal} (hz : ∀ i, IsReal (z i)) (hw : ∀ i, IsReal (w i))
    (i : SHead.Idx) : IsReal (projH z w i) :=
  projAt_real hz hw (i 0) (i 1) (i 2) (i 3)

/-- A score whose key position is not after the query position is the scaled inner product. -/
theorem score_of_le (q k : SHead.Idx → EReal) (b : Fin 2) (h : Fin 16) {t j : Fin 2048} (hjt : j.val ≤ t.val) :
    score q k b h t j = (∑ e : Fin 64, q (ix4 b h t e) * k (ix4 b h j e)) * scale := if_pos hjt

/-- A score whose key position is after the query position is masked. -/
theorem score_of_lt (q k : SHead.Idx → EReal) (b : Fin 2) (h : Fin 16) {t j : Fin 2048} (htj : t.val < j.val) :
    score q k b h t j = ⊥ := if_neg (by omega)

/-- An unmasked score of real arrays is a real number. -/
theorem score_real_of_le {q k : SHead.Idx → EReal} (hq : ∀ i, IsReal (q i)) (hk : ∀ i, IsReal (k i))
    (b : Fin 2) (h : Fin 16) {t j : Fin 2048} (hjt : j.val ≤ t.val) : IsReal (score q k b h t j) := by
  rw [score_of_le q k b h hjt]
  exact (isReal_sum _ _ fun e _ => (hq _).mul (hk _)).mul isReal_scale

/-- Every score of real arrays is masked or a real number. -/
theorem score_bot_or_real {q k : SHead.Idx → EReal} (hq : ∀ i, IsReal (q i)) (hk : ∀ i, IsReal (k i))
    (b : Fin 2) (h : Fin 16) (t j : Fin 2048) : score q k b h t j = ⊥ ∨ IsReal (score q k b h t j) := by
  by_cases hjt : j.val ≤ t.val
  · exact Or.inr (score_real_of_le hq hk b h hjt)
  · exact Or.inl (score_of_lt q k b h (by omega))

/-- The first score of every row of real arrays is a real number: position zero is after no position. -/
theorem score_first_real {q k : SHead.Idx → EReal} (hq : ∀ i, IsReal (q i)) (hk : ∀ i, IsReal (k i))
    (b : Fin 2) (h : Fin 16) (t : Fin 2048) (h0 : 0 < 2048) : IsReal (score q k b h t ⟨0, h0⟩) :=
  score_real_of_le hq hk b h (Nat.zero_le _)

/-- Past any bound that exceeds the query position every score is masked. -/
theorem score_masked_from (q k : SHead.Idx → EReal) (b : Fin 2) (h : Fin 16) (t : Fin 2048) (n : ℕ) (hn : t.val < n)
    (j : Fin 2048) (hj : n ≤ j.val) : score q k b h t j = ⊥ :=
  score_of_lt q k b h (by omega)

end Cert.Math

end
-- ==== Proof.LibMergeLead.lean ====
/- Two leading axes merged into one, or one leading axis split in two, by a shape cast, read at coordinates: for any
   element type and any extents.  A [a, b, c, e] array cast to [G, c, e] reads, at (g, p, q) with g = i·b + j, the
   operand at (i, j, p, q); a [G, c, e] array cast to [a, b, c, e] reads, at (i, j, p, q), the operand at (g, p, q).
   Both have the same row-major position on the two sides.  Nothing here depends on a particular program. -/
import Idealize.ShloMosaic.Lib.Pipeline.Value
import Idealize.ShloMosaic.Lib.ValueIdx

noncomputable section

open Idealize.ShloMosaic Idealize.ShloMosaic.ValueIdx

namespace Cert.Lib.MergeLead

variable {α : Type} {a b c e G : ℕ}

/-- Merging the two leading axes: at (g, p, q) with g = i·b + j, the operand at (i, j, p, q). -/
theorem shapeCast_merge_apply (x : (⟨4, ![a, b, c, e]⟩ : Shape).Idx → α)
    (h : (⟨4, ![a, b, c, e]⟩ : Shape).ShapeCasts ⟨3, ![G, c, e]⟩) (i : Fin a) (j : Fin b) (p : Fin c) (q : Fin e)
    (g : Fin G) (hg : g.val = i.val * b + j.val) :
    shapeCast ⟨3, ![G, c, e]⟩ x h (ix3 g p q) = x (ix4 i j p q) :=
  shapeCast_apply x h _ _ (by
    rw [Shape.rowMajor_val_four, Shape.rowMajor_val_three]
    show ((i.val * b + j.val) * c + p.val) * e + q.val = (g.val * c + p.val) * e + q.val
    rw [hg])

/-- Splitting the leading axis in two: at (i, j, p, q), the operand at (g, p, q) with g = i·b + j. -/
theorem shapeCast_split_apply (y : (⟨3, ![G, c, e]⟩ : Shape).Idx → α)
    (h : (⟨3, ![G, c, e]⟩ : Shape).ShapeCasts ⟨4, ![a, b, c, e]⟩) (i : Fin a) (j : Fin b) (p : Fin c) (q : Fin e)
    (g : Fin G) (hg : g.val = i.val * b + j.val) :
    shapeCast ⟨4, ![a, b, c, e]⟩ y h (ix4 i j p q) = y (ix3 g p q) :=
  shapeCast_apply y h _ _ (by
    rw [Shape.rowMajor_val_four, Shape.rowMajor_val_three]
    show (g.val * c + p.val) * e + q.val = ((i.val * b + j.val) * c + p.val) * e + q.val
    rw [hg])

end Cert.Lib.MergeLead

end
-- ==== Proof.Math.HostReads.lean ====
/-
  The layout plumbing between the three kernel calls, read at coordinates. Heads are merged with the batch
  (g = 16·b + h) before the attention call and split again after it; the context is then moved from head-major
  (b, h, t, d) to token-major rows (2048·b + t) with columns (64·h + d); the last call's rows are unflattened to
  (b, t). Each is a change of shape or a swap of two axes: the element at one set of coordinates is the operand's at
  the matching coordinates. Any element type.
-/
import Idealize.ShloMosaic.Lib.Pipeline.Value
import Idealize.ShloMosaic.Lib.ValueIdx
import proofs.«133407_j369367188058_2_alg».proof.Proof.LibMergeLead

noncomputable section

open Idealize.ShloMosaic Idealize.ShloMosaic.ValueIdx

namespace Cert.Math.Host

variable {α : Type}

abbrev SHd : Shape := ⟨4, ![2, 16, 2048, 64]⟩
abbrev SMg : Shape := ⟨3, ![32, 2048, 64]⟩
abbrev STk : Shape := ⟨4, ![2, 2048, 16, 64]⟩
abbrev SFl : Shape := ⟨2, ![4096, 1024]⟩
abbrev SAc : Shape := ⟨3, ![2, 2048, 1024]⟩

/-- Batch b and head h as one leading index. -/
def bh (b : Fin 2) (h : Fin 16) : Fin 32 := ⟨b.val * 16 + h.val, by omega⟩
/-- Batch b and token t as one row. -/
def bt (b : Fin 2) (t : Fin 2048) : Fin 4096 := ⟨b.val * 2048 + t.val, by omega⟩
/-- Head h and lane d as one column. -/
def hd (h : Fin 16) (d : Fin 64) : Fin 1024 := ⟨64 * h.val + d.val, by omega⟩

/-- Heads merged with the batch: at (16·b + h, t, e), the operand at (b, h, t, e). -/
theorem merge_apply (x : SHd.Idx → α) (hc : SHd.ShapeCasts SMg) (b : Fin 2) (h : Fin 16) (t : Fin 2048) (e : Fin 64) :
    shapeCast SMg x hc (ix3 (bh b h) t e) = x (ix4 b h t e) :=
  Cert.Lib.MergeLead.shapeCast_merge_apply (a := 2) (b := 16) (c := 2048) (e := 64) (G := 32) x hc b h t e (bh b h) rfl

/-- Split again: at (b, h, t, e), the operand at (16·b + h, t, e). -/
theorem split_apply (y : SMg.Idx → α) (hc : SMg.ShapeCasts SHd) (b : Fin 2) (h : Fin 16) (t : Fin 2048) (e : Fin 64) :
    shapeCast SHd y hc (ix4 b h t e) = y (ix3 (bh b h) t e) :=
  Cert.Lib.MergeLead.shapeCast_split_apply (a := 2) (b := 16) (c := 2048) (e := 64) (G := 32) y hc b h t e (bh b h) rfl

/-- Heads and tokens swapped: at (b, t, h, d), the operand at (b, h, t, d). -/
theorem swap_apply (x : SHd.Idx → α) (ht : SHd.Transposes [0, 2, 1, 3] STk) (b : Fin 2) (t : Fin 2048) (h : Fin 16) (d : Fin 64) :
    transpose STk [0, 2, 1, 3] x ht (ix4 b t h d) = x (ix4 b h t d) :=
  transpose_apply _ x ht _ _ fun c => match c with | ⟨0, _⟩ => rfl | ⟨1, _⟩ => rfl | ⟨2, _⟩ => rfl | ⟨3, _⟩ => rfl

/-- Token-major rows: at (2048·b + t, 64·h + d), the operand at (b, t, h, d). -/
theorem rows_apply (x : STk.Idx → α) (hc : STk.ShapeCasts SFl) (b : Fin 2) (t : Fin 2048) (h : Fin 16) (d : Fin 64) :
    shapeCast SFl x hc (ix2 (bt b t) (hd h d)) = x (ix4 b t h d) :=
  shapeCast_apply x hc _ _ (by
    rw [Shape.rowMajor_val_four, Shape.rowMajor_val_two]
    show ((b.val * 2048 + t.val) * 16 + h.val) * 64 + d.val = (b.val * 2048 + t.val) * 1024 + (64 * h.val + d.val)
    omega)

/-- The context handed to the last call: split, swap, flatten — at (2048·b + t, 64·h + d), the attention output at
    (16·b + h, t, d). -/
theorem context_apply (y : SMg.Idx → α) (h1 : SMg.ShapeCasts SHd) (h2 : SHd.Transposes [0, 2, 1, 3] STk) (h3 : STk.ShapeCasts SFl)
    (b : Fin 2) (t : Fin 2048) (h : Fin 16) (d : Fin 64) :
    shapeCast SFl (transpose STk [0, 2, 1, 3] (shapeCast SHd y h1) h2) h3 (ix2 (bt b t) (hd h d)) = y (ix3 (bh b h) t d) := by
  rw [rows_apply, swap_apply, split_apply]

/-- Rows unflattened: at (b, t, e), the operand at (2048·b + t, e). -/
theorem unflat_apply (x : SFl.Idx → α) (hc : SFl.ShapeCasts SAc) (b : Fin 2) (t : Fin 2048) (e : Fin 1024) :
    shapeCast SAc x hc (ix3 b t e) = x (ix2 (bt b t) e) :=
  shapeCast_apply x hc _ _ (by
    rw [Shape.rowMajor_val_two, Shape.rowMajor_val_three]
    show (b.val * 2048 + t.val) * 1024 + e.val = (b.val * 2048 + t.val) * 1024 + e.val
    rfl)

end Cert.Math.Host

end
-- ==== Proof.Math.KernelLayer.lean ====
/-
  The layer from its three stages and the layout plumbing between them.

  Suppose three arrays with the batch and the head merged into one leading index (16·b + h) hold the head-major
  projections of real inputs; a fourth, in the same layout, holds the causal softmax attention of whatever real
  head-major arrays the first three hold; a token-major array with rows 2048·b + t and columns 64·h + d holds the
  fourth's entry at (16·b + h, t, d); and a last array holds the products of the token-major array's rows with the
  output weights.  Then the last array at row 2048·b + t, column e is the layer at (b, t, e): column k of the
  contraction is head k / 64 and lane k % 64, because 64 · (k / 64) + k % 64 = k.
-/
import proofs.«133407_j369367188058_2_alg».proof.Proof.Math.Spec
import proofs.«133407_j369367188058_2_alg».proof.Proof.Math.Reals
import proofs.«133407_j369367188058_2_alg».proof.Proof.Math.HostReads

noncomputable section

open scoped BigOperators

namespace Cert.Math

open Idealize.ShloMosaic Idealize.ShloMosaic.ValueIdx Cert.Reals Cert.Math.Host

/-- A column is the column of its head and lane. -/
theorem hd_khead_klane (k : Fin 1024) : hd (khead k) (klane k) = k :=
  Fin.ext (by show 64 * (k.val / 64) + k.val % 64 = k.val; omega)

theorem layer_from_stages
    (z : SAct.Idx → EReal) (wq wk wv wo : SWgt.Idx → EReal)
    (hz : ∀ i, IsReal (z i)) (hwq : ∀ i, IsReal (wq i)) (hwk : ∀ i, IsReal (wk i)) (hwv : ∀ i, IsReal (wv i))
    (q1 k1 v1 o1 : SMg.Idx → EReal) (c7 o2 : SFl.Idx → EReal)
    (hq1 : ∀ (b : Fin 2) (h : Fin 16) (t : Fin 2048) (e : Fin 64), q1 (ix3 (bh b h) t e) = projH z wq (ix4 b h t e))
    (hk1 : ∀ (b : Fin 2) (h : Fin 16) (t : Fin 2048) (e : Fin 64), k1 (ix3 (bh b h) t e) = projH z wk (ix4 b h t e))
    (hv1 : ∀ (b : Fin 2) (h : Fin 16) (t : Fin 2048) (e : Fin 64), v1 (ix3 (bh b h) t e) = projH z wv (ix4 b h t e))
    (hattn : ∀ (Q K Vv : SHead.Idx → EReal),
      (∀ (b : Fin 2) (h : Fin 16) (t : Fin 2048) (e : Fin 64), q1 (ix3 (bh b h) t e) = Q (ix4 b h t e)) →
      (∀ (b : Fin 2) (h : Fin 16) (t : Fin 2048) (e : Fin 64), k1 (ix3 (bh b h) t e) = K (ix4 b h t e)) →
      (∀ (b : Fin 2) (h : Fin 16) (t : Fin 2048) (e : Fin 64), v1 (ix3 (bh b h) t e) = Vv (ix4 b h t e)) →
      (∀ i, IsReal (Q i)) → (∀ i, IsReal (K i)) → (∀ i, IsReal (Vv i)) →
      ∀ (b : Fin 2) (h : Fin 16) (t : Fin 2048) (d : Fin 64), o1 (ix3 (bh b h) t d) = attnH Q K Vv (ix4 b h t d))
    (hc7 : ∀ (b : Fin 2) (t : Fin 2048) (h : Fin 16) (d : Fin 64), c7 (ix2 (bt b t) (hd h d)) = o1 (ix3 (bh b h) t d))
    (ho2 : ∀ (r : Fin 4096) (e : Fin 1024), o2 (ix2 r e) = ∑ k : Fin 1024, c7 (ix2 r k) * wo (ix2 k e))
    (b : Fin 2) (t : Fin 2048) (e : Fin 1024) :
    o2 (ix2 (bt b t) e) = layer z wq wk wv wo (ix3 b t e) := by
  have ho1 := hattn (projH z wq) (projH z wk) (projH z wv) hq1 hk1 hv1
    (projH_real hz hwq) (projH_real hz hwk) (projH_real hz hwv)
  rw [ho2]
  unfold layer
  rw [outP_ix]
  unfold outAt
  refine Finset.sum_congr rfl fun k _ => ?_
  have hk := hc7 b t (khead k) (klane k)
  rw [hd_khead_klane] at hk
  rw [hk, ho1]

end Cert.Math

end
-- ==== Proof.Math.KernelValue.lean ====
/-
  The kernel's result is the layer.

  The result buffer at the return is the last change of shape of what the third call leaves in its output array.
  Going back from there: the third call's output is the product of the token-major context with the output weights,
  which reach it as launched; the token-major context is the second call's output with heads split from the batch,
  heads and positions swapped and the two trailing axes merged; the second call's output is the causal softmax
  attention of what its three inputs hold; those inputs are the first call's three outputs with the batch and the
  head merged; and the first call's outputs are the head-major projections of the arguments as launched.  What each
  call leaves in its output arrays is taken as a hypothesis here, in the form its own module proves it.
-/
import proofs.«133407_j369367188058_2_alg».proof.Proof.KI.Run
import proofs.«133407_j369367188058_2_alg».proof.Proof.Math.KernelLayer
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Cert.Math Cert.Math.Host Cert.Reals

variable (m : (ℓ : Loc nD τ sig) → Buf (Elt Ideal) ℓ) (ρ : Dev nD → PrngReg) (c : Dev nD)

/-! ### The host pieces, read at a buffer -/

/-- The second call's first input: the first call's first output with the batch and the head merged. -/
theorem M2_v1 : (M2 m ρ c (Proc.devRef .tc main_v1) : S32x2048x64.Idx → EReal)
    = shapeCast S32x2048x64 (M1 m ρ c (Proc.devRef .tc main_v0_0) : S2x16x2048x64.Idx → EReal)
        shapeCasts_S2x16x2048x64_S32x2048x64 := by
  show StableHlo.after hostOps1 _ (Proc.devRef .tc main_v1) = _
  after_results
  rfl

theorem M2_v2 : (M2 m ρ c (Proc.devRef .tc main_v2) : S32x2048x64.Idx → EReal)
    = shapeCast S32x2048x64 (M1 m ρ c (Proc.devRef .tc main_v0_1) : S2x16x2048x64.Idx → EReal)
        shapeCasts_S2x16x2048x64_S32x2048x64 := by
  show StableHlo.after hostOps1 _ (Proc.devRef .tc main_v2) = _
  after_results
  rfl

theorem M2_v3 : (M2 m ρ c (Proc.devRef .tc main_v3) : S32x2048x64.Idx → EReal)
    = shapeCast S32x2048x64 (M1 m ρ c (Proc.devRef .tc main_v0_2) : S2x16x2048x64.Idx → EReal)
        shapeCasts_S2x16x2048x64_S32x2048x64 := by
  show StableHlo.after hostOps1 _ (Proc.devRef .tc main_v3) = _
  after_results
  rfl

/-- The third call's first input: the second call's output split, swapped and flattened. -/
theorem M4_v7 : (M4 m ρ c (Proc.devRef .tc main_v7) : S4096x1024.Idx → EReal)
    = shapeCast S4096x1024 (transpose S2x2048x16x64 [0, 2, 1, 3]
        (shapeCast S2x16x2048x64 (M3 m ρ c (Proc.devRef .tc main_v4) : S32x2048x64.Idx → EReal)
          shapeCasts_S32x2048x64_S2x16x2048x64) transposes_S2x16x2048x64_S2x2048x16x64_0_2_1_3)
        shapeCasts_S2x2048x16x64_S4096x1024 := by
  show StableHlo.after hostOps2 _ (Proc.devRef .tc main_v7) = _
  after_results
  rfl

/-- The output weights reach the third call as launched. -/
theorem M4_arg4 : M4 m ρ c (Proc.devRef .tc main_arg4) = m ((c : Thread nD τ).loc main_arg4) :=
  calc M4 m ρ c (Proc.devRef .tc main_arg4)
    _ = M3 m ρ c (Proc.devRef .tc main_arg4) := StableHlo.after_of_writes_sub hostOps2 _ hostOps2_writes (by decide)
    _ = M2 m ρ c (Proc.devRef .tc main_arg4) := M3_off m ρ c main_arg4 (by decide)
    _ = M1 m ρ c (Proc.devRef .tc main_arg4) := StableHlo.after_of_writes_sub hostOps1 _ hostOps1_writes (by decide)
    _ = M0 m ρ c (Proc.devRef .tc main_arg4) := M1_off m ρ c main_arg4 (by decide)
    _ = m ((c : Thread nD τ).loc main_arg4) := rfl

/-! ### The arrays the three calls read and write, as functions of literal index types -/

/-- The arguments as launched. -/
abbrev a0 : S2x2048x1024.Idx → EReal := m ((c : Thread nD τ).loc main_arg0)
abbrev a1 : S1024x1024.Idx → EReal := m ((c : Thread nD τ).loc main_arg1)
abbrev a2 : S1024x1024.Idx → EReal := m ((c : Thread nD τ).loc main_arg2)
abbrev a3 : S1024x1024.Idx → EReal := m ((c : Thread nD τ).loc main_arg3)
abbrev a4 : S1024x1024.Idx → EReal := m ((c : Thread nD τ).loc main_arg4)
/-- What the first call leaves in its three output arrays. -/
abbrev q0 : S2x16x2048x64.Idx → EReal := (dat0 (F := Ideal) (E0 m ρ) c).arrAt 4 cfg0.N
abbrev k0 : S2x16x2048x64.Idx → EReal := (dat0 (F := Ideal) (E0 m ρ) c).arrAt 5 cfg0.N
abbrev v0 : S2x16x2048x64.Idx → EReal := (dat0 (F := Ideal) (E0 m ρ) c).arrAt 6 cfg0.N
/-- What the second call reads. -/
abbrev q1 : S32x2048x64.Idx → EReal := E1 m ρ c main_v1
abbrev k1 : S32x2048x64.Idx → EReal := E1 m ρ c main_v2
abbrev v1 : S32x2048x64.Idx → EReal := E1 m ρ c main_v3
/-- What the second call leaves in its output array. -/
abbrev o1 : S32x2048x64.Idx → EReal := (dat1 (F := Ideal) (E1 m ρ) c).arrAt 3 cfg1.N
/-- What the third call reads. -/
abbrev c7 : S4096x1024.Idx → EReal := E2 m ρ c main_v7
abbrev w4 : S1024x1024.Idx → EReal := E2 m ρ c main_arg4
/-- What the third call leaves in its output array. -/
abbrev o2 : S4096x1024.Idx → EReal := (dat2 (F := Ideal) (E2 m ρ) c).arrAt 2 cfg2.N

/-- A head-major projection, merged, read at merged coordinates. -/
theorem merged_projection (z : SAct.Idx → EReal) (wgt : SWgt.Idx → EReal) (x : S2x16x2048x64.Idx → EReal)
    (g : S32x2048x64.Idx → EReal) (hx : x = projH z wgt)
    (hg : g = shapeCast S32x2048x64 x shapeCasts_S2x16x2048x64_S32x2048x64)
    (b : Fin 2) (h : Fin 16) (t : Fin 2048) (e : Fin 64) :
    g (ix3 (bh b h) t e) = projH z wgt (ix4 b h t e) := by
  rw [hg]
  refine (merge_apply _ shapeCasts_S2x16x2048x64_S32x2048x64 b h t e).trans ?_
  rw [hx]

/-- The kernel's result buffer at the return holds the layer of the five arguments as launched, given what each of
    the three calls leaves in its output arrays and that the arguments' entries are real numbers. -/
theorem kernel_value_of
    (h0q : q0 m ρ c = projH (a0 m c) (a1 m c)) (h0k : k0 m ρ c = projH (a0 m c) (a2 m c))
    (h0v : v0 m ρ c = projH (a0 m c) (a3 m c))
    (h1 : ∀ (Q K Vv : SHead.Idx → EReal),
      (∀ (b : Fin 2) (h : Fin 16) (t : Fin 2048) (e : Fin 64), q1 m ρ c (ix3 (bh b h) t e) = Q (ix4 b h t e)) →
      (∀ (b : Fin 2) (h : Fin 16) (t : Fin 2048) (e : Fin 64), k1 m ρ c (ix3 (bh b h) t e) = K (ix4 b h t e)) →
      (∀ (b : Fin 2) (h : Fin 16) (t : Fin 2048) (e : Fin 64), v1 m ρ c (ix3 (bh b h) t e) = Vv (ix4 b h t e)) →
      (∀ i, IsReal (Q i)) → (∀ i, IsReal (K i)) → (∀ i, IsReal (Vv i)) →
      ∀ (b : Fin 2) (h : Fin 16) (t : Fin 2048) (d : Fin 64), o1 m ρ c (ix3 (bh b h) t d) = attnH Q K Vv (ix4 b h t d))
    (h2 : ∀ (r : Fin 4096) (e : Fin 1024),
      o2 m ρ c (ix2 r e) = ∑ k : Fin 1024, c7 m ρ c (ix2 r k) * w4 m ρ c (ix2 k e))
    (hz : ∀ i, IsReal (a0 m c i)) (hwq : ∀ i, IsReal (a1 m c i)) (hwk : ∀ i, IsReal (a2 m c i))
    (hwv : ∀ i, IsReal (a3 m c i)) :
    Wlast (F := Ideal) m ρ c (Proc.devRef .tc main_v9) = layer (a0 m c) (a1 m c) (a2 m c) (a3 m c) (a4 m c) := by
  funext i
  obtain ⟨b, t, e, rfl⟩ : ∃ (b : Fin 2) (t : Fin 2048) (e : Fin 1024), i = ix3 b t e := ⟨i 0, i 1, i 2, eq_ix3 i⟩
  rw [Wlast_result]
  refine (unflat_apply _ shapeCasts_S4096x1024_S2x2048x1024 b t e).trans ?_
  rw [M5_result]
  refine layer_from_stages (a0 m c) (a1 m c) (a2 m c) (a3 m c) (a4 m c) hz hwq hwk hwv
    (q1 m ρ c) (k1 m ρ c) (v1 m ρ c) (o1 m ρ c) (c7 m ρ c) (o2 m ρ c)
    (merged_projection _ _ _ _ ((M1_arr m ρ c 4).trans h0q) (M2_v1 m ρ c))
    (merged_projection _ _ _ _ ((M1_arr m ρ c 5).trans h0k) (M2_v2 m ρ c))
    (merged_projection _ _ _ _ ((M1_arr m ρ c 6).trans h0v) (M2_v3 m ρ c))
    h1 ?_ ?_ b t e
  · intro b t h d
    show (M4 m ρ c (Proc.devRef .tc main_v7) : S4096x1024.Idx → EReal) (ix2 (bt b t) (hd h d)) = _
    rw [M4_v7]
    refine (context_apply _ shapeCasts_S32x2048x64_S2x16x2048x64 transposes_S2x16x2048x64_S2x2048x16x64_0_2_1_3
      shapeCasts_S2x2048x16x64_S4096x1024 b t h d).trans ?_
    exact congrFun (M3_arr m ρ c 3) _
  · intro r e
    rw [h2 r e]
    refine Finset.sum_congr rfl fun k _ => ?_
    exact congrArg (c7 m ρ c (ix2 r k) * ·) (congrFun (M4_arg4 m ρ c) _)

end Cert.KernelIdeal.HandValue

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.Math.PayloadReads.lean ====
/-
  The projection kernel's and the output-projection kernel's payloads read at an index, on the extended reals.

  A projection tile is the 512 x 1024 input tile times a 1024 x 1024 weight, then regrouped: the 1024 output columns are
  split into 16 heads of 64 columns, and the head axis is moved in front of the row axis.  So entry (0, h, r, d) of the
  stored block is the inner product of input row r with weight column 64·h + d.  The output projection's tile is a plain
  matrix product.  Format changes are the identity on the extended reals.
-/
import proofs.«133407_j369367188058_2_alg».proof.Proof.Gen.KernelIdeal.Skeleton
import proofs.«133407_j369367188058_2_alg».proof.Proof.LibPlainMatmul
import Idealize.ShloMosaic.Lib.ValueLayout

noncomputable section

open scoped BigOperators

namespace Cert.KernelIdeal.HandValue

open Idealize.ShloMosaic Idealize.ShloMosaic.ValueIdx Idealize.SL.Sem Cert.KernelIdeal Cert.KernelIdeal.Gen

/-- The output projection's tile at (r, e): row r of the tile against column e of the weight. -/
theorem k2_pay1_apply (x : Vec Ideal S512x1024 .bf16) (w : Vec Ideal S1024x1024 .f32) (r : Fin 512) (e : Fin 1024) :
    k2_pay1 (F := Ideal) x w (ix2 r e) = ∑ k : Fin 1024, x (ix2 r k) * w (ix2 k e) := by
  unfold k2_pay1
  rw [shapeCast_self]
  exact Cert.Lib.PlainMatmul.plain_matmul_zero_apply (M := 512) (K := 1024) (N := 1024) (φ₁ := .bf16) (φ₂ := .bf16) x w r e

/-- The input tile with its leading unit axis dropped, at (r, k). -/
theorem k0_pay1_apply (x0 : Vec Ideal S1x512x1024 .f32) (r : Fin 512) (k : Fin 1024) :
    k0_pay1 (F := Ideal) x0 (ix2 r k) = x0 (ix3 (0 : Fin 1) r k) := by
  unfold k0_pay1
  exact shapeCast_1ab_ab_apply (a := 512) (b := 1024) x0 _ r k

/-- Regrouping a 512 x 1024 tile into heads: split the columns into 16 groups of 64, move the group axis in front, add a
    leading unit axis.  Entry (0, h, r, d) is the tile at (r, 64·h + d). -/
theorem headMajor_apply (m : FVec Ideal S512x1024 .f32) (h1 : S512x1024.ShapeCasts S512x16x64)
    (h2 : S512x16x64.Transposes [1, 0, 2] S16x512x64) (h3 : FTy.bits .bf16 < FTy.bits .f32)
    (h4 : S16x512x64.ShapeCasts S1x16x512x64) (h : Fin 16) (r : Fin 512) (d : Fin 64) :
    (shapeCast S1x16x512x64 (truncf .bf16 (transpose S16x512x64 [1, 0, 2] (shapeCast S512x16x64 m h1) h2) h3 : FVec Ideal S16x512x64 .bf16) h4)
        (ix4 (0 : Fin 1) h r d)
      = m (ix2 r (⟨64 * h.val + d.val, by omega⟩ : Fin 1024)) := by
  rw [shapeCast_abc_1abc_apply (m := 16) (a := 512) (b := 64) _ h4 (0 : Fin 1) h r d, truncf_apply]
  rw [transpose_apply [1, 0, 2] _ h2 (ix3 h r d) (ix3 r h d)
    (fun c => match c with | ⟨0, _⟩ => rfl | ⟨1, _⟩ => rfl | ⟨2, _⟩ => rfl)]
  refine shapeCast_apply m h1 (ix3 r h d) (ix2 r (⟨64 * h.val + d.val, by omega⟩ : Fin 1024)) ?_
  rw [Shape.rowMajor_val_two, Shape.rowMajor_val_three]
  show r.val * 1024 + (64 * h.val + d.val) = (r.val * 16 + h.val) * 64 + d.val
  omega

/-- A projection tile before regrouping, at (r, c): input row r against weight column c. -/
theorem proj_apply (x0 : Vec Ideal S1x512x1024 .f32) (w : Vec Ideal S1024x1024 .f32) (h3 : FTy.bits .bf16 < FTy.bits .f32)
    (r : Fin 512) (c : Fin 1024) :
    matmul dot_S512x1024_S1024x1024_S512x1024_1_0_0_1_n_n none (k0_pay1 (F := Ideal) x0)
        (truncf .bf16 w h3 : FVec Ideal S1024x1024 .bf16) (constant (F := Ideal) S512x1024 .f32 0x00000000#32) (ix2 r c)
      = ∑ k : Fin 1024, x0 (ix3 (0 : Fin 1) r k) * w (ix2 k c) := by
  refine (Cert.Lib.PlainMatmul.plain_matmul_zero_apply (M := 512) (K := 1024) (N := 1024) (φ₁ := .bf16) (φ₂ := .bf16)
    (k0_pay1 (F := Ideal) x0) w r c).trans ?_
  exact Finset.sum_congr rfl fun k _ => by rw [k0_pay1_apply]

/-- The query projection's stored block at (0, h, r, d): input row r against weight column 64·h + d. -/
theorem k0_pay2_apply (x0 : Vec Ideal S1x512x1024 .f32) (w : Vec Ideal S1024x1024 .f32) (h : Fin 16) (r : Fin 512) (d : Fin 64) :
    k0_pay2 (F := Ideal) x0 w (ix4 (0 : Fin 1) h r d)
      = ∑ k : Fin 1024, x0 (ix3 (0 : Fin 1) r k) * w (ix2 k (⟨64 * h.val + d.val, by omega⟩ : Fin 1024)) := by
  unfold k0_pay2
  rw [headMajor_apply, proj_apply]

/-- The key projection's stored block at (0, h, r, d). -/
theorem k0_pay3_apply (x0 : Vec Ideal S1x512x1024 .f32) (w : Vec Ideal S1024x1024 .f32) (h : Fin 16) (r : Fin 512) (d : Fin 64) :
    k0_pay3 (F := Ideal) x0 w (ix4 (0 : Fin 1) h r d)
      = ∑ k : Fin 1024, x0 (ix3 (0 : Fin 1) r k) * w (ix2 k (⟨64 * h.val + d.val, by omega⟩ : Fin 1024)) := by
  unfold k0_pay3
  rw [headMajor_apply, proj_apply]

/-- The value projection's stored block at (0, h, r, d). -/
theorem k0_pay4_apply (x0 : Vec Ideal S1x512x1024 .f32) (w : Vec Ideal S1024x1024 .f32) (h : Fin 16) (r : Fin 512) (d : Fin 64) :
    k0_pay4 (F := Ideal) x0 w (ix4 (0 : Fin 1) h r d)
      = ∑ k : Fin 1024, x0 (ix3 (0 : Fin 1) r k) * w (ix2 k (⟨64 * h.val + d.val, by omega⟩ : Fin 1024)) := by
  unfold k0_pay4
  rw [headMajor_apply, proj_apply]

end Cert.KernelIdeal.HandValue

end
-- ==== Proof.Math.Region0Value.lean ====
/-
  The projection region's three output arrays as functions of the region's input arrays, on the extended reals.

  The grid is (batch b, row tile tt): point number b·4 + tt.  The activation window sits at block (b, tt) of the
  [2, 2048, 1024] activations, a 512-row tile; each weight window is its whole 1024 x 1024 array; each output window
  sits at block (b, 0, tt, 0) of a head-major [2, 16, 2048, 64] array and is written back at every point.  The body
  stores each output buffer once, whole: the tile times the weight, regrouped into heads.  So entry (0, h, r, d) of what
  point (b, tt) writes back is the inner product of activation row (b, tt·512 + r) with weight column 64·h + d, which
  is the head-major projection at (b, h, tt·512 + r, d); and every entry (b, h, n, d) lies in the block of point
  b·4 + n / 512.
-/
import proofs.«133407_j369367188058_2_alg».proof.Proof.KI.Region0
import proofs.«133407_j369367188058_2_alg».proof.Proof.Math.PayloadReads
import proofs.«133407_j369367188058_2_alg».proof.Proof.Math.Spec
import Idealize.ShloMosaic.Lib.Pipeline.Value

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Math

/-! ## The printed index maps, decided once over the eight points -/

/-- The activation window's block index at point t. -/
theorem idx0_z : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
/-- The query weight's window is the whole array. -/
theorem idx0_w1 : ∀ t : Fin cfg0.N, win0_1.index t 0 = 0 ∧ win0_1.index t 1 = 0 :=
  (by decide +kernel : ∀ t : Fin grid0.N, win0_1.index t 0 = 0 ∧ win0_1.index t 1 = 0)
/-- The query output window's block index at point t. -/
theorem idx0_o4 : ∀ t : Fin cfg0.N, win0_4.index t 0 = t.val / 4 ∧ win0_4.index t 1 = 0 ∧ win0_4.index t 2 = t.val % 4 ∧ win0_4.index t 3 = 0 :=
  (by decide +kernel : ∀ t : Fin grid0.N, win0_4.index t 0 = t.val / 4 ∧ win0_4.index t 1 = 0 ∧ win0_4.index t 2 = t.val % 4 ∧ win0_4.index t 3 = 0)
/-- Its block is whole at every point. -/
theorem xsize0_o4 : ∀ t : Fin cfg0.N, win0_4.xsize (grid0.coords t) 0 = 1 ∧ win0_4.xsize (grid0.coords t) 1 = 16 ∧ win0_4.xsize (grid0.coords t) 2 = 512 ∧ win0_4.xsize (grid0.coords t) 3 = 64 :=
  (by decide +kernel : ∀ t : Fin grid0.N, win0_4.xsize (grid0.coords t) 0 = 1 ∧ win0_4.xsize (grid0.coords t) 1 = 16 ∧ win0_4.xsize (grid0.coords t) 2 = 512 ∧ win0_4.xsize (grid0.coords t) 3 = 64)
/-- The key weight's window is the whole array. -/
theorem idx0_w2 : ∀ t : Fin cfg0.N, win0_2.index t 0 = 0 ∧ win0_2.index t 1 = 0 :=
  (by decide +kernel : ∀ t : Fin grid0.N, win0_2.index t 0 = 0 ∧ win0_2.index t 1 = 0)
/-- The key output window's block index at point t. -/
theorem idx0_o5 : ∀ t : Fin cfg0.N, win0_5.index t 0 = t.val / 4 ∧ win0_5.index t 1 = 0 ∧ win0_5.index t 2 = t.val % 4 ∧ win0_5.index t 3 = 0 :=
  (by decide +kernel : ∀ t : Fin grid0.N, win0_5.index t 0 = t.val / 4 ∧ win0_5.index t 1 = 0 ∧ win0_5.index t 2 = t.val % 4 ∧ win0_5.index t 3 = 0)
/-- Its block is whole at every point. -/
theorem xsize0_o5 : ∀ t : Fin cfg0.N, win0_5.xsize (grid0.coords t) 0 = 1 ∧ win0_5.xsize (grid0.coords t) 1 = 16 ∧ win0_5.xsize (grid0.coords t) 2 = 512 ∧ win0_5.xsize (grid0.coords t) 3 = 64 :=
  (by decide +kernel : ∀ t : Fin grid0.N, win0_5.xsize (grid0.coords t) 0 = 1 ∧ win0_5.xsize (grid0.coords t) 1 = 16 ∧ win0_5.xsize (grid0.coords t) 2 = 512 ∧ win0_5.xsize (grid0.coords t) 3 = 64)
/-- The value weight's window is the whole array. -/
theorem idx0_w3 : ∀ t : Fin cfg0.N, win0_3.index t 0 = 0 ∧ win0_3.index t 1 = 0 :=
  (by decide +kernel : ∀ t : Fin grid0.N, win0_3.index t 0 = 0 ∧ win0_3.index t 1 = 0)
/-- The value output window's block index at point t. -/
theorem idx0_o6 : ∀ t : Fin cfg0.N, win0_6.index t 0 = t.val / 4 ∧ win0_6.index t 1 = 0 ∧ win0_6.index t 2 = t.val % 4 ∧ win0_6.index t 3 = 0 :=
  (by decide +kernel : ∀ t : Fin grid0.N, win0_6.index t 0 = t.val / 4 ∧ win0_6.index t 1 = 0 ∧ win0_6.index t 2 = t.val % 4 ∧ win0_6.index t 3 = 0)
/-- Its block is whole at every point. -/
theorem xsize0_o6 : ∀ t : Fin cfg0.N, win0_6.xsize (grid0.coords t) 0 = 1 ∧ win0_6.xsize (grid0.coords t) 1 = 16 ∧ win0_6.xsize (grid0.coords t) 2 = 512 ∧ win0_6.xsize (grid0.coords t) 3 = 64 :=
  (by decide +kernel : ∀ t : Fin grid0.N, win0_6.xsize (grid0.coords t) 0 = 1 ∧ win0_6.xsize (grid0.coords t) 1 = 16 ∧ win0_6.xsize (grid0.coords t) 2 = 512 ∧ win0_6.xsize (grid0.coords t) 3 = 64)

/-! ## The stored buffers are the payloads -/

theorem hz0_3 : (![0, 0, 0] : Fin 3 → Nat) = fun _ => 0 := funext fun a => by fin_cases a <;> rfl
theorem hz0_2 : (![0, 0] : Fin 2 → Nat) = fun _ => 0 := funext fun a => by fin_cases a <;> rfl
theorem hz0_4 : (![0, 0, 0, 0] : Fin 4 → Nat) = fun _ => 0 := funext fun a => by fin_cases a <;> rfl

/-- One whole-buffer store of whole-buffer loads: the query output buffer after the body is the payload of the blocks. -/
theorem out0_4_eq (x0 : Vec Ideal S1x512x1024 .f32) (xw : Vec Ideal S1024x1024 .f32) :
    out0_4 (F := Ideal) x0 xw = k0_pay2 (F := Ideal) x0 xw := by
  unfold out0_4
  rw [View.canon_unit_zero hz0_4, View.ld_unit_zero hz0_3, View.ld_unit_zero hz0_2]

/-- One whole-buffer store of whole-buffer loads: the key output buffer after the body is the payload of the blocks. -/
theorem out0_5_eq (x0 : Vec Ideal S1x512x1024 .f32) (xw : Vec Ideal S1024x1024 .f32) :
    out0_5 (F := Ideal) x0 xw = k0_pay3 (F := Ideal) x0 xw := by
  unfold out0_5
  rw [View.canon_unit_zero hz0_4, View.ld_unit_zero hz0_3, View.ld_unit_zero hz0_2]

/-- One whole-buffer store of whole-buffer loads: the value output buffer after the body is the payload of the blocks. -/
theorem out0_6_eq (x0 : Vec Ideal S1x512x1024 .f32) (xw : Vec Ideal S1024x1024 .f32) :
    out0_6 (F := Ideal) x0 xw = k0_pay4 (F := Ideal) x0 xw := by
  unfold out0_6
  rw [View.canon_unit_zero hz0_4, View.ld_unit_zero hz0_3, View.ld_unit_zero hz0_2]

variable (V : (c : Dev nD) → (b : Ref sig .tc) → Buf (Elt Ideal) ((c : Thread nD τ).loc b))

/-! ## A block read at an index -/

/-- The activation window's block at point t, at (0, r, k). -/
theorem iblk0_z_apply (c : Dev nD) (t : Fin cfg0.N) (b : Fin 2) (n : Fin 2048) (r : Fin 512) (k : Fin 1024)
    (hb : win0_0.index t 0 = b.val) (hn : win0_0.index t 1 * 512 + r.val = n.val) (h2 : win0_0.index t 2 = 0) :
    (iblk0 V c 0 t : Vec Ideal S1x512x1024 .f32) (ix3 (0 : Fin 1) r k) = (V c main_arg0 : S2x2048x1024.Idx → EReal) (ix3 b n k) := by
  unfold iblk0
  rw [View.read_apply]
  show V c main_arg0 _ = V c main_arg0 _
  congr 1
  funext a
  apply Fin.ext
  match a with
  | ⟨0, _⟩ => show win0_0.index t 0 * 1 + 1 * 0 = b.val; omega
  | ⟨1, _⟩ => show win0_0.index t 1 * 512 + 1 * r.val = n.val; omega
  | ⟨2, _⟩ => show win0_0.index t 2 * 1024 + 1 * k.val = k.val; omega

/-- The query weight's window at point t, at (k, e): the weight there. -/
theorem iblk0_w1_apply (c : Dev nD) (t : Fin cfg0.N) (k e : Fin 1024) :
    (iblk0 V c 1 t : Vec Ideal S1024x1024 .f32) (ix2 k e) = (V c main_arg1 : S1024x1024.Idx → EReal) (ix2 k e) := by
  have hi := idx0_w1 t
  unfold iblk0
  rw [View.read_apply]
  show V c main_arg1 _ = V c main_arg1 _
  congr 1
  funext a
  apply Fin.ext
  match a with
  | ⟨0, _⟩ => show win0_1.index t 0 * 1024 + 1 * k.val = k.val; rw [hi.1]; omega
  | ⟨1, _⟩ => show win0_1.index t 1 * 1024 + 1 * e.val = e.val; rw [hi.2]; omega

/-- The query output window's block of any whole-array contents at point t, at (0, h, r, d). -/
theorem read0_o4_apply (c : Dev nD) (G : S2x16x2048x64.Idx → EReal) (t : Fin cfg0.N) (b : Fin 2) (n : Fin 2048) (h : Fin 16) (r : Fin 512)
    (d : Fin 64) (hb : win0_4.index t 0 = b.val) (h1 : win0_4.index t 1 = 0) (hn : win0_4.index t 2 * 512 + r.val = n.val)
    (h3 : win0_4.index t 3 = 0) :
    (((cfg0.win 4).blk t).view.read (Elt Ideal) (G : Buf (Elt Ideal) ((c : Thread nD τ).loc main_v0_0)) : S1x16x512x64.Idx → EReal)
        (ix4 (0 : Fin 1) h r d) = G (ix4 b h n d) := by
  rw [View.read_apply]
  show G _ = G _
  congr 1
  funext a
  apply Fin.ext
  match a with
  | ⟨0, _⟩ => show win0_4.index t 0 * 1 + 1 * 0 = b.val; omega
  | ⟨1, _⟩ => show win0_4.index t 1 * 16 + 1 * h.val = h.val; omega
  | ⟨2, _⟩ => show win0_4.index t 2 * 512 + 1 * r.val = n.val; omega
  | ⟨3, _⟩ => show win0_4.index t 3 * 64 + 1 * d.val = d.val; omega

/-- The key weight's window at point t, at (k, e): the weight there. -/
theorem iblk0_w2_apply (c : Dev nD) (t : Fin cfg0.N) (k e : Fin 1024) :
    (iblk0 V c 2 t : Vec Ideal S1024x1024 .f32) (ix2 k e) = (V c main_arg2 : S1024x1024.Idx → EReal) (ix2 k e) := by
  have hi := idx0_w2 t
  unfold iblk0
  rw [View.read_apply]
  show V c main_arg2 _ = V c main_arg2 _
  congr 1
  funext a
  apply Fin.ext
  match a with
  | ⟨0, _⟩ => show win0_2.index t 0 * 1024 + 1 * k.val = k.val; rw [hi.1]; omega
  | ⟨1, _⟩ => show win0_2.index t 1 * 1024 + 1 * e.val = e.val; rw [hi.2]; omega

/-- The key output window's block of any whole-array contents at point t, at (0, h, r, d). -/
theorem read0_o5_apply (c : Dev nD) (G : S2x16x2048x64.Idx → EReal) (t : Fin cfg0.N) (b : Fin 2) (n : Fin 2048) (h : Fin 16) (r : Fin 512)
    (d : Fin 64) (hb : win0_5.index t 0 = b.val) (h1 : win0_5.index t 1 = 0) (hn : win0_5.index t 2 * 512 + r.val = n.val)
    (h3 : win0_5.index t 3 = 0) :
    (((cfg0.win 5).blk t).view.read (Elt Ideal) (G : Buf (Elt Ideal) ((c : Thread nD τ).loc main_v0_1)) : S1x16x512x64.Idx → EReal)
        (ix4 (0 : Fin 1) h r d) = G (ix4 b h n d) := by
  rw [View.read_apply]
  show G _ = G _
  congr 1
  funext a
  apply Fin.ext
  match a with
  | ⟨0, _⟩ => show win0_5.index t 0 * 1 + 1 * 0 = b.val; omega
  | ⟨1, _⟩ => show win0_5.index t 1 * 16 + 1 * h.val = h.val; omega
  | ⟨2, _⟩ => show win0_5.index t 2 * 512 + 1 * r.val = n.val; omega
  | ⟨3, _⟩ => show win0_5.index t 3 * 64 + 1 * d.val = d.val; omega

/-- The value weight's window at point t, at (k, e): the weight there. -/
theorem iblk0_w3_apply (c : Dev nD) (t : Fin cfg0.N) (k e : Fin 1024) :
    (iblk0 V c 3 t : Vec Ideal S1024x1024 .f32) (ix2 k e) = (V c main_arg3 : S1024x1024.Idx → EReal) (ix2 k e) := by
  have hi := idx0_w3 t
  unfold iblk0
  rw [View.read_apply]
  show V c main_arg3 _ = V c main_arg3 _
  congr 1
  funext a
  apply Fin.ext
  match a with
  | ⟨0, _⟩ => show win0_3.index t 0 * 1024 + 1 * k.val = k.val; rw [hi.1]; omega
  | ⟨1, _⟩ => show win0_3.index t 1 * 1024 + 1 * e.val = e.val; rw [hi.2]; omega

/-- The value output window's block of any whole-array contents at point t, at (0, h, r, d). -/
theorem read0_o6_apply (c : Dev nD) (G : S2x16x2048x64.Idx → EReal) (t : Fin cfg0.N) (b : Fin 2) (n : Fin 2048) (h : Fin 16) (r : Fin 512)
    (d : Fin 64) (hb : win0_6.index t 0 = b.val) (h1 : win0_6.index t 1 = 0) (hn : win0_6.index t 2 * 512 + r.val = n.val)
    (h3 : win0_6.index t 3 = 0) :
    (((cfg0.win 6).blk t).view.read (Elt Ideal) (G : Buf (Elt Ideal) ((c : Thread nD τ).loc main_v0_2)) : S1x16x512x64.Idx → EReal)
        (ix4 (0 : Fin 1) h r d) = G (ix4 b h n d) := by
  rw [View.read_apply]
  show G _ = G _
  congr 1
  funext a
  apply Fin.ext
  match a with
  | ⟨0, _⟩ => show win0_6.index t 0 * 1 + 1 * 0 = b.val; omega
  | ⟨1, _⟩ => show win0_6.index t 1 * 16 + 1 * h.val = h.val; omega
  | ⟨2, _⟩ => show win0_6.index t 2 * 512 + 1 * r.val = n.val; omega
  | ⟨3, _⟩ => show win0_6.index t 3 * 64 + 1 * d.val = d.val; omega

/-! ## The output arrays -/

/-- Every write-back of the query output window writes its block of the head-major projection. -/
theorem flushed0_4_eq (c : Dev nD) (t : Fin cfg0.N) (hf : (cfg0.win 4).flush t = true) :
    (dat0 (F := Ideal) V c).flushed 4 t
      = ((cfg0.win 4).blk t).view.read (Elt Ideal)
          (projH (V c main_arg0) (V c main_arg1) : Buf (Elt Ideal) ((c : Thread nD τ).loc main_v0_0)) := by
  have htN : t.val < 8 := t.isLt
  show (cfg0.win 4).cut (grid0.coords t) ((dat0 (F := Ideal) V c).after 4 t) = _
  rw [after0_4, out0_4_eq]
  refine funext fun (y : S1x16x512x64.Idx) => ?_
  obtain ⟨z, h, r, d, rfl⟩ : ∃ (z : Fin 1) (h : Fin 16) (r : Fin 512) (d : Fin 64), y = ix4 z h r d := ⟨y 0, y 1, y 2, y 3, eq_ix4 y⟩
  obtain rfl : z = 0 := Subsingleton.elim _ _
  have hz := idx0_z t
  have ho := idx0_o4 t
  rw [read0_o4_apply c (projH (V c main_arg0) (V c main_arg1)) t ⟨t.val / 4, by omega⟩ ⟨t.val % 4 * 512 + r.val, by omega⟩ h r d
    ho.1 ho.2.1 (by rw [ho.2.2.1]) ho.2.2.2]
  show k0_pay2 (F := Ideal) (iblk0 V c 0 t) (iblk0 V c 1 t) (ix4 (0 : Fin 1) h r d) = _
  rw [k0_pay2_apply, projH_ix]
  unfold projAt hcol
  refine Finset.sum_congr rfl fun k _ => ?_
  rw [iblk0_z_apply V c t ⟨t.val / 4, by omega⟩ ⟨t.val % 4 * 512 + r.val, by omega⟩ r k hz.1 (by rw [hz.2.1]) hz.2.2,
    iblk0_w1_apply V c t]

/-- Every entry of the query output array lies in a block that is written back. -/
theorem covered0_4 (c : Dev nD) (i : ((cfg0.win 4).arr.view.loc ((c : Dev nD).tc : Thread nD τ)).2.ty.Idx) :
    ∃ t : Fin cfg0.N, (cfg0.win 4).flush t = true ∧ i ∈ ((cfg0.win 4).blk t).view.set := by
  have h0 : (i 0 : ℕ) < 2 := (i 0).isLt
  have h1 : (i 1 : ℕ) < 16 := (i 1).isLt
  have h2 : (i 2 : ℕ) < 2048 := (i 2).isLt
  have h3 : (i 3 : ℕ) < 64 := (i 3).isLt
  obtain ⟨t, ht⟩ : ∃ t : Fin cfg0.N, t.val = (i 0 : ℕ) * 4 + (i 2 : ℕ) / 512 := ⟨⟨_, by show _ < 8; omega⟩, rfl⟩
  refine ⟨t, flush0_4 t, ?_⟩
  show i ∈ ((View.whole main_v0_0).slice (win0_4.rect t)).set
  rw [View.set_slice_whole, Rect.mem_set_unit]
  have hi := idx0_o4 t
  have hx := xsize0_o4 t
  intro a
  match a with
  | ⟨0, _⟩ =>
    show win0_4.index t 0 * 1 ≤ (i 0 : ℕ) ∧ (i 0 : ℕ) < win0_4.index t 0 * 1 + win0_4.xsize (grid0.coords t) 0
    rw [hi.1, hx.1]; omega
  | ⟨1, _⟩ =>
    show win0_4.index t 1 * 16 ≤ (i 1 : ℕ) ∧ (i 1 : ℕ) < win0_4.index t 1 * 16 + win0_4.xsize (grid0.coords t) 1
    rw [hi.2.1, hx.2.1]; omega
  | ⟨2, _⟩ =>
    show win0_4.index t 2 * 512 ≤ (i 2 : ℕ) ∧ (i 2 : ℕ) < win0_4.index t 2 * 512 + win0_4.xsize (grid0.coords t) 2
    rw [hi.2.2.1, hx.2.2.1]; omega
  | ⟨3, _⟩ =>
    show win0_4.index t 3 * 64 ≤ (i 3 : ℕ) ∧ (i 3 : ℕ) < win0_4.index t 3 * 64 + win0_4.xsize (grid0.coords t) 3
    rw [hi.2.2.2, hx.2.2.2]; omega

/-- The query output array ends holding the head-major projection of the activations by the query weight. -/
theorem region0_q (c : Dev nD) :
    ((dat0 (F := Ideal) V c).arrAt 4 cfg0.N : S2x16x2048x64.Idx → EReal) = projH (V c main_arg0) (V c main_arg1) :=
  (dat0 (F := Ideal) V c).arrAt_eq_of_cover 4 _ (flushed0_4_eq V c) (covered0_4 c)

/-- Every write-back of the key output window writes its block of the head-major projection. -/
theorem flushed0_5_eq (c : Dev nD) (t : Fin cfg0.N) (hf : (cfg0.win 5).flush t = true) :
    (dat0 (F := Ideal) V c).flushed 5 t
      = ((cfg0.win 5).blk t).view.read (Elt Ideal)
          (projH (V c main_arg0) (V c main_arg2) : Buf (Elt Ideal) ((c : Thread nD τ).loc main_v0_1)) := by
  have htN : t.val < 8 := t.isLt
  show (cfg0.win 5).cut (grid0.coords t) ((dat0 (F := Ideal) V c).after 5 t) = _
  rw [after0_5, out0_5_eq]
  refine funext fun (y : S1x16x512x64.Idx) => ?_
  obtain ⟨z, h, r, d, rfl⟩ : ∃ (z : Fin 1) (h : Fin 16) (r : Fin 512) (d : Fin 64), y = ix4 z h r d := ⟨y 0, y 1, y 2, y 3, eq_ix4 y⟩
  obtain rfl : z = 0 := Subsingleton.elim _ _
  have hz := idx0_z t
  have ho := idx0_o5 t
  rw [read0_o5_apply c (projH (V c main_arg0) (V c main_arg2)) t ⟨t.val / 4, by omega⟩ ⟨t.val % 4 * 512 + r.val, by omega⟩ h r d
    ho.1 ho.2.1 (by rw [ho.2.2.1]) ho.2.2.2]
  show k0_pay3 (F := Ideal) (iblk0 V c 0 t) (iblk0 V c 2 t) (ix4 (0 : Fin 1) h r d) = _
  rw [k0_pay3_apply, projH_ix]
  unfold projAt hcol
  refine Finset.sum_congr rfl fun k _ => ?_
  rw [iblk0_z_apply V c t ⟨t.val / 4, by omega⟩ ⟨t.val % 4 * 512 + r.val, by omega⟩ r k hz.1 (by rw [hz.2.1]) hz.2.2,
    iblk0_w2_apply V c t]

/-- Every entry of the key output array lies in a block that is written back. -/
theorem covered0_5 (c : Dev nD) (i : ((cfg0.win 5).arr.view.loc ((c : Dev nD).tc : Thread nD τ)).2.ty.Idx) :
    ∃ t : Fin cfg0.N, (cfg0.win 5).flush t = true ∧ i ∈ ((cfg0.win 5).blk t).view.set := by
  have h0 : (i 0 : ℕ) < 2 := (i 0).isLt
  have h1 : (i 1 : ℕ) < 16 := (i 1).isLt
  have h2 : (i 2 : ℕ) < 2048 := (i 2).isLt
  have h3 : (i 3 : ℕ) < 64 := (i 3).isLt
  obtain ⟨t, ht⟩ : ∃ t : Fin cfg0.N, t.val = (i 0 : ℕ) * 4 + (i 2 : ℕ) / 512 := ⟨⟨_, by show _ < 8; omega⟩, rfl⟩
  refine ⟨t, flush0_5 t, ?_⟩
  show i ∈ ((View.whole main_v0_1).slice (win0_5.rect t)).set
  rw [View.set_slice_whole, Rect.mem_set_unit]
  have hi := idx0_o5 t
  have hx := xsize0_o5 t
  intro a
  match a with
  | ⟨0, _⟩ =>
    show win0_5.index t 0 * 1 ≤ (i 0 : ℕ) ∧ (i 0 : ℕ) < win0_5.index t 0 * 1 + win0_5.xsize (grid0.coords t) 0
    rw [hi.1, hx.1]; omega
  | ⟨1, _⟩ =>
    show win0_5.index t 1 * 16 ≤ (i 1 : ℕ) ∧ (i 1 : ℕ) < win0_5.index t 1 * 16 + win0_5.xsize (grid0.coords t) 1
    rw [hi.2.1, hx.2.1]; omega
  | ⟨2, _⟩ =>
    show win0_5.index t 2 * 512 ≤ (i 2 : ℕ) ∧ (i 2 : ℕ) < win0_5.index t 2 * 512 + win0_5.xsize (grid0.coords t) 2
    rw [hi.2.2.1, hx.2.2.1]; omega
  | ⟨3, _⟩ =>
    show win0_5.index t 3 * 64 ≤ (i 3 : ℕ) ∧ (i 3 : ℕ) < win0_5.index t 3 * 64 + win0_5.xsize (grid0.coords t) 3
    rw [hi.2.2.2, hx.2.2.2]; omega

/-- The key output array ends holding the head-major projection of the activations by the key weight. -/
theorem region0_k (c : Dev nD) :
    ((dat0 (F := Ideal) V c).arrAt 5 cfg0.N : S2x16x2048x64.Idx → EReal) = projH (V c main_arg0) (V c main_arg2) :=
  (dat0 (F := Ideal) V c).arrAt_eq_of_cover 5 _ (flushed0_5_eq V c) (covered0_5 c)

/-- Every write-back of the value output window writes its block of the head-major projection. -/
theorem flushed0_6_eq (c : Dev nD) (t : Fin cfg0.N) (hf : (cfg0.win 6).flush t = true) :
    (dat0 (F := Ideal) V c).flushed 6 t
      = ((cfg0.win 6).blk t).view.read (Elt Ideal)
          (projH (V c main_arg0) (V c main_arg3) : Buf (Elt Ideal) ((c : Thread nD τ).loc main_v0_2)) := by
  have htN : t.val < 8 := t.isLt
  show (cfg0.win 6).cut (grid0.coords t) ((dat0 (F := Ideal) V c).after 6 t) = _
  rw [after0_6, out0_6_eq]
  refine funext fun (y : S1x16x512x64.Idx) => ?_
  obtain ⟨z, h, r, d, rfl⟩ : ∃ (z : Fin 1) (h : Fin 16) (r : Fin 512) (d : Fin 64), y = ix4 z h r d := ⟨y 0, y 1, y 2, y 3, eq_ix4 y⟩
  obtain rfl : z = 0 := Subsingleton.elim _ _
  have hz := idx0_z t
  have ho := idx0_o6 t
  rw [read0_o6_apply c (projH (V c main_arg0) (V c main_arg3)) t ⟨t.val / 4, by omega⟩ ⟨t.val % 4 * 512 + r.val, by omega⟩ h r d
    ho.1 ho.2.1 (by rw [ho.2.2.1]) ho.2.2.2]
  show k0_pay4 (F := Ideal) (iblk0 V c 0 t) (iblk0 V c 3 t) (ix4 (0 : Fin 1) h r d) = _
  rw [k0_pay4_apply, projH_ix]
  unfold projAt hcol
  refine Finset.sum_congr rfl fun k _ => ?_
  rw [iblk0_z_apply V c t ⟨t.val / 4, by omega⟩ ⟨t.val % 4 * 512 + r.val, by omega⟩ r k hz.1 (by rw [hz.2.1]) hz.2.2,
    iblk0_w3_apply V c t]

/-- Every entry of the value output array lies in a block that is written back. -/
theorem covered0_6 (c : Dev nD) (i : ((cfg0.win 6).arr.view.loc ((c : Dev nD).tc : Thread nD τ)).2.ty.Idx) :
    ∃ t : Fin cfg0.N, (cfg0.win 6).flush t = true ∧ i ∈ ((cfg0.win 6).blk t).view.set := by
  have h0 : (i 0 : ℕ) < 2 := (i 0).isLt
  have h1 : (i 1 : ℕ) < 16 := (i 1).isLt
  have h2 : (i 2 : ℕ) < 2048 := (i 2).isLt
  have h3 : (i 3 : ℕ) < 64 := (i 3).isLt
  obtain ⟨t, ht⟩ : ∃ t : Fin cfg0.N, t.val = (i 0 : ℕ) * 4 + (i 2 : ℕ) / 512 := ⟨⟨_, by show _ < 8; omega⟩, rfl⟩
  refine ⟨t, flush0_6 t, ?_⟩
  show i ∈ ((View.whole main_v0_2).slice (win0_6.rect t)).set
  rw [View.set_slice_whole, Rect.mem_set_unit]
  have hi := idx0_o6 t
  have hx := xsize0_o6 t
  intro a
  match a with
  | ⟨0, _⟩ =>
    show win0_6.index t 0 * 1 ≤ (i 0 : ℕ) ∧ (i 0 : ℕ) < win0_6.index t 0 * 1 + win0_6.xsize (grid0.coords t) 0
    rw [hi.1, hx.1]; omega
  | ⟨1, _⟩ =>
    show win0_6.index t 1 * 16 ≤ (i 1 : ℕ) ∧ (i 1 : ℕ) < win0_6.index t 1 * 16 + win0_6.xsize (grid0.coords t) 1
    rw [hi.2.1, hx.2.1]; omega
  | ⟨2, _⟩ =>
    show win0_6.index t 2 * 512 ≤ (i 2 : ℕ) ∧ (i 2 : ℕ) < win0_6.index t 2 * 512 + win0_6.xsize (grid0.coords t) 2
    rw [hi.2.2.1, hx.2.2.1]; omega
  | ⟨3, _⟩ =>
    show win0_6.index t 3 * 64 ≤ (i 3 : ℕ) ∧ (i 3 : ℕ) < win0_6.index t 3 * 64 + win0_6.xsize (grid0.coords t) 3
    rw [hi.2.2.2, hx.2.2.2]; omega

/-- The value output array ends holding the head-major projection of the activations by the value weight. -/
theorem region0_v (c : Dev nD) :
    ((dat0 (F := Ideal) V c).arrAt 6 cfg0.N : S2x16x2048x64.Idx → EReal) = projH (V c main_arg0) (V c main_arg3) :=
  (dat0 (F := Ideal) V c).arrAt_eq_of_cover 6 _ (flushed0_6_eq V c) (covered0_6 c)

end Cert.KernelIdeal.HandValue

end
-- ==== Proof.LibRowMax.lean ====
/- The maximum of each row of a matrix, for any extents, on the extended reals: a vector maximum-reduction along the lanes
   of an `[A, K]` matrix from the pattern of -infinity, read at row `p`, is the maximum, taken from the bottom element,
   of the `K` entries of that row.  Nothing here depends on a particular program. -/
import Idealize.ShloMosaic.PureOps.Ideal
import Idealize.ShloMosaic.PureOps.Ideal.Laws
import Idealize.ShloMosaic.Lib.ValueIdx
import proofs.«133407_j369367188058_2_alg».proof.Proof.LibMaxFold

noncomputable section

open Idealize.ShloMosaic Idealize.ShloMosaic.ValueIdx

namespace Cert.Lib.RowMax

/-- A lane maximum of a matrix from -infinity, read at row `p`: the maximum over the lane coordinate of the matrix at
    `(p, k)`.  The hypotheses are typed as a printed body's proof arguments are. -/
theorem rowMax_apply {A K : ℕ} (src : FVec Ideal ⟨2, ![A, K]⟩ .f32) (h : (⟨2, ![A, K]⟩ : Shape).Reduces [1] ⟨1, ![A]⟩)
    (hφ : FKind.Formats .f32) (hacc : (0xFF800000#32 : BitVec 32) = FKind.maximumf.neutral .f32 hφ) (p : Fin A) :
    multiReduction .maximumf [1] ⟨1, ![A]⟩ src 0xFF800000#32 h hφ hacc (ix1 p)
      = (Finset.univ : Finset (Fin K)).fold max ⊥ (fun k => src (ix2 p k)) :=
  (Cert.Lib.MaxFold.maxRed_apply src h hφ hacc (ix1 p)).trans
    (congrArg (fun f => Finset.fold max ⊥ f Finset.univ) (funext fun k => congrArg src (funext fun a => Fin.ext (by
      match a with
      | ⟨0, _⟩ => rfl
      | ⟨1, _⟩ => rfl))))

end Cert.Lib.RowMax

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.Math.FlashStep.lean ====
/-
  One step of the flash-attention kernel's recursion, read row by row on the extended reals.

  For a query block qi and a key block ki (four blocks of 512 rows each) the body forms the 512 x 512 block of scores:
  entry (r, j) is the inner product of query row r with key row j over the 64 head coordinates, times the scale
  constant, when key position ki·512 + j is not beyond query position qi·512 + r, and the bottom element otherwise (the
  masked entries' constant denotes the bottom element).  Then, for every query row r, with the row's 512 scores s:
  the new maximum is max(old maximum, max of s); the old denominator and the old numerators are multiplied by
  exp(old maximum - new maximum) and receive the row's sum of exp(s_j - new maximum), respectively of
  exp(s_j - new maximum) · value_j.  These are exactly one step of the blockwise softmax recursion (its mStep, lStep,
  aStep) on row r.  The first key block starts from (bottom, 0, 0); the finalize branch divides numerator by
  denominator.
-/
import proofs.«133407_j369367188058_2_alg».proof.Proof.KI.Scratch
import proofs.«133407_j369367188058_2_alg».proof.Proof.LibPlainMatmul
import proofs.«133407_j369367188058_2_alg».proof.Proof.LibRowMax
import proofs.«133407_j369367188058_2_alg».proof.Proof.LibColumnReads
import proofs.«133407_j369367188058_2_alg».proof.Proof.LibBroadcastReads
import proofs.«133407_j369367188058_2_alg».proof.Proof.LibOnlineDefs
import Idealize.ShloMosaic.Lib.ValueLayout
import Idealize.ShloMosaic.Lib.WordArith
import Idealize.ShloMosaic.Lib.Affine

noncomputable section

open scoped BigOperators

namespace Cert.KernelIdeal.HandValue

open Idealize.ShloMosaic Idealize.ShloMosaic.ValueIdx Idealize.SL.Sem Cert.KernelIdeal Cert.KernelIdeal.Gen Cert.KernelIdeal.Hand
open Cert.Lib.Online

/-! ## The causal condition as a fact about positions -/

/-- Block number times 512 plus the coordinate inside the block, computed on 32-bit words, is the word of that number. -/
theorem word_pos (b : Fin 4) (j : Fin 512) :
    IntOp.addi (Scalar.muli (BitVec.ofNat 32 b.val) 512#32) (BitVec.ofNat 32 j.val) = BitVec.ofNat 32 (b.val * 512 + j.val) := by
  show BitVec.ofNat 32 b.val * BitVec.ofNat 32 512 + BitVec.ofNat 32 j.val = _
  rw [← BitVec.ofNat_mul, ← BitVec.ofNat_add]

/-- The signed comparison of the key position with the query position holds exactly when the key position is not
    beyond the query position: both are below 2048, far from the sign bit. -/
theorem mask_iff (qi ki : Fin 4) (r j : Fin 512) :
    IntOp.cmpi .sle (IntOp.addi (Scalar.muli (BitVec.ofNat 32 ki.val) 512#32) (BitVec.ofNat 32 j.val))
        (IntOp.addi (Scalar.muli (BitVec.ofNat 32 qi.val) 512#32) (BitVec.ofNat 32 r.val)) = 1#1
      ↔ ki.val * 512 + j.val ≤ qi.val * 512 + r.val := by
  rw [word_pos, word_pos, IntOp.cmpi_sle, WordArith.toInt_ofNat_small _ (by omega), WordArith.toInt_ofNat_small _ (by omega)]
  exact Int.ofNat_le

/-- The block's condition at (r, j): the comparison of the two position words. -/
theorem causal_cond_apply (a1 a2 : BitVec 32) (h0 : S512x512.Iotas .tc 32 [0]) (h1 : S512x512.Iotas .tc 32 [1]) (r j : Fin 512) :
    cmpi .sle (addi (broadcast S512x512 (Scalar.muli a2 512#32)) (iota .tc S512x512 32 [1] h1))
        (addi (broadcast S512x512 (Scalar.muli a1 512#32)) (iota .tc S512x512 32 [0] h0)) (ix2 r j)
      = IntOp.cmpi .sle (IntOp.addi (Scalar.muli a2 512#32) (BitVec.ofNat 32 j.val))
          (IntOp.addi (Scalar.muli a1 512#32) (BitVec.ofNat 32 r.val)) := by
  show IntOp.cmpi .sle (IntOp.addi _ (iota .tc S512x512 32 [1] h1 (ix2 r j))) (IntOp.addi _ (iota .tc S512x512 32 [0] h0 (ix2 r j))) = _
  rw [iota_single_apply, iota_single_apply]
  rfl

/-! ## The constants -/

/-- The masked entries' constant denotes the bottom element. -/
theorem neg_big_eq : (Named.named κ "neg_big" (0xF149F2CA#32 : BitVec (FTy.bits .f32)) : Ideal .f32) = ⊥ := rfl

/-- The pattern of -infinity denotes the bottom element. -/
theorem neg_inf_eq : (Scalar.ofBits .f32 0xFF800000#32 : Ideal .f32) = ⊥ := Cert.Lib.MaxFold.ofBits_neg_inf

/-- The zero pattern denotes zero. -/
theorem zero_eq : (Scalar.ofBits .f32 0x00000000#32 : Ideal .f32) = 0 := Ideal.ofBits_zero_f32

/-! ## The block of scores -/

/-- The masked, scaled score of query row `r` of block `qi` against key row `j` of block `ki`. -/
def blockScore (qi ki : Fin 4) (q k : Vec Ideal S1x512x64 .bf16) (r j : Fin 512) : EReal :=
  if ki.val * 512 + j.val ≤ qi.val * 512 + r.val then
    (∑ e : Fin 64, q (ix3 (0 : Fin 1) r e) * k (ix3 (0 : Fin 1) j e)) * Ideal.ofBits .f32 0x3E000000#32
  else ⊥

/-- Query block times transposed key block, at (r, j): the inner product of query row r and key row j. -/
theorem qk_apply (q k : Vec Ideal S1x512x64 .bf16) (h1 : S1x512x64.ShapeCasts S512x64) (h2 : S512x64.Transposes [1, 0] S64x512)
    (r j : Fin 512) :
    matmul dot_S512x64_S64x512_S512x512_1_0_0_1_n_n none (shapeCast S512x64 q h1 : FVec Ideal S512x64 .bf16)
        (transpose S64x512 [1, 0] (shapeCast S512x64 k h1 : FVec Ideal S512x64 .bf16) h2)
        (constant (F := Ideal) S512x512 .f32 0x00000000#32) (ix2 r j)
      = ∑ e : Fin 64, q (ix3 (0 : Fin 1) r e) * k (ix3 (0 : Fin 1) j e) := by
  refine (Cert.Lib.PlainMatmul.plain_matmul_zero_apply (M := 512) (K := 64) (N := 512) (φ₁ := .bf16) (φ₂ := .bf16) _ _ r j).trans ?_
  exact Finset.sum_congr rfl fun e _ => by
    rw [shapeCast_1ab_ab_apply (a := 512) (b := 64), transpose_ix2_apply (a := 512) (b := 64),
      shapeCast_1ab_ab_apply (a := 512) (b := 64)]

/-- The block of scores at (r, j). -/
theorem k1_pay8_apply (qi ki : Fin 4) (q k : Vec Ideal S1x512x64 .bf16) (r j : Fin 512) :
    k1_pay8 (F := Ideal) (BitVec.ofNat 32 qi.val) (BitVec.ofNat 32 ki.val) q k (ix2 r j) = blockScore qi ki q k r j := by
  unfold k1_pay8 blockScore
  rw [select_apply, causal_cond_apply, mulf_apply, qk_apply, broadcast_apply, broadcast_apply]
  by_cases h : ki.val * 512 + j.val ≤ qi.val * 512 + r.val
  · rw [if_pos h, (mask_iff qi ki r j).mpr h, select_one]; rfl
  · rw [if_neg h, eq_zero_of_ne_one (fun hc => h ((mask_iff qi ki r j).mp hc)), select_zero]; rfl

/-! ## The step's intermediate values at an index -/

/-- The new maximum of row r. -/
theorem k1_pay9_apply (a1 a2 : BitVec 32) (q k : Vec Ideal S1x512x64 .bf16) (m : Vec Ideal S512x1 .f32) (r : Fin 512) :
    k1_pay9 (F := Ideal) a1 a2 q k m (ix2 r (0 : Fin 1))
      = mStep 512 (m (ix2 r (0 : Fin 1))) (fun j => k1_pay8 (F := Ideal) a1 a2 q k (ix2 r j)) := by
  unfold k1_pay9 mStep
  rw [maximumf_apply, Cert.Lib.ColumnReads.shapeCast_a_a1_apply (a := 512)]
  exact congrArg (max _) (Cert.Lib.RowMax.rowMax_apply (A := 512) (K := 512) _ _ _ _ r)

/-- The rescaling factor of row r. -/
theorem k1_pay10_apply (a1 a2 : BitVec 32) (q k : Vec Ideal S1x512x64 .bf16) (m : Vec Ideal S512x1 .f32) (r : Fin 512) :
    k1_pay10 (F := Ideal) a1 a2 q k m (ix2 r (0 : Fin 1))
      = Ideal.exp (m (ix2 r (0 : Fin 1)) - k1_pay9 (F := Ideal) a1 a2 q k m (ix2 r (0 : Fin 1))) := rfl

/-- The weight of entry (r, j). -/
theorem k1_pay11_apply (a1 a2 : BitVec 32) (q k : Vec Ideal S1x512x64 .bf16) (m : Vec Ideal S512x1 .f32) (r j : Fin 512) :
    k1_pay11 (F := Ideal) a1 a2 q k m (ix2 r j)
      = Ideal.exp (k1_pay8 (F := Ideal) a1 a2 q k (ix2 r j) - k1_pay9 (F := Ideal) a1 a2 q k m (ix2 r (0 : Fin 1))) := by
  unfold k1_pay11
  show Ideal.exp (_ - broadcastTo S512x512 _ _ (ix2 r j)) = _
  rw [Cert.Lib.BroadcastReads.broadcastTo_a1_ab_apply (a := 512) (b := 512)]

/-- The new denominator of row r. -/
theorem k1_pay12_apply (a1 a2 : BitVec 32) (q k : Vec Ideal S1x512x64 .bf16) (m l : Vec Ideal S512x1 .f32) (r : Fin 512) :
    k1_pay12 (F := Ideal) a1 a2 q k m l (ix2 r (0 : Fin 1))
      = k1_pay10 (F := Ideal) a1 a2 q k m (ix2 r (0 : Fin 1)) * l (ix2 r (0 : Fin 1))
        + ∑ j : Fin 512, k1_pay11 (F := Ideal) a1 a2 q k m (ix2 r j) := by
  unfold k1_pay12
  rw [shapeCast_self, addf_apply, mulf_apply, Cert.Lib.ColumnReads.shapeCast_a_a1_apply (a := 512)]
  exact congrArg (_ + ·) (Cert.Lib.PlainMatmul.rowSum_apply (A := 512) (K := 512) _ _ _ _ _ r)

/-- The new numerator at (r, d). -/
theorem k1_pay4_apply (v : Vec Ideal S1x512x64 .bf16) (al : FVec Ideal S512x1 .f32) (p : FVec Ideal S512x512 .f32)
    (acc : Vec Ideal S512x64 .f32) (r : Fin 512) (d : Fin 64) :
    k1_pay4 (F := Ideal) (k1_pay7 (F := Ideal) v) al p acc (ix2 r d)
      = al (ix2 r (0 : Fin 1)) * acc (ix2 r d) + ∑ j : Fin 512, p (ix2 r j) * v (ix3 (0 : Fin 1) j d) := by
  unfold k1_pay4 k1_pay7
  rw [shapeCast_self, addf_apply, mulf_apply, Cert.Lib.BroadcastReads.broadcastTo_a1_ab_apply (a := 512) (b := 64)]
  refine congrArg (_ + ·) ((Cert.Lib.PlainMatmul.plain_matmul_zero_apply (M := 512) (K := 512) (N := 64) (φ₁ := .bf16) (φ₂ := .bf16)
    _ _ r d).trans ?_)
  exact Finset.sum_congr rfl fun j _ => by rw [shapeCast_1ab_ab_apply (a := 512) (b := 64), truncf_apply]

/-! ## One step, row by row, as the blockwise softmax recursion's step -/

/-- The step's triple, spelt out. -/
theorem stUpd_eq (a1 a2 : BitVec 32) (q k v : Vec Ideal S1x512x64 .bf16) (s : St Ideal) :
    stUpd (F := Ideal) a1 a2 q k v s
      = (k1_pay5 (k1_pay9 a1 a2 q k s.1), k1_pay12 a1 a2 q k s.1 s.2.1,
         k1_pay4 (k1_pay7 v) (k1_pay10 a1 a2 q k s.1) (k1_pay11 a1 a2 q k s.1) s.2.2) := rfl

/-- The starting triple, spelt out. -/
theorem stInit_eq : stInit (F := Ideal) = (k1_pay1 (F := Ideal), k1_pay2 (F := Ideal), k1_pay3 (F := Ideal)) := rfl

/-- The running maximum after the step. -/
theorem stUpd_max (qi ki : Fin 4) (q k v : Vec Ideal S1x512x64 .bf16) (s : St Ideal) (r : Fin 512) :
    (stUpd (F := Ideal) (BitVec.ofNat 32 qi.val) (BitVec.ofNat 32 ki.val) q k v s).1 (ix2 r (0 : Fin 1))
      = mStep 512 (s.1 (ix2 r (0 : Fin 1))) (blockScore qi ki q k r) := by
  rw [stUpd_eq]
  dsimp only
  unfold k1_pay5
  rw [shapeCast_self, k1_pay9_apply]
  exact congrArg _ (funext fun j => k1_pay8_apply qi ki q k r j)

/-- The running denominator after the step. -/
theorem stUpd_den (qi ki : Fin 4) (q k v : Vec Ideal S1x512x64 .bf16) (s : St Ideal) (r : Fin 512) :
    (stUpd (F := Ideal) (BitVec.ofNat 32 qi.val) (BitVec.ofNat 32 ki.val) q k v s).2.1 (ix2 r (0 : Fin 1))
      = lStep 512 (s.1 (ix2 r (0 : Fin 1))) (s.2.1 (ix2 r (0 : Fin 1))) (blockScore qi ki q k r) := by
  rw [stUpd_eq]
  dsimp only
  unfold lStep
  rw [k1_pay12_apply, k1_pay10_apply, k1_pay9_apply]
  simp only [k1_pay11_apply, k1_pay9_apply, k1_pay8_apply]

/-- The running numerator after the step. -/
theorem stUpd_num (qi ki : Fin 4) (q k v : Vec Ideal S1x512x64 .bf16) (s : St Ideal) (r : Fin 512) (d : Fin 64) :
    (stUpd (F := Ideal) (BitVec.ofNat 32 qi.val) (BitVec.ofNat 32 ki.val) q k v s).2.2 (ix2 r d)
      = aStep 512 (s.1 (ix2 r (0 : Fin 1))) (s.2.2 (ix2 r d)) (blockScore qi ki q k r) (fun j => v (ix3 (0 : Fin 1) j d)) := by
  rw [stUpd_eq]
  dsimp only
  unfold aStep
  rw [k1_pay4_apply, k1_pay10_apply, k1_pay9_apply]
  simp only [k1_pay11_apply, k1_pay9_apply, k1_pay8_apply]

/-! ## The start and the end -/

/-- The first key block starts from the bottom element as maximum … -/
theorem stInit_max (r : Fin 512) : (stInit (F := Ideal)).1 (ix2 r (0 : Fin 1)) = ⊥ := by
  rw [stInit_eq]
  dsimp only
  unfold k1_pay1
  rw [shapeCast_self, broadcast_apply, neg_inf_eq]

/-- … zero as denominator … -/
theorem stInit_den (r : Fin 512) : (stInit (F := Ideal)).2.1 (ix2 r (0 : Fin 1)) = 0 := by
  rw [stInit_eq]
  dsimp only
  unfold k1_pay2
  rw [shapeCast_self, broadcast_apply, zero_eq]

/-- … and zero as numerator. -/
theorem stInit_num (r : Fin 512) (d : Fin 64) : (stInit (F := Ideal)).2.2 (ix2 r d) = 0 := by
  rw [stInit_eq]
  dsimp only
  unfold k1_pay3
  rw [shapeCast_self, broadcast_apply, zero_eq]

/-- The stored output at (0, r, d): numerator over denominator. -/
theorem outS_apply (s : St Ideal) (r : Fin 512) (d : Fin 64) :
    outS (F := Ideal) s (ix3 (0 : Fin 1) r d) = Ideal.div (s.2.2 (ix2 r d)) (s.2.1 (ix2 r (0 : Fin 1))) := by
  unfold outS k1_pay6
  rw [shapeCast_ab_1ab_apply (a := 512) (b := 64), truncf_apply, divf_apply,
    Cert.Lib.BroadcastReads.broadcastTo_a1_ab_apply (a := 512) (b := 64)]

end Cert.KernelIdeal.HandValue

end
-- ==== Proof.LibOnlineSoftmax.lean ====
/-
  The blockwise (online) softmax-weighted average equals the one-pass one. Nothing here depends on a particular program.

  Fix a row of K = nb · B real scores e_i and real values v_i, with B > 0 and nb > 0. The blockwise form reads the row in
  nb blocks of B scores; starting from (⊥, 0, 0) it keeps a running maximum, a running total weight and a running weighted
  sum, and at each block rescales the old totals by exp (old maximum - new maximum). The one-pass form shifts every score
  by the row's maximum, normalises each weight by the total weight and sums.

  The idea. After k ≥ 1 blocks the running maximum is some real number m, the running total is Σ_{i < k·B} exp (e_i - m)
  and the running weighted sum is Σ_{i < k·B} exp (e_i - m) · v_i, all real numbers. For the first block this holds
  because ⊥ minus a real is ⊥, exp ⊥ = 0 and 0 · 0 = 0, so the old totals drop out and the new maximum is the block's
  own, a real number since the block is not empty. For a later block, with the old maximum m₀ and the new one m₁,
  exp (m₀ - m₁) · exp (e_i - m₀) = exp (e_i - m₁), and the product distributes over a finite sum of reals. Which real
  number m is does not matter: the quotient (Σ exp (e_i - m) · v_i) / (Σ exp (e_i - m)) is the same for every real m,
  as changing m multiplies both sums by one positive real; and the total is not zero, being a sum of positive reals
  over a nonempty index set. The one-pass form is this quotient at the row's maximum, once dividing a finite sum of
  reals by a nonzero real has been done termwise.
-/
import Mathlib.Analysis.SpecialFunctions.Exp
import Mathlib.Data.Fintype.BigOperators
import Mathlib.Algebra.BigOperators.Group.Finset.Basic
import proofs.«133407_j369367188058_2_alg».proof.Proof.LibOnlineDefs
import proofs.«133407_j369367188058_2_alg».proof.Proof.LibIsReal
import proofs.«133407_j369367188058_2_alg».proof.Proof.LibScaleSum
import proofs.«133407_j369367188058_2_alg».proof.Proof.LibSoftmaxShift

noncomputable section

open scoped BigOperators

open Idealize.ShloMosaic Cert.Reals

namespace Cert.Lib.Online

open Cert.Lib.ScaleSum Cert.Lib.SoftmaxShift

/-! ### Small facts -/

/-- The exponential of a difference of two real numbers, computed on the extended reals. -/
theorem exp_coe_sub (a b : ℝ) : Ideal.exp ((a : EReal) - (b : EReal)) = ((Real.exp (a - b) : ℝ) : EReal) := by
  rw [← EReal.coe_sub]; rfl

/-- A sum over the first `(k+1)·B` positions is the sum over the first `k·B` plus the sum over block `k`. -/
theorem sum_range_succ_block (f : ℕ → ℝ) (B k : ℕ) :
    ∑ i ∈ Finset.range ((k + 1) * B), f i = ∑ i ∈ Finset.range (k * B), f i + ∑ j : Fin B, f (k * B + j.val) := by
  rw [Nat.add_mul, Nat.one_mul, Finset.sum_range_add, Fin.sum_univ_eq_sum_range (fun i => f (k * B + i)) B]

/-- The quotient of the weighted sum by the total weight does not depend on the real shift of the scores. -/
theorem shift_ratio {K : ℕ} (hK : 0 < K) (a x : Fin K → ℝ) (m M : ℝ) :
    (∑ n, Real.exp (a n - m) * x n) * (1 / ∑ n, Real.exp (a n - m))
      = (∑ n, Real.exp (a n - M) * x n) * (1 / ∑ n, Real.exp (a n - M)) := by
  have hne : (Finset.univ : Finset (Fin K)).Nonempty := ⟨⟨0, hK⟩, Finset.mem_univ _⟩
  have hs : ∀ n, Real.exp (a n - m) = Real.exp (a n - M) * Real.exp (M - m) := fun n => by
    rw [← Real.exp_add]; congr 1; ring
  have h1 : ∑ n, Real.exp (a n - m) * x n = (∑ n, Real.exp (a n - M) * x n) * Real.exp (M - m) := by
    rw [Finset.sum_mul]
    exact Finset.sum_congr rfl fun n _ => by rw [hs n]; ring
  have h0 : ∑ n, Real.exp (a n - m) = (∑ n, Real.exp (a n - M)) * Real.exp (M - m) := by
    rw [Finset.sum_mul]
    exact Finset.sum_congr rfl fun n _ => hs n
  have hc : Real.exp (M - m) ≠ 0 := Real.exp_ne_zero _
  have hS : (∑ n, Real.exp (a n - M)) ≠ 0 := (Finset.sum_pos (fun i _ => Real.exp_pos _) hne).ne'
  rw [h1, h0]
  field_simp

/-! ### One block -/

/-- From the bottom element, the new maximum over a nonempty block of real numbers is a real number. -/
theorem mStep_bot_real (B : ℕ) (hB : 0 < B) (S : Fin B → ℝ) :
    ∃ m : ℝ, mStep B ⊥ (fun j => (S j : EReal)) = (m : EReal) :=
  isReal_rowTop hB (fun j => (S j : EReal)) (fun j => isReal_coe _)

/-- From a real number, the new maximum over a nonempty block of real numbers is a real number. -/
theorem mStep_coe_real (B : ℕ) (hB : 0 < B) (m0 : ℝ) (S : Fin B → ℝ) :
    ∃ m : ℝ, mStep B (m0 : EReal) (fun j => (S j : EReal)) = (m : EReal) := by
  obtain ⟨t, ht⟩ := isReal_rowTop hB (fun j => (S j : EReal)) (fun j => isReal_coe _)
  have h2 : (Finset.univ : Finset (Fin B)).fold max ⊥ (fun j => (S j : EReal)) = (t : EReal) := by
    rw [← ht]; unfold rowTop; exact (max_eq_right bot_le).symm
  unfold mStep
  rw [h2]
  exact (isReal_coe m0).max (isReal_coe t)

/-- The first block: from `(⊥, 0, 0)` the old totals drop out, and the new totals are the block's own weights against
    the block's maximum. -/
theorem first_step (B : ℕ) (hB : 0 < B) (S W : Fin B → ℝ) :
    ∃ m : ℝ, mStep B ⊥ (fun j => (S j : EReal)) = (m : EReal)
      ∧ lStep B ⊥ 0 (fun j => (S j : EReal)) = ((∑ j, Real.exp (S j - m) : ℝ) : EReal)
      ∧ aStep B ⊥ 0 (fun j => (S j : EReal)) (fun j => (W j : EReal))
          = ((∑ j, Real.exp (S j - m) * W j : ℝ) : EReal) := by
  obtain ⟨m, hm⟩ := mStep_bot_real B hB S
  refine ⟨m, hm, ?_, ?_⟩
  · unfold lStep
    rw [hm, EReal.bot_sub, Ideal.exp_bot, zero_mul, zero_add, coe_sum]
    exact Finset.sum_congr rfl fun j _ => exp_coe_sub _ _
  · unfold aStep
    rw [hm, EReal.bot_sub, Ideal.exp_bot, zero_mul, zero_add, coe_sum]
    exact Finset.sum_congr rfl fun j _ => by
      show Ideal.exp ((S j : EReal) - (m : EReal)) * (W j : EReal) = _
      rw [exp_coe_sub, EReal.coe_mul]

/-- A later block: from real totals against a real maximum, the new totals are the old ones rescaled to the new maximum
    plus the block's weights against it, all real numbers. -/
theorem later_step (B : ℕ) (hB : 0 < B) (m0 L A : ℝ) (S W : Fin B → ℝ) :
    ∃ m : ℝ, mStep B (m0 : EReal) (fun j => (S j : EReal)) = (m : EReal)
      ∧ lStep B (m0 : EReal) (L : EReal) (fun j => (S j : EReal))
          = ((Real.exp (m0 - m) * L + ∑ j, Real.exp (S j - m) : ℝ) : EReal)
      ∧ aStep B (m0 : EReal) (A : EReal) (fun j => (S j : EReal)) (fun j => (W j : EReal))
          = ((Real.exp (m0 - m) * A + ∑ j, Real.exp (S j - m) * W j : ℝ) : EReal) := by
  obtain ⟨m, hm⟩ := mStep_coe_real B hB m0 S
  refine ⟨m, hm, ?_, ?_⟩
  · unfold lStep
    rw [hm, exp_coe_sub, EReal.coe_add, EReal.coe_mul, coe_sum]
    refine congrArg₂ (· + ·) rfl ?_
    exact Finset.sum_congr rfl fun j _ => exp_coe_sub _ _
  · unfold aStep
    rw [hm, exp_coe_sub, EReal.coe_add, EReal.coe_mul, coe_sum]
    refine congrArg₂ (· + ·) rfl ?_
    exact Finset.sum_congr rfl fun j _ => by
      show Ideal.exp ((S j : EReal) - (m : EReal)) * (W j : EReal) = _
      rw [exp_coe_sub, EReal.coe_mul]

/-! ### The running totals after `k + 1` blocks -/

/-- After `k + 1` blocks of a sequence of real numbers the running maximum is a real number `m`, and the running total
    and weighted sum are the sums of the weights `exp (e_i - m)` over the positions read so far. -/
theorem run_invariant (B : ℕ) (hB : 0 < B) (E V : ℕ → ℝ) (k : ℕ) :
    ∃ m : ℝ, runM B (fun i => (E i : EReal)) (k + 1) = (m : EReal)
      ∧ runL B (fun i => (E i : EReal)) (k + 1)
          = ((∑ i ∈ Finset.range ((k + 1) * B), Real.exp (E i - m) : ℝ) : EReal)
      ∧ runA B (fun i => (E i : EReal)) (fun i => (V i : EReal)) (k + 1)
          = ((∑ i ∈ Finset.range ((k + 1) * B), Real.exp (E i - m) * V i : ℝ) : EReal) := by
  induction k with
  | zero =>
    obtain ⟨m, hm, hl, ha⟩ := first_step B hB (fun j => E (0 * B + j.val)) (fun j => V (0 * B + j.val))
    have h0 : Finset.range (0 * B) = ∅ := by rw [Nat.zero_mul, Finset.range_zero]
    refine ⟨m, hm, ?_, ?_⟩
    · rw [sum_range_succ_block, h0, Finset.sum_empty, zero_add (∑ j : Fin B, Real.exp (E (0 * B + j.val) - m))]
      exact hl
    · rw [sum_range_succ_block (fun i => Real.exp (E i - m) * V i), h0, Finset.sum_empty,
        zero_add (∑ j : Fin B, Real.exp (E (0 * B + j.val) - m) * V (0 * B + j.val))]
      exact ha
  | succ k ih =>
    obtain ⟨m0, hm0, hl0, ha0⟩ := ih
    obtain ⟨m1, hm1, hl1, ha1⟩ := later_step B hB m0
      (∑ i ∈ Finset.range ((k + 1) * B), Real.exp (E i - m0))
      (∑ i ∈ Finset.range ((k + 1) * B), Real.exp (E i - m0) * V i)
      (fun j => E ((k + 1) * B + j.val)) (fun j => V ((k + 1) * B + j.val))
    have hs : ∀ i, Real.exp (m0 - m1) * Real.exp (E i - m0) = Real.exp (E i - m1) := fun i => by
      rw [← Real.exp_add]; congr 1; ring
    refine ⟨m1, ?_, ?_, ?_⟩
    · show mStep B (runM B (fun i => (E i : EReal)) (k + 1)) (blk B (fun i => (E i : EReal)) (k + 1)) = _
      rw [hm0]
      exact hm1
    · show lStep B (runM B (fun i => (E i : EReal)) (k + 1)) (runL B (fun i => (E i : EReal)) (k + 1))
          (blk B (fun i => (E i : EReal)) (k + 1)) = _
      rw [hm0, hl0]
      refine hl1.trans ?_
      rw [sum_range_succ_block (fun i => Real.exp (E i - m1)) B (k + 1), Finset.mul_sum]
      congr 2
      exact Finset.sum_congr rfl fun i _ => hs i
    · show aStep B (runM B (fun i => (E i : EReal)) (k + 1))
          (runA B (fun i => (E i : EReal)) (fun i => (V i : EReal)) (k + 1))
          (blk B (fun i => (E i : EReal)) (k + 1)) (blk B (fun i => (V i : EReal)) (k + 1)) = _
      rw [hm0, ha0]
      refine ha1.trans ?_
      rw [sum_range_succ_block (fun i => Real.exp (E i - m1) * V i) B (k + 1), Finset.mul_sum]
      congr 2
      exact Finset.sum_congr rfl fun i _ => by rw [← mul_assoc, hs i]

/-! ### A row of real numbers as a sequence -/

/-- A row of `K` real numbers continued by zeros. -/
def realSeq {K : ℕ} (a : Fin K → ℝ) : ℕ → ℝ := fun i => if h : i < K then a ⟨i, h⟩ else 0

theorem realSeq_val {K : ℕ} (a : Fin K → ℝ) (n : Fin K) : realSeq a n.val = a n := by
  unfold realSeq; rw [dif_pos n.isLt]

/-- Continuing a row of coerced real numbers by zeros is coercing the continued row. -/
theorem seqOf_coe {K : ℕ} (a : Fin K → ℝ) : seqOf (fun n => (a n : EReal)) = fun i => (realSeq a i : EReal) := by
  funext i
  unfold seqOf realSeq
  by_cases h : i < K
  · rw [dif_pos h, dif_pos h]
  · rw [dif_neg h, dif_neg h]; rfl

/-! ### The law -/

/-- The blockwise softmax-weighted average over `nb` blocks of `B` scores equals the one-pass average of the whole row,
    for real scores and real values. -/
theorem online_eq_attnRef (B nb K : ℕ) (hB : 0 < B) (hnb : 0 < nb) (hK : nb * B = K) (e v : Fin K → EReal)
    (he : ∀ i, IsReal (e i)) (hv : ∀ i, IsReal (v i)) :
    Ideal.div (runA B (seqOf e) (seqOf v) nb) (runL B (seqOf e) nb) = attnRef e v := by
  have hKpos : 0 < K := hK ▸ Nat.mul_pos hnb hB
  have hne : (Finset.univ : Finset (Fin K)).Nonempty := ⟨⟨0, hKpos⟩, Finset.mem_univ _⟩
  obtain ⟨M, hM⟩ := isReal_rowTop hKpos e he
  choose e' he' using he
  choose v' hv' using hv
  obtain rfl : e = fun n => ((e' n : ℝ) : EReal) := funext he'
  obtain rfl : v = fun n => ((v' n : ℝ) : EReal) := funext hv'
  obtain ⟨k, rfl⟩ : ∃ k, nb = k + 1 := Nat.exists_eq_succ_of_ne_zero hnb.ne'
  obtain ⟨m, -, hl, ha⟩ := run_invariant B hB (realSeq e') (realSeq v') k
  -- the blockwise side, as a quotient of two real sums over the row
  have hl' : runL B (seqOf fun n => ((e' n : ℝ) : EReal)) (k + 1) = ((∑ n, Real.exp (e' n - m) : ℝ) : EReal) := by
    rw [seqOf_coe, hl, hK, ← Fin.sum_univ_eq_sum_range (fun i => Real.exp (realSeq e' i - m)) K]
    simp only [realSeq_val]
  have ha' : runA B (seqOf fun n => ((e' n : ℝ) : EReal)) (seqOf fun n => ((v' n : ℝ) : EReal)) (k + 1)
      = ((∑ n, Real.exp (e' n - m) * v' n : ℝ) : EReal) := by
    rw [seqOf_coe, seqOf_coe, ha, hK,
      ← Fin.sum_univ_eq_sum_range (fun i => Real.exp (realSeq e' i - m) * realSeq v' i) K]
    simp only [realSeq_val]
  -- the one-pass side, as the same quotient at the row's maximum
  have hwTop : ∀ n, wTop (fun n => ((e' n : ℝ) : EReal)) n = ((Real.exp (e' n - M) : ℝ) : EReal) := fun n => by
    unfold wTop; rw [hM]; exact exp_coe_sub _ _
  have hm0 : (∑ n, Real.exp (e' n - m)) ≠ 0 := (Finset.sum_pos (fun i _ => Real.exp_pos _) hne).ne'
  have hM0 : (∑ n, Real.exp (e' n - M)) ≠ 0 := (Finset.sum_pos (fun i _ => Real.exp_pos _) hne).ne'
  have hpos : ∑ n, wTop (fun n => ((e' n : ℝ) : EReal)) n ≠ 0 := by
    simp only [hwTop, ← coe_sum]
    exact fun h => hM0 (by exact_mod_cast h)
  unfold attnRef
  simp only [zero_add]
  rw [← scale_sum (wTop fun n => ((e' n : ℝ) : EReal)) (fun n => ((v' n : ℝ) : EReal))
    (fun n => ⟨_, hwTop n⟩) (fun n => isReal_coe _) hpos, ha', hl']
  simp only [hwTop, ← EReal.coe_mul, ← coe_sum]
  rw [Ideal.div_coe hm0, Ideal.div_coe hM0, ← EReal.coe_mul, ← EReal.coe_mul, EReal.coe_eq_coe_iff]
  exact shift_ratio hKpos e' v' m M

end Cert.Lib.Online

end
-- ==== Proof.LibCausalOnline.lean ====
/-
  The blockwise (online) softmax-weighted average over a row with masked scores equals the one-pass average of the
  whole row.  Nothing here depends on a particular program.

  Fix a row of K scores e_n, each a real number or the bottom element ("masked"), and real values v_n.  The blockwise
  form reads only the first nb blocks of B scores (nb · B ≤ K) and keeps a running maximum, a running total weight and
  a running weighted sum, rescaling the old totals by exp (old maximum - new maximum) at each block.  The first score
  is a real number and every score past the blocks read is masked.  The one-pass form shifts all K scores by the row's
  maximum, normalises each weight by the total weight and sums.

  The idea.  For a score x below the top element and a real shift M write w(x, M) for exp (x - M) when x is real and 0
  when x is masked; on the extended reals exp (x - M) is this real number, because the bottom element minus a real is
  the bottom element and exp of the bottom element is 0.  Changing the shift multiplies every weight by one positive
  real: exp (M - M') · w(x, M) = w(x, M').  Taking the running maximum itself as a "score", the running totals satisfy,
  after any number k of blocks and for EVERY real M,
      w(running maximum, M) · (running total)        = Σ_{i < k·B} w(e_i, M),
      w(running maximum, M) · (running weighted sum) = Σ_{i < k·B} w(e_i, M) · v_i :
  the totals, rescaled from the running maximum to M, are the sums of the weights against M.  At the start both sides
  are zero; a block adds its own weights and rescales, and the rule for changing the shift carries the identity over.
  After at least one block the running maximum is a real number m (it is at least the first score, and no score is
  the top element), so at M = m the left factors are 1 and the totals are the plain sums of weights against m.  The
  masked tail adds nothing to either sum, so these are sums over the whole row.  The one-pass form is the quotient of
  the same two sums against the row's maximum, once dividing a finite sum of reals by a nonzero real has been done
  termwise; the quotient does not depend on the shift, and the total weight is positive because the first score's
  weight is.
-/
import Mathlib.Analysis.SpecialFunctions.Exp
import Mathlib.Data.Fintype.BigOperators
import Mathlib.Algebra.BigOperators.Group.Finset.Basic
import proofs.«133407_j369367188058_2_alg».proof.Proof.LibOnlineDefs
import proofs.«133407_j369367188058_2_alg».proof.Proof.LibOnlineSoftmax
import proofs.«133407_j369367188058_2_alg».proof.Proof.LibSoftmaxShift
import proofs.«133407_j369367188058_2_alg».proof.Proof.LibIsReal
import proofs.«133407_j369367188058_2_alg».proof.Proof.LibScaleSum

noncomputable section

open scoped BigOperators

open Idealize.ShloMosaic Cert.Reals

namespace Cert.Lib.CausalOnline

open Cert.Lib.Online Cert.Lib.ScaleSum Cert.Lib.SoftmaxShift

/-! ### The weight of a score that may be masked -/

/-- The weight of a score against a real shift: `exp (x - m)` for a real score, zero for a masked one. -/
def ew (x : EReal) (m : ℝ) : ℝ := if x = ⊥ then 0 else Real.exp (x.toReal - m)

theorem ew_bot (m : ℝ) : ew ⊥ m = 0 := if_pos rfl

theorem ew_coe (a m : ℝ) : ew (a : EReal) m = Real.exp (a - m) := by
  unfold ew; rw [if_neg (EReal.coe_ne_bot a), EReal.toReal_coe]

theorem ew_nonneg (x : EReal) (m : ℝ) : 0 ≤ ew x m := by
  unfold ew; split_ifs
  · exact le_rfl
  · exact (Real.exp_pos _).le

/-- Changing the shift multiplies every weight by the same positive real. -/
theorem ew_shift (x : EReal) (m m' : ℝ) : Real.exp (m - m') * ew x m = ew x m' := by
  unfold ew
  split_ifs
  · exact mul_zero _
  · rw [← Real.exp_add]; congr 1; ring

/-- On the extended reals the exponential of a score below the top element, shifted by a real number, is the weight. -/
theorem exp_sub_coe {x : EReal} (hx : x ≠ ⊤) (m : ℝ) : Ideal.exp (x - (m : EReal)) = ((ew x m : ℝ) : EReal) := by
  induction x using EReal.rec with
  | bot => rw [EReal.bot_sub, Ideal.exp_bot, ew_bot]; rfl
  | top => exact absurd rfl hx
  | coe a => rw [ew_coe]; exact exp_coe_sub a m

/-! ### The running maximum -/

/-- The maximum over a block of scores below the top element is below the top element. -/
theorem fold_ne_top {B : ℕ} (s : Fin B → EReal) (hs : ∀ j, s j ≠ ⊤) :
    (Finset.univ : Finset (Fin B)).fold max ⊥ s ≠ ⊤ :=
  ne_of_lt ((Finset.fold_max_lt _).mpr ⟨bot_lt_top, fun j _ => lt_top_iff_ne_top.mpr (hs j)⟩)

theorem mStep_ne_top (B : ℕ) {mp : EReal} (hmp : mp ≠ ⊤) (s : Fin B → EReal) (hs : ∀ j, s j ≠ ⊤) :
    mStep B mp s ≠ ⊤ :=
  ne_of_lt (max_lt (lt_top_iff_ne_top.mpr hmp) (lt_top_iff_ne_top.mpr (fold_ne_top s hs)))

/-- The running maximum never reaches the top element when no score does. -/
theorem runM_ne_top (B : ℕ) (E : ℕ → EReal) (hE : ∀ i, E i ≠ ⊤) : ∀ k, runM B E k ≠ ⊤
  | 0 => bot_ne_top
  | k + 1 => mStep_ne_top B (runM_ne_top B E hE k) (blk B E k) (fun j => hE (k * B + j.val))

/-- After at least one block the running maximum is at least the first score. -/
theorem le_runM_succ (B : ℕ) (hB : 0 < B) (E : ℕ → EReal) : ∀ k, E 0 ≤ runM B E (k + 1)
  | 0 => by
    show E 0 ≤ max ⊥ ((Finset.univ : Finset (Fin B)).fold max ⊥ (blk B E 0))
    refine le_max_of_le_right ((Finset.le_fold_max _).mpr (Or.inr ⟨⟨0, hB⟩, Finset.mem_univ _, ?_⟩))
    show E 0 ≤ E (0 * B + 0)
    rw [Nat.zero_mul]
  | k + 1 => (le_runM_succ B hB E k).trans (le_max_left _ _)

/-- After at least one block the running maximum is a real number, the first score being one. -/
theorem runM_succ_real (B : ℕ) (hB : 0 < B) (E : ℕ → EReal) (hE : ∀ i, E i ≠ ⊤) (h0 : IsReal (E 0)) (k : ℕ) :
    IsReal (runM B E (k + 1)) := by
  refine isReal_of_ne ?_ (runM_ne_top B E hE (k + 1))
  obtain ⟨a, ha⟩ := h0
  intro hb
  have h := le_runM_succ B hB E k
  rw [hb, ha] at h
  exact absurd (le_bot_iff.mp h) (EReal.coe_ne_bot a)

/-! ### One block -/

/-- One block, from real totals and an old maximum below the top element, the new maximum being a real number `m`:
    the new totals are the old ones times the old maximum's weight against `m`, plus the block's weights against `m`. -/
theorem step_totals (B : ℕ) {mp : EReal} (hmp : mp ≠ ⊤) (L A : ℝ) (s : Fin B → EReal) (hs : ∀ j, s j ≠ ⊤)
    (W : Fin B → ℝ) (m : ℝ) (hm : mStep B mp s = (m : EReal)) :
    lStep B mp (L : EReal) s = ((ew mp m * L + ∑ j, ew (s j) m : ℝ) : EReal)
      ∧ aStep B mp (A : EReal) s (fun j => (W j : EReal))
          = ((ew mp m * A + ∑ j, ew (s j) m * W j : ℝ) : EReal) := by
  constructor
  · unfold lStep
    rw [hm, exp_sub_coe hmp, EReal.coe_add, EReal.coe_mul, coe_sum]
    exact congrArg₂ (· + ·) rfl (Finset.sum_congr rfl fun j _ => exp_sub_coe (hs j) m)
  · unfold aStep
    rw [hm, exp_sub_coe hmp, EReal.coe_add, EReal.coe_mul, coe_sum]
    refine congrArg₂ (· + ·) rfl (Finset.sum_congr rfl fun j _ => ?_)
    rw [exp_sub_coe (hs j), EReal.coe_mul]

/-! ### The running totals, rescaled to any real shift -/

/-- After `k` blocks the running totals are real numbers, and rescaled from the running maximum to any real shift `M`
    they are the sums of the weights against `M` over the positions read so far. -/
theorem run_rescaled (B : ℕ) (hB : 0 < B) (E : ℕ → EReal) (V : ℕ → ℝ) (hE : ∀ i, E i ≠ ⊤) (h0 : IsReal (E 0))
    (k : ℕ) :
    ∃ L A : ℝ, runL B E k = (L : EReal) ∧ runA B E (fun i => (V i : EReal)) k = (A : EReal)
      ∧ ∀ M : ℝ, ew (runM B E k) M * L = ∑ i ∈ Finset.range (k * B), ew (E i) M
          ∧ ew (runM B E k) M * A = ∑ i ∈ Finset.range (k * B), ew (E i) M * V i := by
  induction k with
  | zero =>
    refine ⟨0, 0, rfl, rfl, fun M => ?_⟩
    rw [Nat.zero_mul, Finset.range_zero, Finset.sum_empty, Finset.sum_empty, mul_zero]
    exact ⟨rfl, rfl⟩
  | succ k ih =>
    obtain ⟨L, A, hL, hA, hall⟩ := ih
    obtain ⟨m, hm⟩ := runM_succ_real B hB E hE h0 k
    obtain ⟨hl, ha⟩ := step_totals B (runM_ne_top B E hE k) L A (blk B E k) (fun j => hE (k * B + j.val))
      (fun j => V (k * B + j.val)) m hm
    obtain ⟨h1, h2⟩ := hall m
    refine ⟨ew (runM B E k) m * L + ∑ j, ew (blk B E k j) m,
      ew (runM B E k) m * A + ∑ j, ew (blk B E k j) m * V (k * B + j.val), ?_, ?_, fun M => ?_⟩
    · show lStep B (runM B E k) (runL B E k) (blk B E k) = _
      rw [hL]; exact hl
    · show aStep B (runM B E k) (runA B E (fun i => (V i : EReal)) k) (blk B E k)
        (blk B (fun i => (V i : EReal)) k) = _
      rw [hA]; exact ha
    · rw [hm, ew_coe, h1, h2]
      constructor
      · rw [sum_range_succ_block (fun i => ew (E i) M) B k, mul_add, Finset.mul_sum, Finset.mul_sum]
        exact congrArg₂ (· + ·) (Finset.sum_congr rfl fun i _ => ew_shift _ _ _)
          (Finset.sum_congr rfl fun j _ => ew_shift _ _ _)
      · rw [sum_range_succ_block (fun i => ew (E i) M * V i) B k, mul_add, Finset.mul_sum, Finset.mul_sum]
        exact congrArg₂ (· + ·)
          (Finset.sum_congr rfl fun i _ => by rw [← mul_assoc, ew_shift])
          (Finset.sum_congr rfl fun j _ => by rw [← mul_assoc, ew_shift]; rfl)

/-! ### The row's maximum -/

/-- The maximum of a row whose first score is a real number and none of whose scores is the top element is a real
    number. -/
theorem rowTop_real {K : ℕ} (hK : 0 < K) (e : Fin K → EReal) (he : ∀ n, e n ≠ ⊤) (h0 : IsReal (e ⟨0, hK⟩)) :
    IsReal (rowTop e) := by
  unfold rowTop
  rw [max_eq_right bot_le]
  refine isReal_of_ne ?_ (fold_ne_top e he)
  obtain ⟨a, ha⟩ := h0
  have h : e ⟨0, hK⟩ ≤ (Finset.univ : Finset (Fin K)).fold max ⊥ e :=
    (Finset.le_fold_max _).mpr (Or.inr ⟨⟨0, hK⟩, Finset.mem_univ _, le_rfl⟩)
  intro hb
  rw [hb, ha] at h
  exact absurd (le_bot_iff.mp h) (EReal.coe_ne_bot a)

/-! ### The law -/

/-- The blockwise softmax-weighted average over the first `nb` blocks of `B` scores equals the one-pass average of the
    whole row of `K ≥ nb · B` scores, when every score is a real number or masked, the first one is a real number, every
    score past the blocks read is masked, and the values are real numbers. -/
theorem causal_online_eq_attnRef (B nb K : ℕ) (hB : 0 < B) (hnb : 0 < nb) (hK : nb * B ≤ K)
    (e v : Fin K → EReal)
    (he : ∀ n, e n = ⊥ ∨ IsReal (e n)) (hv : ∀ n, IsReal (v n))
    (h0 : IsReal (e ⟨0, by have := Nat.mul_pos hnb hB; omega⟩))
    (hmask : ∀ n : Fin K, nb * B ≤ n.val → e n = ⊥) :
    Ideal.div (runA B (seqOf e) (seqOf v) nb) (runL B (seqOf e) nb) = attnRef e v := by
  have hKpos : 0 < K := lt_of_lt_of_le (Nat.mul_pos hnb hB) hK
  have hne : ∀ n, e n ≠ ⊤ := fun n => by
    rcases he n with h | ⟨a, h⟩
    · rw [h]; exact bot_ne_top
    · rw [h]; exact EReal.coe_ne_top a
  have hE : ∀ i, seqOf e i ≠ ⊤ := fun i => by
    unfold seqOf
    split_ifs with h
    · exact hne _
    · exact EReal.zero_ne_top
  have hE0 : IsReal (seqOf e 0) := by rw [seqOf_of_lt e 0 hKpos]; exact h0
  obtain ⟨a0, ha0⟩ := h0
  choose v' hv' using hv
  obtain rfl : v = fun n => ((v' n : ℝ) : EReal) := funext hv'
  obtain ⟨k, rfl⟩ : ∃ k, nb = k + 1 := Nat.exists_eq_succ_of_ne_zero hnb.ne'
  -- the blockwise side: the plain sums of weights against the final running maximum, over the blocks read
  obtain ⟨m, hm⟩ := runM_succ_real B hB (seqOf e) hE hE0 k
  obtain ⟨L, A, hL, hA, hall⟩ := run_rescaled B hB (seqOf e) (realSeq v') hE hE0 (k + 1)
  obtain ⟨h1, h2⟩ := hall m
  rw [hm, ew_coe, sub_self, Real.exp_zero, one_mul] at h1 h2
  -- a sum over the blocks read is a sum over the whole row when the terms past them vanish
  have hrow : ∀ f : ℕ → ℝ, (∀ n : Fin K, (k + 1) * B ≤ n.val → f n.val = 0) →
      ∑ i ∈ Finset.range ((k + 1) * B), f i = ∑ n : Fin K, f n.val := fun f hf => by
    rw [Fin.sum_univ_eq_sum_range f K]
    refine Finset.sum_subset (Finset.range_mono hK) fun i hi hni => ?_
    rw [Finset.mem_range] at hi hni
    exact hf ⟨i, hi⟩ (not_lt.mp hni)
  have hseq : ∀ n : Fin K, seqOf e n.val = e n := fun n => seqOf_of_lt e n.val n.isLt
  have hL' : L = ∑ n : Fin K, ew (e n) m := by
    rw [h1, hrow (fun i => ew (seqOf e i) m) fun n hn => by
      show ew (seqOf e n.val) m = 0
      rw [hseq, hmask n hn, ew_bot]]
    exact Finset.sum_congr rfl fun n _ => by rw [hseq]
  have hA' : A = ∑ n : Fin K, ew (e n) m * v' n := by
    rw [h2, hrow (fun i => ew (seqOf e i) m * realSeq v' i) fun n hn => by
      show ew (seqOf e n.val) m * realSeq v' n.val = 0
      rw [hseq, hmask n hn, ew_bot, zero_mul]]
    exact Finset.sum_congr rfl fun n _ => by rw [hseq, realSeq_val]
  -- the one-pass side: the same two sums against the row's maximum
  obtain ⟨M, hM⟩ := rowTop_real hKpos e hne ⟨a0, ha0⟩
  have hwTop : ∀ n, wTop e n = ((ew (e n) M : ℝ) : EReal) := fun n => by
    unfold wTop; rw [hM]; exact exp_sub_coe (hne n) M
  have hpos : ∀ c : ℝ, 0 < ∑ n : Fin K, ew (e n) c := fun c => by
    refine lt_of_lt_of_le ?_
      (Finset.single_le_sum (f := fun n => ew (e n) c) (fun n _ => ew_nonneg _ _) (Finset.mem_univ ⟨0, hKpos⟩))
    show 0 < ew (e ⟨0, hKpos⟩) c
    rw [ha0, ew_coe]; exact Real.exp_pos _
  have hm0 : (∑ n : Fin K, ew (e n) m) ≠ 0 := (hpos m).ne'
  have hM0 : (∑ n : Fin K, ew (e n) M) ≠ 0 := (hpos M).ne'
  have htot : ∑ n, wTop e n ≠ 0 := by
    simp only [hwTop, ← coe_sum]
    exact fun h => hM0 (by exact_mod_cast h)
  unfold attnRef
  simp only [zero_add]
  rw [← scale_sum (wTop e) (fun n => ((v' n : ℝ) : EReal)) (fun n => ⟨_, hwTop n⟩) (fun n => isReal_coe _) htot,
    seqOf_coe, hA, hL, hA', hL']
  simp only [hwTop, ← EReal.coe_mul, ← coe_sum]
  rw [Ideal.div_coe hm0, Ideal.div_coe hM0, ← EReal.coe_mul, ← EReal.coe_mul, EReal.coe_eq_coe_iff]
  -- the quotient does not depend on the shift
  have hc : Real.exp (m - M) ≠ 0 := Real.exp_ne_zero _
  have hS : ∑ n : Fin K, ew (e n) M = Real.exp (m - M) * ∑ n : Fin K, ew (e n) m := by
    rw [Finset.mul_sum]; exact Finset.sum_congr rfl fun n _ => (ew_shift _ _ _).symm
  have hT : ∑ n : Fin K, ew (e n) M * v' n = Real.exp (m - M) * ∑ n : Fin K, ew (e n) m * v' n := by
    rw [Finset.mul_sum]; exact Finset.sum_congr rfl fun n _ => by rw [← mul_assoc, ew_shift]
  rw [hS, hT]
  field_simp

end Cert.Lib.CausalOnline

end
-- ==== Proof.Math.FlashRow.lean ====
/-
  One query row of the flash-attention kernel over its four key blocks, on the extended reals.

  Fix a query block qi (of four) and a row r of it; the row's position is t = qi·512 + r.  Over all 2048 key positions
  n the row's score is (query row · key row n) · scale when n ≤ t and the bottom element when n > t.  The kernel visits
  key blocks 0, 1, 2, 3 in order: block 0 resets the triple (running maximum, denominator, numerator); a block not
  beyond qi performs one step of the blockwise softmax recursion on its 512 scores; a block beyond qi leaves the triple
  alone.  So after the four grid points row r of the triple holds the recursion's totals after qi + 1 blocks, and every
  score past those blocks is masked.  The blockwise law for masked rows then says numerator over denominator is the
  one-pass softmax-weighted average of the value rows over all 2048 positions: causal attention at position t.  The
  law needs the first score to be a real number (position 0 is never masked) and the entries of the query row, the key
  rows and the value rows to be real numbers.
-/
import proofs.«133407_j369367188058_2_alg».proof.Proof.Math.FlashStep
import proofs.«133407_j369367188058_2_alg».proof.Proof.LibCausalOnline

noncomputable section

open scoped BigOperators

namespace Cert.KernelIdeal.HandValue

open Idealize.ShloMosaic Idealize.ShloMosaic.ValueIdx Idealize.SL.Sem Cert.KernelIdeal Cert.KernelIdeal.Gen Cert.KernelIdeal.Hand
open Cert.Lib.Online Cert.Reals

/-! ## The scale constant -/

/-- The scale constant is one eighth. -/
theorem scale_eq : Ideal.ofBits .f32 0x3E000000#32 = (((1 : ℝ) / 8 : ℝ) : EReal) := by
  simp [Ideal.ofBits, Ideal.ieee, -EReal.coe_mul]; norm_num

/-- The scale constant is a real number. -/
theorem scale_isReal : IsReal (Ideal.ofBits .f32 0x3E000000#32) := ⟨_, scale_eq⟩

/-! ## A row's scores over all key positions -/

/-- The score of the query row at position `t` against key position `n`: scaled inner product up to the diagonal, masked
    beyond it. -/
def rowScore (t : ℕ) (qrow : Fin 64 → EReal) (krow : Fin 2048 → Fin 64 → EReal) (n : Fin 2048) : EReal :=
  if n.val ≤ t then (∑ e : Fin 64, qrow e * krow n e) * Ideal.ofBits .f32 0x3E000000#32 else ⊥

/-- Every score is masked or a real number. -/
theorem rowScore_bot_or_real (t : ℕ) (qrow : Fin 64 → EReal) (krow : Fin 2048 → Fin 64 → EReal)
    (rq : ∀ e, IsReal (qrow e)) (rk : ∀ n e, IsReal (krow n e)) (n : Fin 2048) :
    rowScore t qrow krow n = ⊥ ∨ IsReal (rowScore t qrow krow n) := by
  unfold rowScore
  split_ifs
  · exact Or.inr ((isReal_sum _ _ fun e _ => (rq e).mul (rk n e)).mul scale_isReal)
  · exact Or.inl rfl

/-! ## What a grid point does to the triple -/

/-- A key block not beyond the query block: one step, from the starting triple if it is the first block. -/
theorem stepS_visit (i : grid1.Coords) (qi ki : Fin 4) (h1 : (i 1).val = qi.val) (h2 : (i 2).val = ki.val) (hle : ki.val ≤ qi.val)
    (q k v : Vec Ideal S1x512x64 .bf16) (s : St Ideal) :
    stepS (F := Ideal) i q k v s
      = stUpd (F := Ideal) (BitVec.ofNat 32 qi.val) (BitVec.ofNat 32 ki.val) q k v (if ki.val = 0 then stInit else s) := by
  unfold stepS
  simp only [h1, h2, hle, if_true]

/-- A key block beyond the query block leaves the triple alone. -/
theorem stepS_skip (i : grid1.Coords) (h : (i 1).val < (i 2).val) (q k v : Vec Ideal S1x512x64 .bf16) (s : St Ideal) :
    stepS (F := Ideal) i q k v s = s := by
  unfold stepS
  have h0 : ¬(i 2).val = 0 := by omega
  have h3 : ¬(i 2).val ≤ (i 1).val := by omega
  simp only [h0, h3, if_false]

/-! ## Row r of the triple against the recursion -/

/-- Row `r` of the triple (and column `d` of its numerator) holds the recursion's totals after `n` blocks. -/
def RowIs (s : St Ideal) (r : Fin 512) (d : Fin 64) (E V : ℕ → EReal) (n : ℕ) : Prop :=
  s.1 (ix2 r (0 : Fin 1)) = runM 512 E n ∧ s.2.1 (ix2 r (0 : Fin 1)) = runL 512 E n ∧ s.2.2 (ix2 r d) = runA 512 E V n

section Row

variable (qi : Fin 4) (r : Fin 512) (d : Fin 64)
  (qrow : Fin 64 → EReal) (krow vrow : Fin 2048 → Fin 64 → EReal)
  (i : Fin 4 → grid1.Coords) (qb kb vb : Fin 4 → Vec Ideal S1x512x64 .bf16)

/-- Key block `c`'s 512 scores of row `r` are block `c` of the row's scores over all positions. -/
theorem blockScore_eq_blk (c : Fin 4) (hle : c.val ≤ qi.val)
    (hq : ∀ e, (qb c) (ix3 (0 : Fin 1) r e) = qrow e)
    (hk : ∀ (j : Fin 512) (e : Fin 64), (kb c) (ix3 (0 : Fin 1) j e) = krow ⟨c.val * 512 + j.val, by omega⟩ e) :
    blockScore qi c (qb c) (kb c) r = blk 512 (seqOf (rowScore (qi.val * 512 + r.val) qrow krow)) c.val := by
  funext j
  unfold blk blockScore
  rw [seqOf_of_lt _ _ (by omega : c.val * 512 + j.val < 2048)]
  unfold rowScore
  simp only [hq, hk]

/-- Key block `c`'s 512 value entries in column `d` are block `c` of the value column over all positions. -/
theorem values_eq_blk (c : Fin 4)
    (hv : ∀ j : Fin 512, (vb c) (ix3 (0 : Fin 1) j d) = vrow ⟨c.val * 512 + j.val, by omega⟩ d) :
    (fun j : Fin 512 => (vb c) (ix3 (0 : Fin 1) j d)) = blk 512 (seqOf fun n : Fin 2048 => vrow n d) c.val := by
  funext j
  unfold blk
  rw [seqOf_of_lt _ _ (by omega : c.val * 512 + j.val < 2048)]
  exact hv j

/-- One grid point advances row `r`: a visited key block by one block of the recursion, a skipped one not at all. -/
theorem advance (c : Fin 4) (n : ℕ) (hn : c.val = n) (h1 : (i c 1).val = qi.val) (h2 : (i c 2).val = c.val)
    (hq : c.val ≤ qi.val → ∀ e, (qb c) (ix3 (0 : Fin 1) r e) = qrow e)
    (hk : c.val ≤ qi.val → ∀ (j : Fin 512) (e : Fin 64), (kb c) (ix3 (0 : Fin 1) j e) = krow ⟨c.val * 512 + j.val, by omega⟩ e)
    (hv : c.val ≤ qi.val → ∀ j : Fin 512, (vb c) (ix3 (0 : Fin 1) j d) = vrow ⟨c.val * 512 + j.val, by omega⟩ d)
    (s : St Ideal)
    (hprev : n = 0 ∨ RowIs s r d (seqOf (rowScore (qi.val * 512 + r.val) qrow krow)) (seqOf fun m : Fin 2048 => vrow m d)
      (min n (qi.val + 1))) :
    RowIs (stepS (F := Ideal) (i c) (qb c) (kb c) (vb c) s) r d (seqOf (rowScore (qi.val * 512 + r.val) qrow krow))
      (seqOf fun m : Fin 2048 => vrow m d) (min (n + 1) (qi.val + 1)) := by
  subst hn
  by_cases hle : c.val ≤ qi.val
  · have e1 : min c.val (qi.val + 1) = c.val := by omega
    have e2 : min (c.val + 1) (qi.val + 1) = c.val + 1 := by omega
    rw [e1] at hprev
    rw [e2, stepS_visit (i c) qi c h1 h2 hle]
    -- the triple the step starts from holds the totals after c blocks
    have hs : RowIs (if c.val = 0 then stInit else s) r d (seqOf (rowScore (qi.val * 512 + r.val) qrow krow))
        (seqOf fun m : Fin 2048 => vrow m d) c.val := by
      by_cases h0 : c.val = 0
      · rw [if_pos h0, h0]
        exact ⟨stInit_max r, stInit_den r, stInit_num r d⟩
      · rw [if_neg h0]
        exact hprev.resolve_left h0
    obtain ⟨hm, hl, ha⟩ := hs
    have eS := blockScore_eq_blk qi r qrow krow qb kb c hle (hq hle) (hk hle)
    have eV := values_eq_blk d vrow vb c (hv hle)
    refine ⟨?_, ?_, ?_⟩
    · rw [stUpd_max, hm, eS]; rfl
    · rw [stUpd_den, hm, hl, eS]; rfl
    · rw [stUpd_num, hm, ha, eS, eV]; rfl
  · have hlt : (i c 1).val < (i c 2).val := by omega
    have h0 : ¬c.val = 0 := by omega
    have e : min (c.val + 1) (qi.val + 1) = min c.val (qi.val + 1) := by omega
    rw [stepS_skip (i c) hlt, e]
    exact hprev.resolve_left h0

/-- After the four grid points of query block `qi`, the stored output at row `r`, column `d` is causal attention at
    position `qi·512 + r`: the one-pass softmax-weighted average of column `d` of the value rows under the row's scores
    over all 2048 key positions. -/
theorem flash_row
    (h1 : ∀ c, (i c 1).val = qi.val) (h2 : ∀ c, (i c 2).val = c.val)
    (hq : ∀ c : Fin 4, c.val ≤ qi.val → ∀ e, (qb c) (ix3 (0 : Fin 1) r e) = qrow e)
    (hk : ∀ c : Fin 4, c.val ≤ qi.val → ∀ (j : Fin 512) (e : Fin 64),
      (kb c) (ix3 (0 : Fin 1) j e) = krow ⟨c.val * 512 + j.val, by omega⟩ e)
    (hv : ∀ c : Fin 4, c.val ≤ qi.val → ∀ j : Fin 512, (vb c) (ix3 (0 : Fin 1) j d) = vrow ⟨c.val * 512 + j.val, by omega⟩ d)
    (rq : ∀ e, IsReal (qrow e)) (rk : ∀ n e, IsReal (krow n e)) (rv : ∀ n, IsReal (vrow n d))
    (s0 : St Ideal) :
    outS (F := Ideal)
        (stepS (F := Ideal) (i 3) (qb 3) (kb 3) (vb 3) (stepS (F := Ideal) (i 2) (qb 2) (kb 2) (vb 2)
          (stepS (F := Ideal) (i 1) (qb 1) (kb 1) (vb 1) (stepS (F := Ideal) (i 0) (qb 0) (kb 0) (vb 0) s0))))
        (ix3 (0 : Fin 1) r d)
      = attnRef (rowScore (qi.val * 512 + r.val) qrow krow) (fun n : Fin 2048 => vrow n d) := by
  have a0 := advance qi r d qrow krow vrow i qb kb vb 0 0 rfl (h1 0) (h2 0) (hq 0) (hk 0) (hv 0) s0 (Or.inl rfl)
  have a1 := advance qi r d qrow krow vrow i qb kb vb 1 1 rfl (h1 1) (h2 1) (hq 1) (hk 1) (hv 1) _ (Or.inr a0)
  have a2 := advance qi r d qrow krow vrow i qb kb vb 2 2 rfl (h1 2) (h2 2) (hq 2) (hk 2) (hv 2) _ (Or.inr a1)
  have a3 := advance qi r d qrow krow vrow i qb kb vb 3 3 rfl (h1 3) (h2 3) (hq 3) (hk 3) (hv 3) _ (Or.inr a2)
  have e4 : min (3 + 1) (qi.val + 1) = qi.val + 1 := by omega
  rw [e4] at a3
  obtain ⟨-, hl, ha⟩ := a3
  rw [outS_apply, ha, hl]
  refine Cert.Lib.CausalOnline.causal_online_eq_attnRef 512 (qi.val + 1) 2048 (by norm_num) (by omega) (by omega)
    (rowScore (qi.val * 512 + r.val) qrow krow) (fun n : Fin 2048 => vrow n d)
    (rowScore_bot_or_real _ qrow krow rq rk) rv ?_ ?_
  · unfold rowScore
    rw [if_pos (Nat.zero_le _)]
    exact (isReal_sum _ _ fun e _ => (rq e).mul (rk _ e)).mul scale_isReal
  · intro n hn
    unfold rowScore
    rw [if_neg (by omega)]

end Row

end Cert.KernelIdeal.HandValue

end
-- ==== Proof.Math.FlashRowSpec.lean ====
/-
  The flash-attention kernel's stored output, row by row, against the layer's staged specification: after the four grid
  points of query block qi of batch b, head h, the output block at row r, lane d is the specification's causal
  attention of the head-major arrays at batch b, head h, position qi·512 + r, lane d.  The blocks the visited grid
  points load are rows of those arrays; the word of 0.125 is the specification's scale.
-/
import proofs.«133407_j369367188058_2_alg».proof.Proof.Math.FlashRow
import proofs.«133407_j369367188058_2_alg».proof.Proof.Math.Spec

noncomputable section

open scoped BigOperators

namespace Cert.KernelIdeal.HandValue

open Idealize.ShloMosaic Idealize.ShloMosaic.ValueIdx Idealize.SL.Sem Cert.KernelIdeal Cert.KernelIdeal.Gen Cert.KernelIdeal.Hand
open Cert.Lib.Online Cert.Reals Cert.Math

/-- A row's scores written with the word of 0.125 are the specification's scores. -/
theorem rowScore_eq_score (Q K : SHead.Idx → EReal) (b : Fin 2) (h : Fin 16) (t : Fin 2048) :
    rowScore t.val (fun e => Q (ix4 b h t e)) (fun n e => K (ix4 b h n e)) = fun j => score Q K b h t j := by
  funext n
  unfold rowScore score
  rw [ofBits_eighth]

/-- After the four grid points of query block `qi`, the stored output at row `r`, lane `d` is the specification's causal
    attention at position `qi·512 + r`. -/
theorem flash_row_attnH (Q K V : SHead.Idx → EReal) (b : Fin 2) (h : Fin 16) (qi : Fin 4) (r : Fin 512) (d : Fin 64)
    (i : Fin 4 → grid1.Coords) (qb kb vb : Fin 4 → Vec Ideal S1x512x64 .bf16)
    (h1 : ∀ c, (i c 1).val = qi.val) (h2 : ∀ c, (i c 2).val = c.val)
    (hq : ∀ c : Fin 4, c.val ≤ qi.val → ∀ e, (qb c) (ix3 (0 : Fin 1) r e) = Q (ix4 b h ⟨qi.val * 512 + r.val, by omega⟩ e))
    (hk : ∀ c : Fin 4, c.val ≤ qi.val → ∀ (j : Fin 512) (e : Fin 64),
      (kb c) (ix3 (0 : Fin 1) j e) = K (ix4 b h ⟨c.val * 512 + j.val, by omega⟩ e))
    (hv : ∀ c : Fin 4, c.val ≤ qi.val → ∀ j : Fin 512,
      (vb c) (ix3 (0 : Fin 1) j d) = V (ix4 b h ⟨c.val * 512 + j.val, by omega⟩ d))
    (rQ : ∀ e, IsReal (Q (ix4 b h ⟨qi.val * 512 + r.val, by omega⟩ e)))
    (rK : ∀ n e, IsReal (K (ix4 b h n e))) (rV : ∀ n, IsReal (V (ix4 b h n d)))
    (s0 : St Ideal) :
    outS (F := Ideal)
        (stepS (F := Ideal) (i 3) (qb 3) (kb 3) (vb 3) (stepS (F := Ideal) (i 2) (qb 2) (kb 2) (vb 2)
          (stepS (F := Ideal) (i 1) (qb 1) (kb 1) (vb 1) (stepS (F := Ideal) (i 0) (qb 0) (kb 0) (vb 0) s0))))
        (ix3 (0 : Fin 1) r d)
      = attnH Q K V (ix4 b h ⟨qi.val * 512 + r.val, by omega⟩ d) := by
  rw [attnH_ix]
  unfold attnAt
  rw [← rowScore_eq_score]
  exact flash_row qi r d (fun e => Q (ix4 b h ⟨qi.val * 512 + r.val, by omega⟩ e)) (fun n e => K (ix4 b h n e))
    (fun n d' => V (ix4 b h n d')) i qb kb vb h1 h2 hq hk hv rQ rK rV s0

end Cert.KernelIdeal.HandValue

end
-- ==== Proof.Math.Region1Value.lean ====
/-
  The flash-attention region's output array as one function of the region's input arrays, on the extended reals.

  The grid is (batch-head g, query block qi, key block ki), key block innermost: point number (g·4 + qi)·4 + ki.  The
  query and output windows sit at block (g, qi); the key and value windows at block (g, min(ki, qi)).  A block's entry
  (0, r, e) is the array's entry (g, block·512 + r, e).  The output window is written back at the last key block of each
  (g, qi) only; what it writes is numerator over denominator of the triple the four points of (g, qi) leave, which is
  causal attention of row qi·512 + r over all 2048 key positions.  Every entry (g, n, d) of the output array lies in
  the block written back at point (g·4 + n / 512)·4 + 3, so the array ends holding causal attention everywhere.
-/
import proofs.«133407_j369367188058_2_alg».proof.Proof.KI.Region1
import proofs.«133407_j369367188058_2_alg».proof.Proof.Math.FlashRowSpec

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Reals Cert.Math

/-! ## The printed index maps and coordinates, decided once over the grid -/

/-- The query window's block index at point t. -/
theorem idx_q : ∀ t : Fin cfg1.N, win1_0.index t 0 = t.val / 16 ∧ win1_0.index t 1 = (t.val / 4) % 4 ∧ win1_0.index t 2 = 0 :=
  (by decide +kernel : ∀ t : Fin grid1.N, win1_0.index t 0 = t.val / 16 ∧ win1_0.index t 1 = (t.val / 4) % 4 ∧ win1_0.index t 2 = 0)
/-- The key window's: beyond the diagonal it stays at the diagonal's. -/
theorem idx_k : ∀ t : Fin cfg1.N, win1_1.index t 0 = t.val / 16 ∧ win1_1.index t 1 = min (t.val % 4) ((t.val / 4) % 4) ∧ win1_1.index t 2 = 0 :=
  (by decide +kernel : ∀ t : Fin grid1.N, win1_1.index t 0 = t.val / 16 ∧ win1_1.index t 1 = min (t.val % 4) ((t.val / 4) % 4) ∧ win1_1.index t 2 = 0)
/-- The value window's, the same. -/
theorem idx_v : ∀ t : Fin cfg1.N, win1_2.index t 0 = t.val / 16 ∧ win1_2.index t 1 = min (t.val % 4) ((t.val / 4) % 4) ∧ win1_2.index t 2 = 0 :=
  (by decide +kernel : ∀ t : Fin grid1.N, win1_2.index t 0 = t.val / 16 ∧ win1_2.index t 1 = min (t.val % 4) ((t.val / 4) % 4) ∧ win1_2.index t 2 = 0)
/-- The output window's, the query window's. -/
theorem idx_o : ∀ t : Fin cfg1.N, win1_3.index t 0 = t.val / 16 ∧ win1_3.index t 1 = (t.val / 4) % 4 ∧ win1_3.index t 2 = 0 :=
  (by decide +kernel : ∀ t : Fin grid1.N, win1_3.index t 0 = t.val / 16 ∧ win1_3.index t 1 = (t.val / 4) % 4 ∧ win1_3.index t 2 = 0)
/-- A point's query-block and key-block coordinates. -/
theorem coords_pt : ∀ t : Fin cfg1.N, ((grid1.coords t) 1).val = (t.val / 4) % 4 ∧ ((grid1.coords t) 2).val = t.val % 4 :=
  (by decide +kernel : ∀ t : Fin grid1.N, ((grid1.coords t) 1).val = (t.val / 4) % 4 ∧ ((grid1.coords t) 2).val = t.val % 4)
/-- The output window's block is whole at every point. -/
theorem xsize_o : ∀ t : Fin cfg1.N, win1_3.xsize (grid1.coords t) 0 = 1 ∧ win1_3.xsize (grid1.coords t) 1 = 512 ∧ win1_3.xsize (grid1.coords t) 2 = 64 :=
  (by decide +kernel : ∀ t : Fin grid1.N, win1_3.xsize (grid1.coords t) 0 = 1 ∧ win1_3.xsize (grid1.coords t) 1 = 512 ∧ win1_3.xsize (grid1.coords t) 2 = 64)

variable (V : (c : Dev nD) → (b : Ref sig .tc) → Buf (Elt Ideal) ((c : Thread nD τ).loc b))

/-! ## A block read at an index: block index times block size plus the coordinate inside the block -/

/-- The query window's block at point t, at (0, r, e). -/
theorem iblk_q_apply (c : Dev nD) (t : Fin cfg1.N) (g : Fin 32) (n : Fin 2048) (r : Fin 512) (e : Fin 64)
    (hg : win1_0.index t 0 = g.val) (hn : win1_0.index t 1 * 512 + r.val = n.val) (h2 : win1_0.index t 2 = 0) :
    (iblk1 V c 0 t : Vec Ideal S1x512x64 .bf16) (ix3 (0 : Fin 1) r e) = (V c main_v1 : S32x2048x64.Idx → EReal) (ix3 g n e) := by
  unfold iblk1
  rw [View.read_apply]
  show V c main_v1 _ = V c main_v1 _
  congr 1
  funext a
  apply Fin.ext
  match a with
  | ⟨0, _⟩ => show win1_0.index t 0 * 1 + 1 * 0 = g.val; omega
  | ⟨1, _⟩ => show win1_0.index t 1 * 512 + 1 * r.val = n.val; omega
  | ⟨2, _⟩ => show win1_0.index t 2 * 64 + 1 * e.val = e.val; omega

/-- The key window's block at point t, at (0, r, e). -/
theorem iblk_k_apply (c : Dev nD) (t : Fin cfg1.N) (g : Fin 32) (n : Fin 2048) (r : Fin 512) (e : Fin 64)
    (hg : win1_1.index t 0 = g.val) (hn : win1_1.index t 1 * 512 + r.val = n.val) (h2 : win1_1.index t 2 = 0) :
    (iblk1 V c 1 t : Vec Ideal S1x512x64 .bf16) (ix3 (0 : Fin 1) r e) = (V c main_v2 : S32x2048x64.Idx → EReal) (ix3 g n e) := by
  unfold iblk1
  rw [View.read_apply]
  show V c main_v2 _ = V c main_v2 _
  congr 1
  funext a
  apply Fin.ext
  match a with
  | ⟨0, _⟩ => show win1_1.index t 0 * 1 + 1 * 0 = g.val; omega
  | ⟨1, _⟩ => show win1_1.index t 1 * 512 + 1 * r.val = n.val; omega
  | ⟨2, _⟩ => show win1_1.index t 2 * 64 + 1 * e.val = e.val; omega

/-- The value window's block at point t, at (0, r, e). -/
theorem iblk_v_apply (c : Dev nD) (t : Fin cfg1.N) (g : Fin 32) (n : Fin 2048) (r : Fin 512) (e : Fin 64)
    (hg : win1_2.index t 0 = g.val) (hn : win1_2.index t 1 * 512 + r.val = n.val) (h2 : win1_2.index t 2 = 0) :
    (iblk1 V c 2 t : Vec Ideal S1x512x64 .bf16) (ix3 (0 : Fin 1) r e) = (V c main_v3 : S32x2048x64.Idx → EReal) (ix3 g n e) := by
  unfold iblk1
  rw [View.read_apply]
  show V c main_v3 _ = V c main_v3 _
  congr 1
  funext a
  apply Fin.ext
  match a with
  | ⟨0, _⟩ => show win1_2.index t 0 * 1 + 1 * 0 = g.val; omega
  | ⟨1, _⟩ => show win1_2.index t 1 * 512 + 1 * r.val = n.val; omega
  | ⟨2, _⟩ => show win1_2.index t 2 * 64 + 1 * e.val = e.val; omega

/-- The output window's block of any whole-array contents at point t, at (0, r, d). -/
theorem read_o_apply (c : Dev nD) (G : S32x2048x64.Idx → EReal) (t : Fin cfg1.N) (g : Fin 32) (n : Fin 2048) (r : Fin 512) (d : Fin 64)
    (hg : win1_3.index t 0 = g.val) (hn : win1_3.index t 1 * 512 + r.val = n.val) (h2 : win1_3.index t 2 = 0) :
    (((cfg1.win 3).blk t).view.read (Elt Ideal) (G : Buf (Elt Ideal) ((c : Thread nD τ).loc main_v4)) : S1x512x64.Idx → EReal)
        (ix3 (0 : Fin 1) r d) = G (ix3 g n d) := by
  rw [View.read_apply]
  show G _ = G _
  congr 1
  funext a
  apply Fin.ext
  match a with
  | ⟨0, _⟩ => show win1_3.index t 0 * 1 + 1 * 0 = g.val; omega
  | ⟨1, _⟩ => show win1_3.index t 1 * 512 + 1 * r.val = n.val; omega
  | ⟨2, _⟩ => show win1_3.index t 2 * 64 + 1 * d.val = d.val; omega

/-! ## The four points of a (batch-head, query block) pair -/

/-- Key block `k` of pair `u` = batch-head · 4 + query block. -/
def pt (u : Fin 128) (k : Fin 4) : Fin cfg1.N := ⟨u.val * 4 + k.val, by show _ < 512; omega⟩

theorem pt_val (u : Fin 128) (k : Fin 4) : (pt u k).val = u.val * 4 + k.val := rfl

theorem pt_val_last (u : Fin 128) : (pt u 3).val = u.val * 4 + 3 := rfl

theorem scrAt_congr (c : Dev nD) (n n' : ℕ) (h : n = n') (hn : n < cfg1.N) (hn' : n' < cfg1.N) :
    scrAt V c n hn = scrAt V c n' hn' := by subst h; rfl

/-- The triple after a point is the point's step on the triple after the point before. -/
theorem scr_step (c : Dev nD) (t t' : Fin cfg1.N) (h : t.val = t'.val + 1) :
    scrAt V c t.val t.isLt
      = stepS (grid1.coords t) (iblk1 V c 0 t) (iblk1 V c 1 t) (iblk1 V c 2 t) (scrAt V c t'.val t'.isLt) := by
  rw [scrAt_next V c t (by omega)]
  exact congrArg _ (scrAt_congr V c _ _ (by omega) _ _)

/-- The triple after any point is the point's step on some triple. -/
theorem scr_start (c : Dev nD) (t : Fin cfg1.N) :
    ∃ s0 : St Ideal, scrAt V c t.val t.isLt = stepS (grid1.coords t) (iblk1 V c 0 t) (iblk1 V c 1 t) (iblk1 V c 2 t) s0 := by
  by_cases ht : t.val = 0
  · exact ⟨stInit, scrAt_first V c t ht stInit⟩
  · exact ⟨_, scrAt_next V c t ht⟩

/-- The triple after the last key block of a pair: the pair's four steps on some triple. -/
theorem scr_four (c : Dev nD) (u : Fin 128) :
    ∃ s0 : St Ideal, scrAt V c (pt u 3).val (pt u 3).isLt
      = stepS (grid1.coords (pt u 3)) (iblk1 V c 0 (pt u 3)) (iblk1 V c 1 (pt u 3)) (iblk1 V c 2 (pt u 3))
          (stepS (grid1.coords (pt u 2)) (iblk1 V c 0 (pt u 2)) (iblk1 V c 1 (pt u 2)) (iblk1 V c 2 (pt u 2))
            (stepS (grid1.coords (pt u 1)) (iblk1 V c 0 (pt u 1)) (iblk1 V c 1 (pt u 1)) (iblk1 V c 2 (pt u 1))
              (stepS (grid1.coords (pt u 0)) (iblk1 V c 0 (pt u 0)) (iblk1 V c 1 (pt u 0)) (iblk1 V c 2 (pt u 0)) s0))) := by
  obtain ⟨s0, h0⟩ := scr_start V c (pt u 0)
  refine ⟨s0, ?_⟩
  rw [scr_step V c (pt u 3) (pt u 2) rfl, scr_step V c (pt u 2) (pt u 1) rfl, scr_step V c (pt u 1) (pt u 0) rfl, h0]

/-! ## What the last key block of a pair writes back -/

section Arrays

variable (c : Dev nD) (Q K Vv : SHead.Idx → EReal)
  (hQ : ∀ (b : Fin 2) (h : Fin 16) (t : Fin 2048) (e : Fin 64),
    (V c main_v1 : S32x2048x64.Idx → EReal) (ix3 (⟨b.val * 16 + h.val, by omega⟩ : Fin 32) t e) = Q (ix4 b h t e))
  (hK : ∀ (b : Fin 2) (h : Fin 16) (t : Fin 2048) (e : Fin 64),
    (V c main_v2 : S32x2048x64.Idx → EReal) (ix3 (⟨b.val * 16 + h.val, by omega⟩ : Fin 32) t e) = K (ix4 b h t e))
  (hV : ∀ (b : Fin 2) (h : Fin 16) (t : Fin 2048) (e : Fin 64),
    (V c main_v3 : S32x2048x64.Idx → EReal) (ix3 (⟨b.val * 16 + h.val, by omega⟩ : Fin 32) t e) = Vv (ix4 b h t e))
  (rQ : ∀ i, IsReal (Q i)) (rK : ∀ i, IsReal (K i)) (rV : ∀ i, IsReal (Vv i))

include hQ hK hV rQ rK rV in
/-- The stored block of pair (batch b, head h, query block qi) at row r, lane d: causal attention at position
    qi·512 + r. -/
theorem flushed_block (b : Fin 2) (h : Fin 16) (qi : Fin 4) (u : Fin 128) (hu : u.val = (b.val * 16 + h.val) * 4 + qi.val)
    (r : Fin 512) (d : Fin 64) :
    outS (F := Ideal) (scrAt V c (pt u 3).val (pt u 3).isLt) (ix3 (0 : Fin 1) r d)
      = attnH Q K Vv (ix4 b h ⟨qi.val * 512 + r.val, by omega⟩ d) := by
  obtain ⟨s0, hs⟩ := scr_four V c u
  rw [hs]
  refine flash_row_attnH Q K Vv b h qi r d (fun k => grid1.coords (pt u k)) (fun k => iblk1 V c 0 (pt u k))
    (fun k => iblk1 V c 1 (pt u k)) (fun k => iblk1 V c 2 (pt u k)) ?_ ?_ ?_ ?_ ?_ (fun e => rQ _) (fun n e => rK _) (fun n => rV _) s0
  · intro k
    have := (coords_pt (pt u k)).1
    rw [this, pt_val]; omega
  · intro k
    have := (coords_pt (pt u k)).2
    rw [this, pt_val]; omega
  · intro k _ e
    have hi := idx_q (pt u k)
    rw [pt_val] at hi
    rw [iblk_q_apply V c (pt u k) ⟨b.val * 16 + h.val, by omega⟩ ⟨qi.val * 512 + r.val, by omega⟩ r e
      (by rw [hi.1]; show _ = b.val * 16 + h.val; omega) (by rw [hi.2.1]; show _ = qi.val * 512 + r.val; omega) hi.2.2]
    exact hQ b h _ e
  · intro k hk j e
    have hi := idx_k (pt u k)
    rw [pt_val] at hi
    rw [iblk_k_apply V c (pt u k) ⟨b.val * 16 + h.val, by omega⟩ ⟨k.val * 512 + j.val, by omega⟩ j e
      (by rw [hi.1]; show _ = b.val * 16 + h.val; omega) (by rw [hi.2.1]; show _ = k.val * 512 + j.val; omega) hi.2.2]
    exact hK b h _ e
  · intro k hk j
    have hi := idx_v (pt u k)
    rw [pt_val] at hi
    rw [iblk_v_apply V c (pt u k) ⟨b.val * 16 + h.val, by omega⟩ ⟨k.val * 512 + j.val, by omega⟩ j d
      (by rw [hi.1]; show _ = b.val * 16 + h.val; omega) (by rw [hi.2.1]; show _ = k.val * 512 + j.val; omega) hi.2.2]
    exact hV b h _ d

/-! ## The output array -/

/-- Causal attention as a function of the flattened index (batch-head, position, lane). -/
def attnFlatAt (g : Fin 32) (n : Fin 2048) (d : Fin 64) : EReal :=
  attnH Q K Vv (ix4 (⟨g.val / 16, by omega⟩ : Fin 2) (⟨g.val % 16, by omega⟩ : Fin 16) n d)

/-- Causal attention over the flattened array. -/
def attnFlat : S32x2048x64.Idx → EReal := fun i => attnFlatAt Q K Vv (i 0) (i 1) (i 2)

include hQ hK hV rQ rK rV in
/-- Every write-back of the output window writes its block of causal attention. -/
theorem flushed_eq (t : Fin cfg1.N) (hf : (cfg1.win 3).flush t = true) :
    (dat1 (F := Ideal) V c).flushed 3 t
      = ((cfg1.win 3).blk t).view.read (Elt Ideal) (attnFlat Q K Vv : Buf (Elt Ideal) ((c : Thread nD τ).loc main_v4)) := by
  have h3 : t.val % 4 = 3 := (flush1_3 t).mp hf
  have htN : t.val < 512 := t.isLt
  obtain ⟨u, rfl⟩ : ∃ u : Fin 128, t = pt u 3 := ⟨⟨t.val / 4, by omega⟩, Fin.ext (by rw [pt_val]; show t.val = t.val / 4 * 4 + 3; omega)⟩
  show (cfg1.win 3).cut (grid1.coords (pt u 3)) ((dat1 (F := Ideal) V c).after 3 (pt u 3)) = _
  rw [after1_3]
  refine funext fun (y : S1x512x64.Idx) => ?_
  obtain ⟨z, r, d, rfl⟩ : ∃ (z : Fin 1) (r : Fin 512) (d : Fin 64), y = ix3 z r d := ⟨y 0, y 1, y 2, eq_ix3 y⟩
  obtain rfl : z = 0 := Subsingleton.elim _ _
  have hi := idx_o (pt u 3)
  rw [pt_val] at hi
  have hu4 : u.val < 128 := u.isLt
  rw [read_o_apply c (attnFlat Q K Vv) (pt u 3) ⟨u.val / 4, by omega⟩ ⟨u.val % 4 * 512 + r.val, by omega⟩ r d
    (by rw [hi.1]; show _ = u.val / 4; omega) (by rw [hi.2.1]; show _ = u.val % 4 * 512 + r.val; omega) hi.2.2]
  show outS (F := Ideal) (scrAt V c (pt u 3).val (pt u 3).isLt) (ix3 (0 : Fin 1) r d) = _
  rw [flushed_block V c Q K Vv hQ hK hV rQ rK rV ⟨u.val / 64, by omega⟩ ⟨u.val / 4 % 16, by omega⟩ ⟨u.val % 4, by omega⟩ u
    (by show u.val = (u.val / 64 * 16 + u.val / 4 % 16) * 4 + u.val % 4; omega) r d]
  show _ = attnH Q K Vv (ix4 (⟨u.val / 4 / 16, _⟩ : Fin 2) (⟨u.val / 4 % 16, _⟩ : Fin 16) _ d)
  congr 2
  exact Fin.ext (by show u.val / 64 = u.val / 4 / 16; omega)

/-- Every entry of the output array lies in a block that is written back. -/
theorem covered (i : ((cfg1.win 3).arr.view.loc ((c : Dev nD).tc : Thread nD τ)).2.ty.Idx) :
    ∃ t : Fin cfg1.N, (cfg1.win 3).flush t = true ∧ i ∈ ((cfg1.win 3).blk t).view.set := by
  have h0 : (i 0 : ℕ) < 32 := (i 0).isLt
  have h1 : (i 1 : ℕ) < 2048 := (i 1).isLt
  have h2 : (i 2 : ℕ) < 64 := (i 2).isLt
  obtain ⟨u, hu⟩ : ∃ u : Fin 128, u.val = (i 0 : ℕ) * 4 + (i 1 : ℕ) / 512 := ⟨⟨_, by omega⟩, rfl⟩
  refine ⟨pt u 3, (flush1_3 _).mpr (by rw [pt_val_last]; omega), ?_⟩
  show i ∈ ((View.whole main_v4).slice (win1_3.rect (pt u 3))).set
  rw [View.set_slice_whole, Rect.mem_set_unit]
  have hi := idx_o (pt u 3)
  have hx := xsize_o (pt u 3)
  rw [pt_val_last] at hi
  intro a
  match a with
  | ⟨0, _⟩ =>
    show win1_3.index _ 0 * 1 ≤ (i 0 : ℕ) ∧ (i 0 : ℕ) < win1_3.index _ 0 * 1 + win1_3.xsize (grid1.coords _) 0
    rw [hi.1, hx.1]; show _ * 1 ≤ _ ∧ _ < _ * 1 + 1; omega
  | ⟨1, _⟩ =>
    show win1_3.index _ 1 * 512 ≤ (i 1 : ℕ) ∧ (i 1 : ℕ) < win1_3.index _ 1 * 512 + win1_3.xsize (grid1.coords _) 1
    rw [hi.2.1, hx.2.1]; show _ * 512 ≤ _ ∧ _ < _ * 512 + 512; omega
  | ⟨2, _⟩ =>
    show win1_3.index _ 2 * 64 ≤ (i 2 : ℕ) ∧ (i 2 : ℕ) < win1_3.index _ 2 * 64 + win1_3.xsize (grid1.coords _) 2
    rw [hi.2.2, hx.2.2]; omega

include hQ hK hV rQ rK rV in
/-- The region's output array ends holding causal attention. -/
theorem region1_array :
    (dat1 (F := Ideal) V c).arrAt 3 cfg1.N = (attnFlat Q K Vv : Buf (Elt Ideal) ((c : Thread nD τ).loc main_v4)) :=
  (dat1 (F := Ideal) V c).arrAt_eq_of_cover 3 _ (flushed_eq V c Q K Vv hQ hK hV rQ rK rV) (covered c)

include hQ hK hV rQ rK rV in
/-- The region's output array at (batch b · 16 + head h, position t, lane d): the specification's causal attention of
    the head-major arrays at (b, h, t, d). -/
theorem region1_value (b : Fin 2) (h : Fin 16) (t : Fin 2048) (d : Fin 64) :
    ((dat1 (F := Ideal) V c).arrAt 3 cfg1.N : S32x2048x64.Idx → EReal) (ix3 (⟨b.val * 16 + h.val, by omega⟩ : Fin 32) t d)
      = attnH Q K Vv (ix4 b h t d) := by
  rw [region1_array V c Q K Vv hQ hK hV rQ rK rV]
  show attnH Q K Vv (ix4 (⟨(b.val * 16 + h.val) / 16, _⟩ : Fin 2) (⟨(b.val * 16 + h.val) % 16, _⟩ : Fin 16) t d) = _
  congr 2
  · exact Fin.ext (by show (b.val * 16 + h.val) / 16 = b.val; omega)
  · exact Fin.ext (by show (b.val * 16 + h.val) % 16 = h.val; omega)

end Arrays

end Cert.KernelIdeal.HandValue

end
-- ==== Proof.Math.Region2Value.lean ====
import proofs.«133407_j369367188058_2_alg».proof.Proof.KI.Region2
import proofs.«133407_j369367188058_2_alg».proof.Proof.Math.PayloadReads
import Idealize.ShloMosaic.Lib.Pipeline.Value
import Idealize.ShloMosaic.Lib.Tactic

/-! # Region 2 as a function of whole arrays, on the extended reals

Region 2 multiplies the 4096×1024 activation array by the 1024×1024 output weight, eight row blocks of 512 rows,
one per grid point. Point `t` reads rows 512·t … 512·t + 511 of the activations and the whole weight and writes the
same rows of the result. So what every point writes back is its block of one function of the two arrays — entry
(r, e) is the inner product of activation row r with weight column e — and the eight blocks tile the result array.
Hence the array the pipeline leaves is that function. -/

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- Offsets written as a literal pair of zeros are the zero offsets. -/
theorem origin2 : (![0, 0] : Fin 2 → Nat) = fun _ => 0 := funext fun a => by fin_cases a <;> rfl

/-- A 4096×1024 array times a 1024×1024 array: entry (r, e) is row r of the first against column e of the second. -/
def matProd2 (x : S4096x1024.Idx → EReal) (w : S1024x1024.Idx → EReal) : S4096x1024.Idx → EReal := fun i =>
  ∑ k : Fin 1024, x (ix2 (i 0) k) * w (ix2 k (i 1))

theorem matProd2_apply (x : S4096x1024.Idx → EReal) (w : S1024x1024.Idx → EReal) (r : Fin 4096) (e : Fin 1024) :
    matProd2 x w (ix2 r e) = ∑ k : Fin 1024, x (ix2 r k) * w (ix2 k e) := rfl

/-- The activations, the weight and the result array of region 2 as arrays of extended reals: what the region finds
    in the first two, what its pipeline leaves in the third after the last point. -/
abbrev act2 (c : Dev nD) : S4096x1024.Idx → EReal := V c main_v7
abbrev wgt2 (c : Dev nD) : S1024x1024.Idx → EReal := V c main_arg4
abbrev res2 (c : Dev nD) : S4096x1024.Idx → EReal := (dat2 (F := Ideal) V c).arrAt 2 cfg2.N

/-- The product of the two arrays as the region finds them. -/
abbrev prod2 (c : Dev nD) : S4096x1024.Idx → Elt Ideal .f32 := matProd2 (V c main_v7) (V c main_arg4)

/-- The body's tile at any index of the block, by coordinates. -/
theorem tile2_at (x : Vec Ideal S512x1024 .bf16) (w : Vec Ideal S1024x1024 .f32) (j : S512x1024.Idx) :
    k2_pay1 (F := Ideal) x w j = ∑ k : Fin 1024, x (ix2 (j 0) k) * w (ix2 k (j 1)) := by
  obtain ⟨a, b, rfl⟩ : ∃ a b, j = ix2 a b := ⟨j 0, j 1, eq_ix2 j⟩
  exact k2_pay1_apply x w a b

/-- The three windows' block indices at every grid point: the activations' and the result's row block is the
    point's number, every column block is block 0, the weight's only block is block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product. -/
theorem wroteBack2 (c : Dev nD) (t : Fin cfg2.N) :
    (dat2 (F := Ideal) V c).flushed 2 t = ((cfg2.win 2).blk t).view.read (Elt Ideal) (prod2 V c) := by
  show (cfg2.win 2).cut (grid2.coords t) ((dat2 V c).after 2 t) = _
  rw [after2_2]
  unfold out2_2
  rw [View.canon_unit_zero origin2]
  simp only [View.ld_unit_zero (S := S512x1024) origin2, View.ld_unit_zero (S := S1024x1024) origin2]
  obtain ⟨a0, a1, w0, w1, o0, o1⟩ := blockIdx2 t
  funext j
  refine (tile2_at _ _ j).trans ?_
  show (∑ k : Fin 1024, act2 V c (((cfg2.win 0).blk t).view.emb (ix2 (j 0) k))
        * wgt2 V c (((cfg2.win 1).blk t).view.emb (ix2 k (j 1))))
    = matProd2 (V c main_v7) (V c main_arg4) (((cfg2.win 2).blk t).view.emb j)
  unfold matProd2
  refine Finset.sum_congr rfl fun k _ => ?_
  -- a block's coordinate in its array is block index × block size + the coordinate inside the block
  have hrow : ((cfg2.win 0).blk t).view.emb (ix2 (j 0) k) = ix2 ((((cfg2.win 2).blk t).view.emb j) 0) k := by
    funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 1024 + 1 * k.val = k.val; omega
  have hcol : ((cfg2.win 1).blk t).view.emb (ix2 k (j 1)) = ix2 k ((((cfg2.win 2).blk t).view.emb j) 1) := by
    funext a; apply Fin.ext
    match a with
    | ⟨0, _⟩ => show win2_1.index t (0 : Fin 2) * 1024 + 1 * k.val = k.val; omega
    | ⟨1, _⟩ => show win2_1.index t (1 : Fin 2) * 1024 + 1 * (j 1).val = win2_2.index t (1 : Fin 2) * 1024 + 1 * (j 1).val; omega
  rw [hrow, hcol]
  rfl

/-- An index of the result array lies in point `t`'s block iff each coordinate lies in the block's range. -/
theorem inBlock2 (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v8).slice (win2_2.rect t)).set ↔ _
  rw [View.set_slice_whole, Rect.mem_set_unit]
  exact Iff.rfl

/-- Row r of the result lies in the block of point r / 512, which is written back. -/
theorem tiled2 (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  refine ⟨⟨(i 0).val / 512, by have h8 : grid2.N = 8 := N_2; have h8' : cfg2.N = 8 := N_2; omega⟩, flush2_2 _, ?_⟩
  rw [inBlock2]
  obtain ⟨a0, a1, w0, w1, o0, o1⟩ := blockIdx2 ⟨(i 0).val / 512, by have h8 : grid2.N = 8 := N_2; have h8' : cfg2.N = 8 := N_2; omega⟩
  have o0' : win2_2.index ⟨(i 0).val / 512, by have h8 : grid2.N = 8 := N_2; have h8' : cfg2.N = 8 := N_2; omega⟩ (0 : Fin 2) = (i 0).val / 512 := o0
  intro a
  match a with
  | ⟨0, _⟩ => show win2_2.index _ (0 : Fin 2) * 512 ≤ (i 0).val ∧ (i 0).val < win2_2.index _ (0 : Fin 2) * 512 + 512; omega
  | ⟨1, _⟩ => show win2_2.index _ (1 : Fin 2) * 1024 ≤ (i 1).val ∧ (i 1).val < win2_2.index _ (1 : Fin 2) * 1024 + 1024; omega

/-- The result array after the last point is the product of the two arrays the region found. -/
theorem region2_array (c : Dev nD) : (dat2 (F := Ideal) V c).arrAt 2 cfg2.N = prod2 V c :=
  (dat2 V c).arrAt_eq_of_cover 2 (prod2 V c) (fun t _ => wroteBack2 V c t) tiled2

/-- Entry (r, e) of the result array after the last point: activation row r against weight column e. -/
theorem region2_out (c : Dev nD) (r : Fin 4096) (e : Fin 1024) :
    res2 V c (ix2 r e) = ∑ k : Fin 1024, act2 V c (ix2 r k) * wgt2 V c (ix2 k e) := by
  show ((dat2 (F := Ideal) V c).arrAt 2 cfg2.N : S4096x1024.Idx → EReal) (ix2 r e) = _
  rw [region2_array]
  rfl

end Cert.KernelIdeal.HandValue

end
-- ==== Proof.Math.KernelFinal.lean ====
/-
  The kernel's result buffer holds the attention layer of its five argument arrays: the three calls' output arrays are
  whole-array functions of what each call finds — the head-major projections, the causal softmax attention per
  (batch, head), the output projection — and the layout steps between them match coordinates to coordinates.
-/
import proofs.«133407_j369367188058_2_alg».proof.Proof.Math.KernelValue
import proofs.«133407_j369367188058_2_alg».proof.Proof.Math.Region0Value
import proofs.«133407_j369367188058_2_alg».proof.Proof.Math.Region1Value
import proofs.«133407_j369367188058_2_alg».proof.Proof.Math.Region2Value

noncomputable section

namespace Cert.KernelIdeal.HandValue

open Idealize.ShloMosaic Idealize.ShloMosaic.ValueIdx Idealize.SL.Sem Cert.KernelIdeal Cert.KernelIdeal.Hand

/-- At the exact instance, from a memory whose argument arrays hold real numbers, the result buffer at the return is
    the layer of the argument arrays. -/
theorem kernel_value (m : (ℓ : Loc nD τ sig) → Buf (Elt Ideal) ℓ) (ρ : Dev nD → PrngReg) (c : Dev nD)
    (hreal : (∀ i : S2x2048x1024.Idx, Cert.Reals.IsReal (m ((c.tc : Thread nD τ).loc main_arg0) i))
      ∧ (∀ i : S1024x1024.Idx, Cert.Reals.IsReal (m ((c.tc : Thread nD τ).loc main_arg1) i))
      ∧ (∀ i : S1024x1024.Idx, Cert.Reals.IsReal (m ((c.tc : Thread nD τ).loc main_arg2) i))
      ∧ (∀ i : S1024x1024.Idx, Cert.Reals.IsReal (m ((c.tc : Thread nD τ).loc main_arg3) i))
      ∧ (∀ i : S1024x1024.Idx, Cert.Reals.IsReal (m ((c.tc : Thread nD τ).loc main_arg4) i))) :
    Wlast (F := Ideal) m ρ c (Proc.devRef .tc main_v9) = Cert.Math.layer (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) :=
  kernel_value_of m ρ c (region0_q (E0 m ρ) c) (region0_k (E0 m ρ) c) (region0_v (E0 m ρ) c)
    (fun Q K Vv hQ hK hV rQ rK rV b h t d => region1_value (E1 m ρ) c Q K Vv hQ hK hV rQ rK rV b h t d)
    (region2_out (E2 m ρ) c) hreal.1 hreal.2.1 hreal.2.2.1 hreal.2.2.2.1

end Cert.KernelIdeal.HandValue

end
-- ==== Proof.lean ====
/-
  Causal multi-head self-attention (2 sequences of 2048 tokens, width 1024, 16 heads of width 64) computed by three
  kernel calls — the three projections written head-major; blockwise (online) softmax attention over key blocks
  at or below the diagonal, with a running maximum, denominator and numerator; the output projection — against the
  one-pass formula: project, scale the scores by 1/sqrt(64) = 1/8, mask above the diagonal with -inf, softmax along
  keys, weight the values, merge the heads, project.

  On extended reals with exact operations the two agree for finite inputs: a projection entry is the same sum over
  the contracted axis however it is tiled and laid out; the kernel's mask constant is read as -inf, so a masked
  score contributes exp(-inf) = 0 on both sides; and the blockwise recursion's final quotient equals the one-pass
  softmax average because every unmasked score is a real number (the inputs are finite) and every row has its
  diagonal entry unmasked, so the running maximum is real from the first block on and rescaling by
  exp(m_old - m_new) is exact. Key blocks beyond the diagonal are skipped by the kernel and are all -inf in the
  formula.

  Each program also terminates without fault and leaves its arguments unchanged: the three calls are run point by
  point (the attention call keeping its running triple in scratch from one point to the next), the layout steps
  between them in sequence.
-/
import proofs.«133407_j369367188058_2_alg».proof.Defs
import proofs.«133407_j369367188058_2_alg».proof.Proof.Gen.Kernel
import proofs.«133407_j369367188058_2_alg».proof.Proof.Gen.KernelIdeal
import proofs.«133407_j369367188058_2_alg».proof.Proof.Gen.ReferenceIdeal
import proofs.«133407_j369367188058_2_alg».proof.Proof.Gen.Pre_finite_inputs
import proofs.«133407_j369367188058_2_alg».proof.Proof.Gen.ReferenceIdeal.Run
import proofs.«133407_j369367188058_2_alg».proof.Proof.Gen.ReferenceIdeal.Read
import proofs.«133407_j369367188058_2_alg».proof.Proof.K.Run
import proofs.«133407_j369367188058_2_alg».proof.Proof.KI.Run
import proofs.«133407_j369367188058_2_alg».proof.Proof.Math.RefIsSpec
import proofs.«133407_j369367188058_2_alg».proof.Proof.Math.Finite
import proofs.«133407_j369367188058_2_alg».proof.Proof.Math.KernelFinal
import Idealize.ShloMosaic.Adequacy
import Idealize.ShloMosaic.Init

noncomputable section

namespace Cert.Proof

open Idealize.ShloMosaic Idealize.SL.Sem

/-- The word-level program runs to the end and keeps its arguments. -/
theorem frame_k : Cert.frame_Kernel := fun m ρ _ => Cert.Kernel.Hand.frame_all (F := Bits) m ρ

/-- So does its idealization. -/
theorem frame_ki : Cert.frame_KernelIdeal := fun m ρ _ => Cert.KernelIdeal.Hand.frame_all (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask fill -1e30 is named, and the name denotes -inf. -/
theorem preserves : Cert.preserves_Kernel_KernelIdeal :=
  IdealRules.named_const.statement Cert.KernelIdeal.κ "neg_big" .f32 0xF149F2CA#32 ⊥ rfl

/-- Both idealized programs end with the attention layer of the five argument arrays in their result buffer. -/
theorem algebraic : Cert.algebraic_KernelIdeal_ReferenceIdeal := by
  intro m ρ m' ρ' hpre hagree
  refine ⟨fun c => Cert.Math.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Hand.run_all (F := Ideal) m ρ)
    exact ⟨(h c _ (Cert.KernelIdeal.Hand.unscoped_mem Cert.KernelIdeal.main_v9 (by decide))).trans
        (Cert.KernelIdeal.HandValue.kernel_value m ρ c (Cert.Math.inputs_real m hpre c)),
      (h c _ (Cert.KernelIdeal.Hand.unscoped_mem Cert.KernelIdeal.main_arg0 (by decide))).trans (Cert.KernelIdeal.Hand.Wlast_arg0 m ρ c),
      (h c _ (Cert.KernelIdeal.Hand.unscoped_mem Cert.KernelIdeal.main_arg1 (by decide))).trans (Cert.KernelIdeal.Hand.Wlast_arg1 m ρ c),
      (h c _ (Cert.KernelIdeal.Hand.unscoped_mem Cert.KernelIdeal.main_arg2 (by decide))).trans (Cert.KernelIdeal.Hand.Wlast_arg2 m ρ c),
      (h c _ (Cert.KernelIdeal.Hand.unscoped_mem Cert.KernelIdeal.main_arg3 (by decide))).trans (Cert.KernelIdeal.Hand.Wlast_arg3 m ρ c),
      (h c _ (Cert.KernelIdeal.Hand.unscoped_mem Cert.KernelIdeal.main_arg4 (by decide))).trans (Cert.KernelIdeal.Hand.Wlast_arg4 m ρ c)⟩
  · refine (θ_run Cert.ReferenceIdeal.defs _ _).mono (fun _ h c => ⟨?_, (h c).2⟩)
      (Cert.ReferenceIdeal.Value.run (F := Ideal) m' ρ')
    rw [(h c).1, Cert.Math.ref_result, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
